-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_v85) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x128x256x256 : Shape := ⟨4, ![8, 128, 256, 256]⟩
abbrev S128x128 : Shape := ⟨2, ![128, 128]⟩
abbrev S128 : Shape := ⟨1, ![128]⟩
abbrev S8x128 : Shape := ⟨2, ![8, 128]⟩
abbrev S8 : Shape := ⟨1, ![8]⟩
abbrev S_ : Shape := ⟨0, ![]⟩

class Facts : Prop where
  bcast_S_S8x128x256x256 : S_.BroadcastsInDim S8x128x256x256 (![] : Fin 0 → Fin S8x128x256x256.rank)
  reducesTo_S8x128x256x256_S_d0_1_2_3 : S8x128x256x256.ReducesTo [0, 1, 2, 3] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S8x128 : S_.BroadcastsInDim S8x128 (![] : Fin 0 → Fin S8x128.rank)
  reducesTo_S8x128_S_d0_1 : S8x128.ReducesTo [0, 1] S_
  bcast_S_S8 : S_.BroadcastsInDim S8 (![] : Fin 0 → Fin S8.rank)
  reducesTo_S8_S_d0 : S8.ReducesTo [0] S_

variable [Facts]

def fn_part3 {F : FTy → Type} [FloatOps F] (main_arg11 : FVec F S8x128 .f32) (main_arg12 : FVec F S8 .f32) (main_v48 : IVec S_ 1) (main_v49 : FVec F S8 .f32) (main_v50 : FVec F S8 .f32) : IVec S_ 1 :=
  let main_v51 : IVec S8 1 := cmpf .olt main_v49 main_v50
  let main_c_19 : IVec S_ 1 := constantI S_ 1 1#1
  let main_v52 : IVec S_ 1 := (fun x v => Host.reduce IntOp.andi x v reducesTo_S8_S_d0 h_S_) main_v51 main_c_19
  let main_v53 : IVec S_ 1 := andi main_v48 main_v52
  let main_v54 : FVec F S8x128 .f32 := Host.absf main_arg11
  let main_cst_20 : FVec F S_ .f32 := constant S_ .f32 0x7F800000#32
  let main_v55 : FVec F S8x128 .f32 := broadcastInDim S8x128 ![] bcast_S_S8x128 main_cst_20
  let main_v56 : IVec S8x128 1 := cmpf .olt main_v54 main_v55
  let main_c_21 : IVec S_ 1 := constantI S_ 1 1#1
  let main_v57 : IVec S_ 1 := (fun x v => Host.reduce IntOp.andi x v reducesTo_S8x128_S_d0_1 h_S_) main_v56 main_c_21
  let main_v58 : IVec S_ 1 := andi main_v53 main_v57
  let main_v59 : FVec F S8 .f32 := Host.absf main_arg12
  let main_cst_22 : FVec F S_ .f32 := constant S_ .f32 0x7F800000#32
  let main_v60 : FVec F S8 .f32 := broadcastInDim S8 ![] bcast_S_S8 main_cst_22
  let main_v61 : IVec S8 1 := cmpf .olt main_v59 main_v60
  let main_c_23 : IVec S_ 1 := constantI S_ 1 1#1
  let main_v62 : IVec S_ 1 := (fun x v => Host.reduce IntOp.andi x v reducesTo_S8_S_d0 h_S_) main_v61 main_c_23
  let main_v63 : IVec S_ 1 := andi main_v58 main_v62
  main_v63

def fn_part2 {F : FTy → Type} [FloatOps F] (main_arg7 : FVec F S128 .f32) (main_arg8 : FVec F S128 .f32) (main_arg9 : FVec F S8x128 .f32) (main_arg10 : FVec F S8 .f32) (main_arg11 : FVec F S8x128 .f32) (main_arg12 : FVec F S8 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S8x128 .f32 := Host.absf main_arg9
  let main_cst_16 : FVec F S_ .f32 := constant S_ .f32 0x7F800000#32
  let main_v45 : FVec F S8x128 .f32 := broadcastInDim S8x128 ![] bcast_S_S8x128 main_cst_16
  let main_v46 : IVec S8x128 1 := cmpf .olt main_v44 main_v45
  let main_c_17 : IVec S_ 1 := constantI S_ 1 1#1
  let main_v47 : IVec S_ 1 := (fun x v => Host.reduce IntOp.andi x v reducesTo_S8x128_S_d0_1 h_S_) main_v46 main_c_17
  let main_v48 : IVec S_ 1 := andi main_v43 main_v47
  let main_v49 : FVec F S8 .f32 := Host.absf main_arg10
  let main_cst_18 : FVec F S_ .f32 := constant S_ .f32 0x7F800000#32
  let main_v50 : FVec F S8 .f32 := broadcastInDim S8 ![] bcast_S_S8 main_cst_18
  fn_part3 (F := F) main_arg11 main_arg12 main_v48 main_v49 main_v50

def fn_part1 {F : FTy → Type} [FloatOps F] (main_arg4 : FVec F S128 .f32) (main_arg5 : FVec F S128x128 .f32) (main_arg6 : FVec F S128 .f32) (main_arg7 : FVec F S128 .f32) (main_arg8 : FVec F S128 .f32) (main_arg9 : FVec F S8x128 .f32) (main_arg10 : FVec F S8 .f32) (main_arg11 : FVec F S8x128 .f32) (main_arg12 : FVec F S8 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S8x128x256x256 .f32) (main_arg1 : FVec F S128x128 .f32) (main_arg2 : FVec F S128 .f32) (main_arg3 : FVec F S128 .f32) (main_arg4 : FVec F S128 .f32) (main_arg5 : FVec F S128x128 .f32) (main_arg6 : FVec F S128 .f32) (main_arg7 : FVec F S128 .f32) (main_arg8 : FVec F S128 .f32) (main_arg9 : FVec F S8x128 .f32) (main_arg10 : FVec F S8 .f32) (main_arg11 : FVec F S8x128 .f32) (main_arg12 : FVec F S8 .f32) : IVec S_ 1 :=
  let main_v0 : FVec F S8x128x256x256 .f32 := Host.absf main_arg0
  let main_cst : FVec F S_ .f32 := constant S_ .f32 0x7F800000#32
  let main_v1 : FVec F S8x128x256x256 .f32 := broadcastInDim S8x128x256x256 ![] bcast_S_S8x128x256x256 main_cst
  let main_v2 : IVec S8x128x256x256 1 := cmpf .olt main_v0 main_v1
  let main_c : IVec S_ 1 := constantI S_ 1 1#1
  let main_v3 : IVec S_ 1 := (fun x v => Host.reduce IntOp.andi x v reducesTo_S8x128x256x256_S_d0_1_2_3 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_arg12 main_v13 main_v16
-- ==== Kernel.lean ====
abbrev S8x128x256x256 : Shape := ⟨4, ![8, 128, 256, 256]⟩
abbrev S128x128 : Shape := ⟨2, ![128, 128]⟩
abbrev S128 : Shape := ⟨1, ![128]⟩
abbrev S8x128 : Shape := ⟨2, ![8, 128]⟩
abbrev S8 : Shape := ⟨1, ![8]⟩
abbrev S1x128 : Shape := ⟨2, ![1, 128]⟩
abbrev S1x8 : Shape := ⟨2, ![1, 8]⟩
abbrev S8x8x256x256 : Shape := ⟨4, ![8, 8, 256, 256]⟩
abbrev S1x128x32x256 : Shape := ⟨4, ![1, 128, 32, 256]⟩
abbrev S1x8x32x256 : Shape := ⟨4, ![1, 8, 32, 256]⟩
abbrev S128x32x256 : Shape := ⟨3, ![128, 32, 256]⟩
abbrev S32x256x128 : Shape := ⟨3, ![32, 256, 128]⟩
abbrev S8192x128 : Shape := ⟨2, ![8192, 128]⟩
abbrev S8192 : Shape := ⟨1, ![8192]⟩
abbrev S8192x1 : Shape := ⟨2, ![8192, 1]⟩
abbrev S128x8 : Shape := ⟨2, ![128, 8]⟩
abbrev S8192x8 : Shape := ⟨2, ![8192, 8]⟩
abbrev S32x256x8 : Shape := ⟨3, ![32, 256, 8]⟩
abbrev S8x32x256 : Shape := ⟨3, ![8, 32, 256]⟩

abbrev nBuf : Space → Nat
  | .hbm => 23
  | .vmem => 18
  | .smem => 0
  | _ => 0

abbrev bufTy : (tb : Table) → Fin (tcTables nBuf tb) → BufTy
  | .hbm, ⟨0, _⟩ => ⟨S8x128x256x256, .f32⟩
  | .hbm, ⟨1, _⟩ => ⟨S128x128, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S8x128, .f32⟩
  | .hbm, ⟨10, _⟩ => ⟨S8, .f32⟩
  | .hbm, ⟨11, _⟩ => ⟨S8x128, .f32⟩
  | .hbm, ⟨12, _⟩ => ⟨S8, .f32⟩
  | .hbm, ⟨13, _⟩ => ⟨S1x128, .f32⟩
  | .hbm, ⟨14, _⟩ => ⟨S1x128, .f32⟩
  | .hbm, ⟨15, _⟩ => ⟨S1x128, .f32⟩
  | .hbm, ⟨16, _⟩ => ⟨S1x128, .f32⟩
  | .hbm, ⟨17, _⟩ => ⟨S1x128, .f32⟩
  | .hbm, ⟨18, _⟩ => ⟨S1x128, .f32⟩
  | .hbm, ⟨19, _⟩ => ⟨S1x8, .f32⟩
  | .hbm, ⟨20, _⟩ => ⟨S1x8, .f32⟩
  | .hbm, ⟨21, _⟩ => ⟨S8x8x256x256, .f32⟩
  | .hbm, ⟨22, _⟩ => ⟨S8x8x256x256, .f32⟩
  | .local _ .vmem, ⟨0, _⟩ => ⟨S1x128x32x256, .f32⟩
  | .local _ .vmem, ⟨1, _⟩ => ⟨S1x128x32x256, .f32⟩
  | .local _ .vmem, ⟨2, _⟩ => ⟨S128x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S8x128, .f32⟩
  | .local _ .vmem, ⟨11, _⟩ => ⟨S1x8, .f32⟩
  | .local _ .vmem, ⟨12, _⟩ => ⟨S8x128, .f32⟩
  | .local _ .vmem, ⟨13, _⟩ => ⟨S1x8, .f32⟩
  | .local _ .vmem, ⟨14, _⟩ => ⟨S1x8x32x256, .f32⟩
  | .local _ .vmem, ⟨15, _⟩ => ⟨S1x8x32x256, .f32⟩
  | .local _ .vmem, ⟨16, _⟩ => ⟨S1x8x32x256, .f32⟩
  | .local _ .vmem, ⟨17, _⟩ => ⟨S1x8x32x256, .f32⟩
  | _, _ => ⟨S8x128x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8_0 : Ref sig .tc := ⟨.hbm, 21, rfl⟩
abbrev main_v8_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_stg14_0 : Ref sig .tc := ⟨.vmem, 16, rfl⟩
abbrev cc0_stg14_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15
abbrev cc0_sem14_0 : DmaSem sig := 16
abbrev cc0_sem14_1 : DmaSem sig := 17

abbrev nD : Nat := 1
abbrev τ : Topo := Topo.v7x

variable {F : FTy → Type} [FloatOps F]

abbrev grid0 : Pipeline.Grid := ⟨2, ![8, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x128x32x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x8 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S8x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x8 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x8x32x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x8x32x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

class Facts₀ : Prop where
  shapeCasts_S128_S1x128 : S128.ShapeCasts S1x128
  shapeCasts_S8_S1x8 : S8.ShapeCasts S1x8
  inb_S1x128x32x256_S1x128x32x256_0_0_0_0 : ∀ a, (![0, 0, 0, 0] : Fin 4 → Nat) a + S1x128x32x256.size a ≤ S1x128x32x256.size a
  h_S1x128x32x256 : 0 < S1x128x32x256.numel
  shapeCasts_S1x128x32x256_S128x32x256 : S1x128x32x256.ShapeCasts S128x32x256
  transposes_S128x32x256_p1_2_0_S32x256x128 : S128x32x256.Transposes [1, 2, 0] S32x256x128
  shapeCasts_S32x256x128_S8192x128 : S32x256x128.ShapeCasts S8192x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  bitsLt_bf16_f32 : FTy.bits .bf16 < FTy.bits .f32
  transposes_S128x128_p1_0_S128x128 : S128x128.Transposes [1, 0] S128x128
  broadcasts_S1x128_S8192x128 : S1x128.Broadcasts S8192x128
  reduces_S8192x128_S8192 : S8192x128.Reduces [1] S8192
  shapeCasts_S8192_S8192x1 : S8192.ShapeCasts S8192x1
  broadcasts_S8192x1_S8192x128 : S8192x1.Broadcasts S8192x128
  inb_S8x128_S8x128_0_0 : ∀ a, (![0, 0] : Fin 2 → Nat) a + S8x128.size a ≤ S8x128.size a
  h_S8x128 : 0 < S8x128.numel
  inb_S1x8_S1x8_0_0 : ∀ a, (![0, 0] : Fin 2 → Nat) a + S1x8.size a ≤ S1x8.size a
  h_S1x8 : 0 < S1x8.numel
  shapeCasts_S1x8_S1x8 : S1x8.ShapeCasts S1x8
  transposes_S8x128_p1_0_S128x8 : S8x128.Transposes [1, 0] S128x8
  broadcasts_S1x8_S8192x8 : S1x8.Broadcasts S8192x8
  shapeCasts_S8192x8_S32x256x8 : S8192x8.ShapeCasts S32x256x8
  transposes_S32x256x8_p2_0_1_S8x32x256 : S32x256x8.Transposes [2, 0, 1] S8x32x256
  inb_S1x8x32x256_S1x8x32x256_0_0_0_0 : ∀ a, (![0, 0, 0, 0] : Fin 4 → Nat) a + S1x8x32x256.size a ≤ S1x8x32x256.size a
  h_S1x8x32x256 : 0 < S1x8x32x256.numel
  shapeCasts_S1x8x32x256_S8x32x256 : S1x8x32x256.ShapeCasts S8x32x256
  shapeCasts_S8x32x256_S1x8x32x256 : S8x32x256.ShapeCasts S1x8x32x256
  dot_S8192x128_S128x128_S8192x128_1_0_0_1_n_n_wf : DotDims.WF S8192x128 S128x128 S8192x128 [1] [0] [0] [1] [] []
  dot_S8192x128_S128x8_S8192x8_1_0_0_1_n_n_wf : DotDims.WF S8192x128 S128x8 S8192x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x32x256.size a ≤ S8x128x256x256.size a
  hwx0_0 : ∀ i : grid0.Coords, EltTy.bits .f32 = 32 ∨ (Rect.block (s := S8x128x256x256) S1x128x32x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S8x128.size a ≤ S8x128.size a
  hwx0_9 : ∀ i : grid0.Coords, EltTy.bits .f32 = 32 ∨ (Rect.block (s := S8x128) S8x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x8.size a ≤ S1x8.size a
  hwx0_10 : ∀ i : grid0.Coords, EltTy.bits .f32 = 32 ∨ (Rect.block (s := S1x8) S1x8.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S8x128.size a ≤ S8x128.size a
  hwx0_11 : ∀ i : grid0.Coords, EltTy.bits .f32 = 32 ∨ (Rect.block (s := S8x128) S8x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x8.size a ≤ S1x8.size a
  hwx0_12 : ∀ i : grid0.Coords, EltTy.bits .f32 = 32 ∨ (Rect.block (s := S1x8) S1x8.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1x8x32x256.size a ≤ S8x8x256x256.size a
  hwx0_13 : ∀ i : grid0.Coords, EltTy.bits .f32 = 32 ∨ (Rect.block (s := S8x8x256x256) S1x8x32x256.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1x8x32x256.size a ≤ S8x8x256x256.size a
  hwx0_14 : ∀ i : grid0.Coords, EltTy.bits .f32 = 32 ∨ (Rect.block (s := S8x8x256x256) S1x8x32x256.size (cc0_transform_14 i) (hinb0_14 i)).WholeWords (EltTy.packing .f32)

variable [Facts₀]

def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S8192x128_S128x8_S8192x8_1_0_0_1_n_n : DotDims S8192x128 S128x8 S8192x8 where
  lhsContracting := [1]
  rhsContracting := [0]
  lhsNonContracting := [0]
  rhsNonContracting := [1]
  lhsBatch := []
  rhsBatch := []
  wf := dot_S8192x128_S128x8_S8192x8_1_0_0_1_n_n_wf

abbrev win0_0 : Pipeline.Window sig grid0 :=
  Pipeline.Window.ofSpec (Memref.whole main_arg0) S1x128x32x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v5) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S8x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v6) S1x8.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S8x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v7) S1x8.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v8_0) S1x8x32x256.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v8_1) S1x8x32x256.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S8x128x256x256 : Shape := ⟨4, ![8, 128, 256, 256]⟩
abbrev S128x128 : Shape := ⟨2, ![128, 128]⟩
abbrev S128 : Shape := ⟨1, ![128]⟩
abbrev S8x128 : Shape := ⟨2, ![8, 128]⟩
abbrev S8 : Shape := ⟨1, ![8]⟩
abbrev S8x256x256x128 : Shape := ⟨4, ![8, 256, 256, 128]⟩
abbrev S1x1x1x128 : Shape := ⟨4, ![1, 1, 1, 128]⟩
abbrev S_ : Shape := ⟨0, ![]⟩
abbrev S8x256x256 : Shape := ⟨3, ![8, 256, 256]⟩
abbrev S8x256x256x1 : Shape := ⟨4, ![8, 256, 256, 1]⟩
abbrev S8x256x256x8 : Shape := ⟨4, ![8, 256, 256, 8]⟩
abbrev S1x1x1x8 : Shape := ⟨4, ![1, 1, 1, 8]⟩
abbrev S8x8x256x256 : Shape := ⟨4, ![8, 8, 256, 256]⟩

abbrev nBuf : Space → Nat
  | .hbm => 128
  | .vmem => 0
  | .smem => 0
  | _ => 0

abbrev bufTy : (tb : Table) → Fin (tcTables nBuf tb) → BufTy
  | .hbm, ⟨0, _⟩ => ⟨S8x128x256x256, .f32⟩
  | .hbm, ⟨1, _⟩ => ⟨S128x128, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S8x128, .f32⟩
  | .hbm, ⟨10, _⟩ => ⟨S8, .f32⟩
  | .hbm, ⟨11, _⟩ => ⟨S8x128, .f32⟩
  | .hbm, ⟨12, _⟩ => ⟨S8, .f32⟩
  | .hbm, ⟨13, _⟩ => ⟨S8x256x256x128, .f32⟩
  | .hbm, ⟨14, _⟩ => ⟨S8x256x256x128, .f32⟩
  | .hbm, ⟨15, _⟩ => ⟨S1x1x1x128, .f32⟩
  | .hbm, ⟨16, _⟩ => ⟨S8x256x256x128, .f32⟩
  | .hbm, ⟨17, _⟩ => ⟨S8x256x256x128, .f32⟩
  | .hbm, ⟨18, _⟩ => ⟨S_, .f32⟩
  | .hbm, ⟨19, _⟩ => ⟨S8x256x256, .f32⟩
  | .hbm, ⟨20, _⟩ => ⟨S8x256x256x1, .f32⟩
  | .hbm, ⟨21, _⟩ => ⟨S_, .f32⟩
  | .hbm, ⟨22, _⟩ => ⟨S8x256x256x1, .f32⟩
  | .hbm, ⟨23, _⟩ => ⟨S8x256x256x1, .f32⟩
  | .hbm, ⟨24, _⟩ => ⟨S8x256x256x128, .f32⟩
  | .hbm, ⟨25, _⟩ => ⟨S8x256x256x128, .f32⟩
  | .hbm, ⟨26, _⟩ => ⟨S8x256x256x128, .f32⟩
  | .hbm, ⟨27, _⟩ => ⟨S_, .f32⟩
  | .hbm, ⟨28, _⟩ => ⟨S8x256x256, .f32⟩
  | .hbm, ⟨29, _⟩ => ⟨S8x256x256x1, .f32⟩
  | .hbm, ⟨30, _⟩ => ⟨S_, .f32⟩
  | .hbm, ⟨31, _⟩ => ⟨S8x256x256x1, .f32⟩
  | .hbm, ⟨32, _⟩ => ⟨S8x256x256x1, .f32⟩
  | .hbm, ⟨33, _⟩ => ⟨S8x256x256x128, .f32⟩
  | .hbm, ⟨34, _⟩ => ⟨S8x256x256x128, .f32⟩
  | .hbm, ⟨35, _⟩ => ⟨S_, .f32⟩
  | .hbm, ⟨36, _⟩ => ⟨S8x256x256x1, .f32⟩
  | .hbm, ⟨37, _⟩ => ⟨S8x256x256x1, .f32⟩
  | .hbm, ⟨38, _⟩ => ⟨S8x256x256x1, .f32⟩
  | .hbm, ⟨39, _⟩ => ⟨S8x256x256x128, .f32⟩
  | .hbm, ⟨40, _⟩ => ⟨S8x256x256x128, .f32⟩
  | .hbm, ⟨41, _⟩ => ⟨S1x1x1x128, .f32⟩
  | .hbm, ⟨42, _⟩ => ⟨S8x256x256x128, .f32⟩
  | .hbm, ⟨43, _⟩ => ⟨S8x256x256x128, .f32⟩
  | .hbm, ⟨44, _⟩ => ⟨S1x1x1x128, .f32⟩
  | .hbm, ⟨45, _⟩ => ⟨S8x256x256x128, .f32⟩
  | .hbm, ⟨46, _⟩ => ⟨S8x256x256x128, .f32⟩
  | .hbm, ⟨47, _⟩ => ⟨S8x256x256x128, .f32⟩
  | .hbm, ⟨48, _⟩ => ⟨S8x256x256x128, .f32⟩
  | .hbm, ⟨49, _⟩ => ⟨S_, .f32⟩
  | .hbm, ⟨50, _⟩ => ⟨S8x256x256x128, .f32⟩
  | .hbm, ⟨51, _⟩ => ⟨S8x256x256x128, .f32⟩
  | .hbm, ⟨52, _⟩ => ⟨S_, .f32⟩
  | .hbm, ⟨53, _⟩ => ⟨S8x256x256x128, .f32⟩
  | .hbm, ⟨54, _⟩ => ⟨S8x256x256x128, .f32⟩
  | .hbm, ⟨55, _⟩ => ⟨S8x256x256x128, .f32⟩
  | .hbm, ⟨56, _⟩ => ⟨S8x256x256x128, .f32⟩
  | .hbm, ⟨57, _⟩ => ⟨S1x1x1x128, .f32⟩
  | .hbm, ⟨58, _⟩ => ⟨S8x256x256x128, .f32⟩
  | .hbm, ⟨59, _⟩ => ⟨S8x256x256x128, .f32⟩
  | .hbm, ⟨60, _⟩ => ⟨S_, .f32⟩
  | .hbm, ⟨61, _⟩ => ⟨S8x256x256, .f32⟩
  | .hbm, ⟨62, _⟩ => ⟨S8x256x256x1, .f32⟩
  | .hbm, ⟨63, _⟩ => ⟨S_, .f32⟩
  | .hbm, ⟨64, _⟩ => ⟨S8x256x256x1, .f32⟩
  | .hbm, ⟨65, _⟩ => ⟨S8x256x256x1, .f32⟩
  | .hbm, ⟨66, _⟩ => ⟨S8x256x256x128, .f32⟩
  | .hbm, ⟨67, _⟩ => ⟨S8x256x256x128, .f32⟩
  | .hbm, ⟨68, _⟩ => ⟨S8x256x256x128, .f32⟩
  | .hbm, ⟨69, _⟩ => ⟨S_, .f32⟩
  | .hbm, ⟨70, _⟩ => ⟨S8x256x256, .f32⟩
  | .hbm, ⟨71, _⟩ => ⟨S8x256x256x1, .f32⟩
  | .hbm, ⟨72, _⟩ => ⟨S_, .f32⟩
  | .hbm, ⟨73, _⟩ => ⟨S8x256x256x1, .f32⟩
  | .hbm, ⟨74, _⟩ => ⟨S8x256x256x1, .f32⟩
  | .hbm, ⟨75, _⟩ => ⟨S8x256x256x128, .f32⟩
  | .hbm, ⟨76, _⟩ => ⟨S8x256x256x128, .f32⟩
  | .hbm, ⟨77, _⟩ => ⟨S_, .f32⟩
  | .hbm, ⟨78, _⟩ => ⟨S8x256x256x1, .f32⟩
  | .hbm, ⟨79, _⟩ => ⟨S8x256x256x1, .f32⟩
  | .hbm, ⟨80, _⟩ => ⟨S8x256x256x1, .f32⟩
  | .hbm, ⟨81, _⟩ => ⟨S8x256x256x128, .f32⟩
  | .hbm, ⟨82, _⟩ => ⟨S8x256x256x128, .f32⟩
  | .hbm, ⟨83, _⟩ => ⟨S1x1x1x128, .f32⟩
  | .hbm, ⟨84, _⟩ => ⟨S8x256x256x128, .f32⟩
  | .hbm, ⟨85, _⟩ => ⟨S8x256x256x128, .f32⟩
  | .hbm, ⟨86, _⟩ => ⟨S1x1x1x128, .f32⟩
  | .hbm, ⟨87, _⟩ => ⟨S8x256x256x128, .f32⟩
  | .hbm, ⟨88, _⟩ => ⟨S8x256x256x128, .f32⟩
  | .hbm, ⟨89, _⟩ => ⟨S8x256x256x128, .f32⟩
  | .hbm, ⟨90, _⟩ => ⟨S8x256x256x128, .f32⟩
  | .hbm, ⟨91, _⟩ => ⟨S_, .f32⟩
  | .hbm, ⟨92, _⟩ => ⟨S8x256x256x128, .f32⟩
  | .hbm, ⟨93, _⟩ => ⟨S8x256x256x128, .f32⟩
  | .hbm, ⟨94, _⟩ => ⟨S_, .f32⟩
  | .hbm, ⟨95, _⟩ => ⟨S8x256x256x128, .f32⟩
  | .hbm, ⟨96, _⟩ => ⟨S8x256x256x128, .f32⟩
  | .hbm, ⟨97, _⟩ => ⟨S8x256x256x128, .f32⟩
  | .hbm, ⟨98, _⟩ => ⟨S8x256x256x8, .f32⟩
  | .hbm, ⟨99, _⟩ => ⟨S1x1x1x8, .f32⟩
  | .hbm, ⟨100, _⟩ => ⟨S8x256x256x8, .f32⟩
  | .hbm, ⟨101, _⟩ => ⟨S8x256x256x8, .f32⟩
  | .hbm, ⟨102, _⟩ => ⟨S8x256x256x8, .f32⟩
  | .hbm, ⟨103, _⟩ => ⟨S1x1x1x8, .f32⟩
  | .hbm, ⟨104, _⟩ => ⟨S8x256x256x8, .f32⟩
  | .hbm, ⟨105, _⟩ => ⟨S8x256x256x8, .f32⟩
  | .hbm, ⟨106, _⟩ => ⟨S8x8x256x256, .f32⟩
  | .hbm, ⟨107, _⟩ => ⟨S8x8x256x256, .f32⟩
  | .hbm, ⟨108, _⟩ => ⟨S_, .f32⟩
  | .hbm, ⟨109, _⟩ => ⟨S8x8x256x256, .f32⟩
  | .hbm, ⟨110, _⟩ => ⟨S8x8x256x256, .f32⟩
  | .hbm, ⟨111, _⟩ => ⟨S8x8x256x256, .f32⟩
  | .hbm, ⟨112, _⟩ => ⟨S8x8x256x256, .f32⟩
  | .hbm, ⟨113, _⟩ => ⟨S8x8x256x256, .i1⟩
  | .hbm, ⟨114, _⟩ => ⟨S8x8x256x256, .f32⟩
  | .hbm, ⟨115, _⟩ => ⟨S8x8x256x256, .f32⟩
  | .hbm, ⟨116, _⟩ => ⟨S8x8x256x256, .f32⟩
  | .hbm, ⟨117, _⟩ => ⟨S8x8x256x256, .f32⟩
  | .hbm, ⟨118, _⟩ => ⟨S8x8x256x256, .f32⟩
  | .hbm, ⟨119, _⟩ => ⟨S8x8x256x256, .f32⟩
  | .hbm, ⟨120, _⟩ => ⟨S8x8x256x256, .f32⟩
  | .hbm, ⟨121, _⟩ => ⟨S8x8x256x256, .f32⟩
  | .hbm, ⟨122, _⟩ => ⟨S_, .f32⟩
  | .hbm, ⟨123, _⟩ => ⟨S8x8x256x256, .f32⟩
  | .hbm, ⟨124, _⟩ => ⟨S8x8x256x256, .f32⟩
  | .hbm, ⟨125, _⟩ => ⟨S_, .f32⟩
  | .hbm, ⟨126, _⟩ => ⟨S8x8x256x256, .f32⟩
  | .hbm, ⟨127, _⟩ => ⟨S8x8x256x256, .f32⟩
  | _, _ => ⟨S8x128x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_v6 : Ref sig .tc := ⟨.hbm, 20, rfl⟩
abbrev main_cst_0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_4 : Ref sig .tc := ⟨.hbm, 49, rfl⟩
abbrev main_v31 : Ref sig .tc := ⟨.hbm, 50, rfl⟩
abbrev main_v32 : Ref sig .tc := ⟨.hbm, 51, rfl⟩
abbrev main_cst_5 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_6 : Ref sig .tc := ⟨.hbm, 60, rfl⟩
abbrev main_v40 : Ref sig .tc := ⟨.hbm, 61, rfl⟩
abbrev main_v41 : Ref sig .tc := ⟨.hbm, 62, rfl⟩
abbrev main_cst_7 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_8 : Ref sig .tc := ⟨.hbm, 69, rfl⟩
abbrev main_v47 : Ref sig .tc := ⟨.hbm, 70, rfl⟩
abbrev main_v48 : Ref sig .tc := ⟨.hbm, 71, rfl⟩
abbrev main_cst_9 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_10 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_cst_11 : Ref sig .tc := ⟨.hbm, 91, rfl⟩
abbrev main_v66 : Ref sig .tc := ⟨.hbm, 92, rfl⟩
abbrev main_v67 : Ref sig .tc := ⟨.hbm, 93, rfl⟩
abbrev main_cst_12 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_call0_cst : Ref sig .tc := ⟨.hbm, 108, rfl⟩
abbrev main_call0_v0 : Ref sig .tc := ⟨.hbm, 109, rfl⟩
abbrev main_call0_v1 : Ref sig .tc := ⟨.hbm, 110, rfl⟩
abbrev main_call0_v2 : Ref sig .tc := ⟨.hbm, 111, rfl⟩
abbrev main_call0_v3 : Ref sig .tc := ⟨.hbm, 112, rfl⟩
abbrev main_call0_v4 : Ref sig .tc := ⟨.hbm, 113, rfl⟩
abbrev main_call0_v5 : Ref sig .tc := ⟨.hbm, 114, rfl⟩
abbrev main_call0_v6 : Ref sig .tc := ⟨.hbm, 115, rfl⟩
abbrev main_call0_v7 : Ref sig .tc := ⟨.hbm, 116, rfl⟩
abbrev main_call0_v8 : Ref sig .tc := ⟨.hbm, 117, rfl⟩
abbrev main_call0_v9 : Ref sig .tc := ⟨.hbm, 118, rfl⟩
abbrev main_call0_v10 : Ref sig .tc := ⟨.hbm, 119, rfl⟩
abbrev main_call0_v11 : Ref sig .tc := ⟨.hbm, 120, rfl⟩
abbrev main_v81 : Ref sig .tc := ⟨.hbm, 121, rfl⟩
abbrev main_cst_13 : Ref sig .tc := ⟨.hbm, 122, rfl⟩
abbrev main_v82 : Ref sig .tc := ⟨.hbm, 123, rfl⟩
abbrev main_v83 : Ref sig .tc := ⟨.hbm, 124, rfl⟩
abbrev main_cst_14 : Ref sig .tc := ⟨.hbm, 125, rfl⟩
abbrev main_v84 : Ref sig .tc := ⟨.hbm, 126, rfl⟩
abbrev main_v85 : Ref sig .tc := ⟨.hbm, 127, rfl⟩

abbrev nD : Nat := 1
abbrev τ : Topo := Topo.v7x

variable {F : FTy → Type} [FloatOps F]

class Facts₀ : Prop where
  transposes_S8x128x256x256_S8x256x256x128_0_3_2_1 : S8x128x256x256.Transposes [0, 3, 2, 1] S8x256x256x128
  bcast_S128_S1x1x1x128_3 : S128.BroadcastsInDim S1x1x1x128 (![3] : Fin 1 → Fin S1x1x1x128.rank)
  bcast_S1x1x1x128_S8x256x256x128_0_1_2_3 : S1x1x1x128.BroadcastsInDim S8x256x256x128 (![0, 1, 2, 3] : Fin 4 → Fin S8x256x256x128.rank)
  reducesTo_S8x256x256x128_S8x256x256_d3 : S8x256x256x128.ReducesTo [3] S8x256x256
  h_S_ : 0 < S_.numel
  bcast_S8x256x256_S8x256x256x1_0_1_2 : S8x256x256.BroadcastsInDim S8x256x256x1 (![0, 1, 2] : Fin 3 → Fin S8x256x256x1.rank)
  bcast_S_S8x256x256x1 : S_.BroadcastsInDim S8x256x256x1 (![] : Fin 0 → Fin S8x256x256x1.rank)
  bcast_S8x256x256x1_S8x256x256x128_0_1_2_3 : S8x256x256x1.BroadcastsInDim S8x256x256x128 (![0, 1, 2, 3] : Fin 4 → Fin S8x256x256x128.rank)
  bcast_S_S8x256x256x128 : S_.BroadcastsInDim S8x256x256x128 (![] : Fin 0 → Fin S8x256x256x128.rank)
  bcast_S8_S1x1x1x8_3 : S8.BroadcastsInDim S1x1x1x8 (![3] : Fin 1 → Fin S1x1x1x8.rank)
  bcast_S1x1x1x8_S8x256x256x8_0_1_2_3 : S1x1x1x8.BroadcastsInDim S8x256x256x8 (![0, 1, 2, 3] : Fin 4 → Fin S8x256x256x8.rank)
  transposes_S8x256x256x8_S8x8x256x256_0_3_2_1 : S8x256x256x8.Transposes [0, 3, 2, 1] S8x8x256x256
  bcast_S_S8x8x256x256 : S_.BroadcastsInDim S8x8x256x256 (![] : Fin 0 → Fin S8x8x256x256.rank)
  dot_S8x256x256x128_S128x128_S8x256x256x128_3_1_012_0_n_n_wf : DotDims.WF S8x256x256x128 S128x128 S8x256x256x128 [3] [1] [0, 1, 2] [0] [] []
  dot_S8x256x256x128_S8x128_S8x256x256x8_3_1_012_0_n_n_wf : DotDims.WF S8x256x256x128 S8x128 S8x256x256x8 [3] [1] [0, 1, 2] [0] [] []

variable [Facts₀]

def dot_S8x256x256x128_S128x128_S8x256x256x128_3_1_012_0_n_n : DotDims S8x256x256x128 S128x128 S8x256x256x128 where
  lhsContracting := [3]
  rhsContracting := [1]
  lhsNonContracting := [0, 1, 2]
  rhsNonContracting := [0]
  lhsBatch := []
  rhsBatch := []
  wf := dot_S8x256x256x128_S128x128_S8x256x256x128_3_1_012_0_n_n_wf
def dot_S8x256x256x128_S8x128_S8x256x256x8_3_1_012_0_n_n : DotDims S8x256x256x128 S8x128 S8x256x256x8 where
  lhsContracting := [3]
  rhsContracting := [1]
  lhsNonContracting := [0, 1, 2]
  rhsNonContracting := [0]
  lhsBatch := []
  rhsBatch := []
  wf := dot_S8x256x256x128_S8x128_S8x256x256x8_3_1_012_0_n_n_wf

class Facts : Prop extends Facts₀ where

variable [Facts]
-- ==== Proof.DecoderSpec.lean ====
/-
  The decoder's arithmetic at one position, on the extended reals.

  At a position (b, n, t) the input array holds a row of 128 channels, x c = hidden (b, c, n, t).  Two identical
  layers act on that row, each an affine map, a normalisation of the row to zero mean and unit variance with
  a gain and an offset, and the gate y ↦ y · 1 / (1 + e^(−y)); two affine heads with 8 outputs then read the
  resulting row: the first is returned as it is, the second through x ↦ 1/10 + 9/10 · (max x 0 + log (1 + e^(−|x|))),
  the numerals being the binary words both programs carry.  Nothing here is evaluated: the words stay words,
  the sums stay sums over the 128 channels, and both programs are shown to compute exactly these terms.
-/
import Idealize.ShloMosaic.PureOps.Ideal
import Idealize.ShloMosaic.Lib.ValueIdx

noncomputable section

open scoped BigOperators

namespace Cert.Decoder

open Idealize.ShloMosaic Idealize.ShloMosaic.ValueIdx

/-- A row of 128 channels. -/
abbrev Row := Fin 128 → EReal

/-- The words the two programs share, as extended reals: 0, 128, the variance's offset, 9/10 and 1/10 as rounded. -/
def zero : EReal := Ideal.ofBits .f32 0x00000000#32
def c128 : EReal := Ideal.ofBits .f32 0x43000000#32
def eps : EReal := Ideal.ofBits .f32 0x3727C5AC#32
def c09 : EReal := Ideal.ofBits .f32 0x3F666666#32
def c01 : EReal := Ideal.ofBits .f32 0x3DCCCCCD#32

/-- An affine map with D outputs: output d is the row's product with the d-th weight row, plus the d-th bias. -/
def lin {D : ℕ} (W : Fin D → Row) (b : Fin D → EReal) (x : Row) (d : Fin D) : EReal :=
  (∑ k : Fin 128, x k * W d k) + b d

/-- The mean of a row: its sum divided by 128. -/
def mean (z : Row) : EReal := Ideal.div (∑ k : Fin 128, z k) c128

/-- The row centred, scaled by the reciprocal root of its variance plus the offset, times the gain, plus the shift. -/
def lnorm (g β z : Row) (d : Fin 128) : EReal :=
  (z d - mean z) * Ideal.rsqrt (mean (fun k => (z k - mean z) * (z k - mean z)) + eps) * g d + β d

/-- The gate y · logistic y. -/
def silu (y : EReal) : EReal := y * Ideal.logistic y

/-- One layer: affine map, normalisation, gate. -/
def layer (W : Fin 128 → Row) (b g β : Row) (x : Row) : Row := fun d => silu (lnorm g β (lin W b x) d)

/-- max x 0 + log (1 + e^(−|x − 0|)), with |y| = max y (−y). -/
def softplus (x : EReal) : EReal :=
  max x zero + Ideal.log1p (Ideal.exp (-(max (x - zero) (-(x - zero)))))

/-- The second head's output map. -/
def scale (x : EReal) : EReal := c01 + c09 * softplus x

/-- The row after both layers. -/
def feat (W1 : Fin 128 → Row) (b1 g1 β1 : Row) (W2 : Fin 128 → Row) (b2 g2 β2 : Row) (x : Row) : Row :=
  layer W2 b2 g2 β2 (layer W1 b1 g1 β1 x)

/-! ## The same over the argument arrays -/

/-- The row of channels of the input array at batch b and position (n, t). -/
def rowOf (H : (⟨4, ![8, 128, 256, 256]⟩ : Shape).Idx → EReal) (b : Fin 8) (n t : Fin 256) : Row :=
  fun c => H (ix4 b c n t)

/-- A weight matrix [D, 128] as D rows. -/
def rows {D : ℕ} (W : (⟨2, ![D, 128]⟩ : Shape).Idx → EReal) : Fin D → Row := fun d k => W (ix2 d k)

/-- A vector [D] as a function of its coordinate. -/
def vec {D : ℕ} (v : (⟨1, ![D]⟩ : Shape).Idx → EReal) : Fin D → EReal := fun d => v (ix1 d)

/-- The row after both layers at batch b and position (n, t), from the argument arrays. -/
def featAt (H : (⟨4, ![8, 128, 256, 256]⟩ : Shape).Idx → EReal)
    (W1 : (⟨2, ![128, 128]⟩ : Shape).Idx → EReal) (b1 g1 β1 : (⟨1, ![128]⟩ : Shape).Idx → EReal)
    (W2 : (⟨2, ![128, 128]⟩ : Shape).Idx → EReal) (b2 g2 β2 : (⟨1, ![128]⟩ : Shape).Idx → EReal)
    (b : Fin 8) (n t : Fin 256) : Row :=
  feat (rows W1) (vec b1) (vec g1) (vec β1) (rows W2) (vec b2) (vec g2) (vec β2) (rowOf H b n t)

/-- The first result array [8, 8, 256, 256]: at (b, o, n, t) the first head's output o of the row at (b, n, t). -/
def muArr (H : (⟨4, ![8, 128, 256, 256]⟩ : Shape).Idx → EReal)
    (W1 : (⟨2, ![128, 128]⟩ : Shape).Idx → EReal) (b1 g1 β1 : (⟨1, ![128]⟩ : Shape).Idx → EReal)
    (W2 : (⟨2, ![128, 128]⟩ : Shape).Idx → EReal) (b2 g2 β2 : (⟨1, ![128]⟩ : Shape).Idx → EReal)
    (Wm : (⟨2, ![8, 128]⟩ : Shape).Idx → EReal) (bm : (⟨1, ![8]⟩ : Shape).Idx → EReal) :
    (⟨4, ![8, 8, 256, 256]⟩ : Shape).Idx → EReal :=
  fun i => lin (rows Wm) (vec bm) (featAt H W1 b1 g1 β1 W2 b2 g2 β2 (i 0) (i 2) (i 3)) (i 1)

/-- The second result array: at (b, o, n, t) the second head's output o of that row, through `scale`. -/
def sigmaArr (H : (⟨4, ![8, 128, 256, 256]⟩ : Shape).Idx → EReal)
    (W1 : (⟨2, ![128, 128]⟩ : Shape).Idx → EReal) (b1 g1 β1 : (⟨1, ![128]⟩ : Shape).Idx → EReal)
    (W2 : (⟨2, ![128, 128]⟩ : Shape).Idx → EReal) (b2 g2 β2 : (⟨1, ![128]⟩ : Shape).Idx → EReal)
    (Ws : (⟨2, ![8, 128]⟩ : Shape).Idx → EReal) (bs : (⟨1, ![8]⟩ : Shape).Idx → EReal) :
    (⟨4, ![8, 8, 256, 256]⟩ : Shape).Idx → EReal :=
  fun i => scale (lin (rows Ws) (vec bs) (featAt H W1 b1 g1 β1 W2 b2 g2 β2 (i 0) (i 2) (i 3)) (i 1))

end Cert.Decoder

end
-- ==== Proof.KernelBlocks.lean ====
/-
  What the kernel's region finds in its windows.

  Eight of the region's arrays are written before it by the host: each bias, gain and shift vector [n] laid out
  as one row [1, n]; so such an array at (0, k) is the vector at k.  The grid has 8 × 8 points; point (b, s)
  takes from the input array the block of batch b, all 128 channels, positions 32 s … 32 s + 31, all 256
  lanes, and gives back the block of batch b, all 8 outputs and the same positions of each result array; every
  other window's block is its whole array at every point.  All of this is read off the printed index maps, which
  are decided once over the 64 points.
-/
import proofs.«113491_j33268816675399_1_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.Decoder.Blocks

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-! ## The printed index maps over the grid -/

/-- The input's and both results' blocks move together: block index (b, 0, s, 0) with b, s ≤ 7. -/
theorem idx_io : ∀ t : Fin cfg0.N,
    win0_0.index t (1 : Fin 4) = 0 ∧ win0_0.index t (3 : Fin 4) = 0
    ∧ win0_13.index t (0 : Fin 4) = win0_0.index t (0 : Fin 4) ∧ win0_13.index t (1 : Fin 4) = 0
    ∧ win0_13.index t (2 : Fin 4) = win0_0.index t (2 : Fin 4) ∧ win0_13.index t (3 : Fin 4) = 0
    ∧ win0_14.index t (0 : Fin 4) = win0_0.index t (0 : Fin 4) ∧ win0_14.index t (1 : Fin 4) = 0
    ∧ win0_14.index t (2 : Fin 4) = win0_0.index t (2 : Fin 4) ∧ win0_14.index t (3 : Fin 4) = 0
    ∧ win0_0.index t (0 : Fin 4) ≤ 7 ∧ win0_0.index t (2 : Fin 4) ≤ 7 :=
  (by decide +kernel : ∀ t : Fin grid0.N, _)

/-- Every other window stays on block (0, 0). -/
theorem idx_const : ∀ t : Fin cfg0.N,
    (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0) :=
  (by decide +kernel : ∀ t : Fin grid0.N, _)

/-- Every block of either result array is some point's. -/
theorem idx_onto13 : ∀ (q0 : Fin 8) (q2 : Fin 8), ∃ t : Fin cfg0.N, win0_13.index t = ![q0.val, 0, q2.val, 0] :=
  (by decide +kernel : ∀ (q0 : Fin 8) (q2 : Fin 8), ∃ t : Fin grid0.N, win0_13.index t = ![q0.val, 0, q2.val, 0])
theorem idx_onto14 : ∀ (q0 : Fin 8) (q2 : Fin 8), ∃ t : Fin cfg0.N, win0_14.index t = ![q0.val, 0, q2.val, 0] :=
  (by decide +kernel : ∀ (q0 : Fin 8) (q2 : Fin 8), ∃ t : Fin grid0.N, win0_14.index t = ![q0.val, 0, q2.val, 0])

/-! ## The arrays the host lays out before the region -/

/-- `main_v0` is the vector `main_arg2` as one row. -/
theorem V_main_v0 (c : Dev nD) (k : Fin 128) :
    (V m c main_v0 : S1x128.Idx → EReal) (ix2 (0 : Fin 1) k) = (m ((c : Thread nD τ).loc main_arg2) : S128.Idx → EReal) (ix1 k) := by
  have e : (V m c main_v0 : S1x128.Idx → EReal) = shapeCast S1x128 (m ((c : Thread nD τ).loc main_arg2) : S128.Idx → EReal) shapeCasts_S128_S1x128 := by
    dsimp only [Gen.V, Gen.hostOps0]; after_results; rfl
  rw [e]
  exact shapeCast_a_1a_apply _ _ (0 : Fin 1) k

/-- `main_v1` is the vector `main_arg3` as one row. -/
theorem V_main_v1 (c : Dev nD) (k : Fin 128) :
    (V m c main_v1 : S1x128.Idx → EReal) (ix2 (0 : Fin 1) k) = (m ((c : Thread nD τ).loc main_arg3) : S128.Idx → EReal) (ix1 k) := by
  have e : (V m c main_v1 : S1x128.Idx → EReal) = shapeCast S1x128 (m ((c : Thread nD τ).loc main_arg3) : S128.Idx → EReal) shapeCasts_S128_S1x128 := by
    dsimp only [Gen.V, Gen.hostOps0]; after_results; rfl
  rw [e]
  exact shapeCast_a_1a_apply _ _ (0 : Fin 1) k

/-- `main_v2` is the vector `main_arg4` as one row. -/
theorem V_main_v2 (c : Dev nD) (k : Fin 128) :
    (V m c main_v2 : S1x128.Idx → EReal) (ix2 (0 : Fin 1) k) = (m ((c : Thread nD τ).loc main_arg4) : S128.Idx → EReal) (ix1 k) := by
  have e : (V m c main_v2 : S1x128.Idx → EReal) = shapeCast S1x128 (m ((c : Thread nD τ).loc main_arg4) : S128.Idx → EReal) shapeCasts_S128_S1x128 := by
    dsimp only [Gen.V, Gen.hostOps0]; after_results; rfl
  rw [e]
  exact shapeCast_a_1a_apply _ _ (0 : Fin 1) k

/-- `main_v3` is the vector `main_arg6` as one row. -/
theorem V_main_v3 (c : Dev nD) (k : Fin 128) :
    (V m c main_v3 : S1x128.Idx → EReal) (ix2 (0 : Fin 1) k) = (m ((c : Thread nD τ).loc main_arg6) : S128.Idx → EReal) (ix1 k) := by
  have e : (V m c main_v3 : S1x128.Idx → EReal) = shapeCast S1x128 (m ((c : Thread nD τ).loc main_arg6) : S128.Idx → EReal) shapeCasts_S128_S1x128 := by
    dsimp only [Gen.V, Gen.hostOps0]; after_results; rfl
  rw [e]
  exact shapeCast_a_1a_apply _ _ (0 : Fin 1) k

/-- `main_v4` is the vector `main_arg7` as one row. -/
theorem V_main_v4 (c : Dev nD) (k : Fin 128) :
    (V m c main_v4 : S1x128.Idx → EReal) (ix2 (0 : Fin 1) k) = (m ((c : Thread nD τ).loc main_arg7) : S128.Idx → EReal) (ix1 k) := by
  have e : (V m c main_v4 : S1x128.Idx → EReal) = shapeCast S1x128 (m ((c : Thread nD τ).loc main_arg7) : S128.Idx → EReal) shapeCasts_S128_S1x128 := by
    dsimp only [Gen.V, Gen.hostOps0]; after_results; rfl
  rw [e]
  exact shapeCast_a_1a_apply _ _ (0 : Fin 1) k

/-- `main_v5` is the vector `main_arg8` as one row. -/
theorem V_main_v5 (c : Dev nD) (k : Fin 128) :
    (V m c main_v5 : S1x128.Idx → EReal) (ix2 (0 : Fin 1) k) = (m ((c : Thread nD τ).loc main_arg8) : S128.Idx → EReal) (ix1 k) := by
  have e : (V m c main_v5 : S1x128.Idx → EReal) = shapeCast S1x128 (m ((c : Thread nD τ).loc main_arg8) : S128.Idx → EReal) shapeCasts_S128_S1x128 := by
    dsimp only [Gen.V, Gen.hostOps0]; after_results; rfl
  rw [e]
  exact shapeCast_a_1a_apply _ _ (0 : Fin 1) k

/-- `main_v6` is the vector `main_arg10` as one row. -/
theorem V_main_v6 (c : Dev nD) (k : Fin 8) :
    (V m c main_v6 : S1x8.Idx → EReal) (ix2 (0 : Fin 1) k) = (m ((c : Thread nD τ).loc main_arg10) : S8.Idx → EReal) (ix1 k) := by
  have e : (V m c main_v6 : S1x8.Idx → EReal) = shapeCast S1x8 (m ((c : Thread nD τ).loc main_arg10) : S8.Idx → EReal) shapeCasts_S8_S1x8 := by
    dsimp only [Gen.V, Gen.hostOps0]; after_results; rfl
  rw [e]
  exact shapeCast_a_1a_apply _ _ (0 : Fin 1) k

/-- `main_v7` is the vector `main_arg12` as one row. -/
theorem V_main_v7 (c : Dev nD) (k : Fin 8) :
    (V m c main_v7 : S1x8.Idx → EReal) (ix2 (0 : Fin 1) k) = (m ((c : Thread nD τ).loc main_arg12) : S8.Idx → EReal) (ix1 k) := by
  have e : (V m c main_v7 : S1x8.Idx → EReal) = shapeCast S1x8 (m ((c : Thread nD τ).loc main_arg12) : S8.Idx → EReal) shapeCasts_S8_S1x8 := by
    dsimp only [Gen.V, Gen.hostOps0]; after_results; rfl
  rw [e]
  exact shapeCast_a_1a_apply _ _ (0 : Fin 1) k

/-! ## Each input window's block at a point -/

/-- Window 1's block is the whole matrix `main_arg1`. -/
theorem iblk1 (c : Dev nD) (t : Fin cfg0.N) (y : S128x128.Idx) :
    (iblk m c 1 t : S128x128.Idx → EReal) y = (m ((c : Thread nD τ).loc main_arg1) : S128x128.Idx → EReal) y := by
  have h := idx_const t
  unfold iblk
  rw [View.read_apply]
  show V m c main_arg1 _ = _
  rw [V_main_arg1]
  refine congrArg _ (funext fun a => Fin.ext ?_)
  match a with
  | ⟨0, _⟩ => show win0_1.index t (0 : Fin 2) * 128 + 1 * (y 0).val = (y 0).val; rw [h.1.1]; omega
  | ⟨1, _⟩ => show win0_1.index t (1 : Fin 2) * 128 + 1 * (y 1).val = (y 1).val; rw [h.1.2]; omega

/-- Window 5's block is the whole matrix `main_arg5`. -/
theorem iblk5 (c : Dev nD) (t : Fin cfg0.N) (y : S128x128.Idx) :
    (iblk m c 5 t : S128x128.Idx → EReal) y = (m ((c : Thread nD τ).loc main_arg5) : S128x128.Idx → EReal) y := by
  have h := idx_const t
  unfold iblk
  rw [View.read_apply]
  show V m c main_arg5 _ = _
  rw [V_main_arg5]
  refine congrArg _ (funext fun a => Fin.ext ?_)
  match a with
  | ⟨0, _⟩ => show win0_5.index t (0 : Fin 2) * 128 + 1 * (y 0).val = (y 0).val; rw [h.2.2.2.2.1.1]; omega
  | ⟨1, _⟩ => show win0_5.index t (1 : Fin 2) * 128 + 1 * (y 1).val = (y 1).val; rw [h.2.2.2.2.1.2]; omega

/-- Window 9's block is the whole matrix `main_arg9`. -/
theorem iblk9 (c : Dev nD) (t : Fin cfg0.N) (y : S8x128.Idx) :
    (iblk m c 9 t : S8x128.Idx → EReal) y = (m ((c : Thread nD τ).loc main_arg9) : S8x128.Idx → EReal) y := by
  have h := idx_const t
  unfold iblk
  rw [View.read_apply]
  show V m c main_arg9 _ = _
  rw [V_main_arg9]
  refine congrArg _ (funext fun a => Fin.ext ?_)
  match a with
  | ⟨0, _⟩ => show win0_9.index t (0 : Fin 2) * 8 + 1 * (y 0).val = (y 0).val; rw [h.2.2.2.2.2.2.2.2.1.1]; omega
  | ⟨1, _⟩ => show win0_9.index t (1 : Fin 2) * 128 + 1 * (y 1).val = (y 1).val; rw [h.2.2.2.2.2.2.2.2.1.2]; omega

/-- Window 11's block is the whole matrix `main_arg11`. -/
theorem iblk11 (c : Dev nD) (t : Fin cfg0.N) (y : S8x128.Idx) :
    (iblk m c 11 t : S8x128.Idx → EReal) y = (m ((c : Thread nD τ).loc main_arg11) : S8x128.Idx → EReal) y := by
  have h := idx_const t
  unfold iblk
  rw [View.read_apply]
  show V m c main_arg11 _ = _
  rw [V_main_arg11]
  refine congrArg _ (funext fun a => Fin.ext ?_)
  match a with
  | ⟨0, _⟩ => show win0_11.index t (0 : Fin 2) * 8 + 1 * (y 0).val = (y 0).val; rw [h.2.2.2.2.2.2.2.2.2.2.1.1]; omega
  | ⟨1, _⟩ => show win0_11.index t (1 : Fin 2) * 128 + 1 * (y 1).val = (y 1).val; rw [h.2.2.2.2.2.2.2.2.2.2.1.2]; omega

/-- Window 2's block at (0, k) is the vector `main_arg2` at k. -/
theorem iblk2 (c : Dev nD) (t : Fin cfg0.N) (k : Fin 128) :
    (iblk m c 2 t : S1x128.Idx → EReal) (ix2 (0 : Fin 1) k) = (m ((c : Thread nD τ).loc main_arg2) : S128.Idx → EReal) (ix1 k) := by
  have h := idx_const t
  unfold iblk
  rw [View.read_apply]
  show V m c main_v0 _ = _
  refine Eq.trans (congrArg _ (funext fun a => Fin.ext ?_)) (V_main_v0 m c k)
  match a with
  | ⟨0, _⟩ => show win0_2.index t (0 : Fin 2) * 1 + 1 * 0 = 0; rw [h.2.1.1]
  | ⟨1, _⟩ => show win0_2.index t (1 : Fin 2) * 128 + 1 * k.val = k.val; rw [h.2.1.2]; omega

/-- Window 3's block at (0, k) is the vector `main_arg3` at k. -/
theorem iblk3 (c : Dev nD) (t : Fin cfg0.N) (k : Fin 128) :
    (iblk m c 3 t : S1x128.Idx → EReal) (ix2 (0 : Fin 1) k) = (m ((c : Thread nD τ).loc main_arg3) : S128.Idx → EReal) (ix1 k) := by
  have h := idx_const t
  unfold iblk
  rw [View.read_apply]
  show V m c main_v1 _ = _
  refine Eq.trans (congrArg _ (funext fun a => Fin.ext ?_)) (V_main_v1 m c k)
  match a with
  | ⟨0, _⟩ => show win0_3.index t (0 : Fin 2) * 1 + 1 * 0 = 0; rw [h.2.2.1.1]
  | ⟨1, _⟩ => show win0_3.index t (1 : Fin 2) * 128 + 1 * k.val = k.val; rw [h.2.2.1.2]; omega

/-- Window 4's block at (0, k) is the vector `main_arg4` at k. -/
theorem iblk4 (c : Dev nD) (t : Fin cfg0.N) (k : Fin 128) :
    (iblk m c 4 t : S1x128.Idx → EReal) (ix2 (0 : Fin 1) k) = (m ((c : Thread nD τ).loc main_arg4) : S128.Idx → EReal) (ix1 k) := by
  have h := idx_const t
  unfold iblk
  rw [View.read_apply]
  show V m c main_v2 _ = _
  refine Eq.trans (congrArg _ (funext fun a => Fin.ext ?_)) (V_main_v2 m c k)
  match a with
  | ⟨0, _⟩ => show win0_4.index t (0 : Fin 2) * 1 + 1 * 0 = 0; rw [h.2.2.2.1.1]
  | ⟨1, _⟩ => show win0_4.index t (1 : Fin 2) * 128 + 1 * k.val = k.val; rw [h.2.2.2.1.2]; omega

/-- Window 6's block at (0, k) is the vector `main_arg6` at k. -/
theorem iblk6 (c : Dev nD) (t : Fin cfg0.N) (k : Fin 128) :
    (iblk m c 6 t : S1x128.Idx → EReal) (ix2 (0 : Fin 1) k) = (m ((c : Thread nD τ).loc main_arg6) : S128.Idx → EReal) (ix1 k) := by
  have h := idx_const t
  unfold iblk
  rw [View.read_apply]
  show V m c main_v3 _ = _
  refine Eq.trans (congrArg _ (funext fun a => Fin.ext ?_)) (V_main_v3 m c k)
  match a with
  | ⟨0, _⟩ => show win0_6.index t (0 : Fin 2) * 1 + 1 * 0 = 0; rw [h.2.2.2.2.2.1.1]
  | ⟨1, _⟩ => show win0_6.index t (1 : Fin 2) * 128 + 1 * k.val = k.val; rw [h.2.2.2.2.2.1.2]; omega

/-- Window 7's block at (0, k) is the vector `main_arg7` at k. -/
theorem iblk7 (c : Dev nD) (t : Fin cfg0.N) (k : Fin 128) :
    (iblk m c 7 t : S1x128.Idx → EReal) (ix2 (0 : Fin 1) k) = (m ((c : Thread nD τ).loc main_arg7) : S128.Idx → EReal) (ix1 k) := by
  have h := idx_const t
  unfold iblk
  rw [View.read_apply]
  show V m c main_v4 _ = _
  refine Eq.trans (congrArg _ (funext fun a => Fin.ext ?_)) (V_main_v4 m c k)
  match a with
  | ⟨0, _⟩ => show win0_7.index t (0 : Fin 2) * 1 + 1 * 0 = 0; rw [h.2.2.2.2.2.2.1.1]
  | ⟨1, _⟩ => show win0_7.index t (1 : Fin 2) * 128 + 1 * k.val = k.val; rw [h.2.2.2.2.2.2.1.2]; omega

/-- Window 8's block at (0, k) is the vector `main_arg8` at k. -/
theorem iblk8 (c : Dev nD) (t : Fin cfg0.N) (k : Fin 128) :
    (iblk m c 8 t : S1x128.Idx → EReal) (ix2 (0 : Fin 1) k) = (m ((c : Thread nD τ).loc main_arg8) : S128.Idx → EReal) (ix1 k) := by
  have h := idx_const t
  unfold iblk
  rw [View.read_apply]
  show V m c main_v5 _ = _
  refine Eq.trans (congrArg _ (funext fun a => Fin.ext ?_)) (V_main_v5 m c k)
  match a with
  | ⟨0, _⟩ => show win0_8.index t (0 : Fin 2) * 1 + 1 * 0 = 0; rw [h.2.2.2.2.2.2.2.1.1]
  | ⟨1, _⟩ => show win0_8.index t (1 : Fin 2) * 128 + 1 * k.val = k.val; rw [h.2.2.2.2.2.2.2.1.2]; omega

/-- Window 10's block at (0, k) is the vector `main_arg10` at k. -/
theorem iblk10 (c : Dev nD) (t : Fin cfg0.N) (k : Fin 8) :
    (iblk m c 10 t : S1x8.Idx → EReal) (ix2 (0 : Fin 1) k) = (m ((c : Thread nD τ).loc main_arg10) : S8.Idx → EReal) (ix1 k) := by
  have h := idx_const t
  unfold iblk
  rw [View.read_apply]
  show V m c main_v6 _ = _
  refine Eq.trans (congrArg _ (funext fun a => Fin.ext ?_)) (V_main_v6 m c k)
  match a with
  | ⟨0, _⟩ => show win0_10.index t (0 : Fin 2) * 1 + 1 * 0 = 0; rw [h.2.2.2.2.2.2.2.2.2.1.1]
  | ⟨1, _⟩ => show win0_10.index t (1 : Fin 2) * 8 + 1 * k.val = k.val; rw [h.2.2.2.2.2.2.2.2.2.1.2]; omega

/-- Window 12's block at (0, k) is the vector `main_arg12` at k. -/
theorem iblk12 (c : Dev nD) (t : Fin cfg0.N) (k : Fin 8) :
    (iblk m c 12 t : S1x8.Idx → EReal) (ix2 (0 : Fin 1) k) = (m ((c : Thread nD τ).loc main_arg12) : S8.Idx → EReal) (ix1 k) := by
  have h := idx_const t
  unfold iblk
  rw [View.read_apply]
  show V m c main_v7 _ = _
  refine Eq.trans (congrArg _ (funext fun a => Fin.ext ?_)) (V_main_v7 m c k)
  match a with
  | ⟨0, _⟩ => show win0_12.index t (0 : Fin 2) * 1 + 1 * 0 = 0; rw [h.2.2.2.2.2.2.2.2.2.2.2.1]
  | ⟨1, _⟩ => show win0_12.index t (1 : Fin 2) * 8 + 1 * k.val = k.val; rw [h.2.2.2.2.2.2.2.2.2.2.2.2]; omega

/-- Window 0's block at point t: channel ch, position n' and lane l of the block are batch b, channel ch, position
    32 s + n', lane l of the input array, where (b, 0, s, 0) is the point's block index. -/
theorem iblk0 (c : Dev nD) (t : Fin cfg0.N) (ch : Fin 128) (n' : Fin 32) (l : Fin 256) (b : Fin 8) (n : Fin 256)
    (hb : b.val = win0_0.index t (0 : Fin 4)) (hn : n.val = win0_0.index t (2 : Fin 4) * 32 + n'.val) :
    (iblk m c 0 t : S1x128x32x256.Idx → EReal) (ix4 (0 : Fin 1) ch n' l)
      = (m ((c : Thread nD τ).loc main_arg0) : S8x128x256x256.Idx → EReal) (ix4 b ch n l) := by
  obtain ⟨e1, e3, -⟩ := idx_io t
  unfold iblk
  rw [View.read_apply]
  show V m c main_arg0 _ = _
  rw [V_main_arg0]
  refine congrArg _ (funext fun a => Fin.ext ?_)
  match a with
  | ⟨0, _⟩ => show win0_0.index t (0 : Fin 4) * 1 + 1 * 0 = b.val; rw [hb]; omega
  | ⟨1, _⟩ => show win0_0.index t (1 : Fin 4) * 128 + 1 * ch.val = ch.val; rw [e1]; omega
  | ⟨2, _⟩ => show win0_0.index t (2 : Fin 4) * 32 + 1 * n'.val = n.val; rw [hn]; omega
  | ⟨3, _⟩ => show win0_0.index t (3 : Fin 4) * 256 + 1 * l.val = l.val; rw [e3]; omega

end Cert.Decoder.Blocks

end
-- ==== Proof.LibKeepdims.lean ====
/-
  Layout operations of a row reduction that keeps its axis, read at an index given by coordinates: a vector
  [a] cast to a column [a, 1]; a column [a, 1] broadcast over b lanes to [a, b]; the index a reduction over the
  last axis of a matrix puts back; and the float sum over a matrix's last axis, at exact arithmetic, as the sum
  of a row. Each is the library's general lemma with the per-axis arithmetic discharged for these shapes.
-/
import Idealize.ShloMosaic.Lib.ValueLayout
import Idealize.ShloMosaic.PureOps.Ideal.Laws

namespace Cert.Lib.Keepdims

open Idealize.ShloMosaic Idealize.ShloMosaic.ValueIdx

variable {α : Type}

/-- An [a] array cast to the column [a, 1] reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast over b lanes to [a, b] reads, at (p, c), the column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a reduction over a matrix's last axis puts back over row p, at coordinate k, is (p, k). -/
theorem lift_lastAxis {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A float sum over a matrix's last axis from the zero word, at exact arithmetic, is at row p the sum of that
    row's entries. -/
theorem rowSum_apply {a b : ℕ} (src : FVec Ideal ⟨2, ![a, b]⟩ .f32) (h : (⟨2, ![a, b]⟩ : Shape).Reduces [1] (⟨1, ![a]⟩ : Shape))
    (hφ : FKind.Formats .f32) (hacc : (0x00000000#32 : BitVec 32) = 0x00000000#32) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  exact Finset.sum_congr rfl fun k _ => congrArg src (lift_lastAxis h p k)

end Cert.Lib.Keepdims
-- ==== Proof.LibPlainDot.lean ====
/-
  A plain matrix product read at an entry. For the dimension numbers of `M×K` by `K×N` with no batch axis
  (`DotDims.plain M K N`: the left operand contracted on its columns, the right on its rows), the sum over
  the one-axis contraction index of any function of the two operand indices is the sum over `k : Fin K` of
  that function at `(p, k)` and `(k, c)` (`sum_plain`). Hence, on the extended reals, a `tpu.matmul` into
  the zero accumulator and a host `dot_general`, read at `(p, c)`, are both `∑ k, A (p, k) * B (k, c)`
  (`matmul_plain_zero_apply`, `dotGeneral_plain_apply`), for every `M`, `K`, `N`.
-/
import Idealize.ShloMosaic.PureOps.Ideal.Laws
import Idealize.ShloMosaic.Lib.ValueIdx

noncomputable section

open scoped BigOperators

namespace Cert.Lib.PlainDot

open Idealize.ShloMosaic Idealize.ShloMosaic.ValueIdx

variable {M K N : Nat}

/-- The left operand's index at output `(p, c)` and contraction coordinate `k` is `(p, k)`. -/
theorem lhsIdx_plain (p : Fin M) (c : Fin N) (k : Fin K) :
    (DotDims.plain M K N).lhsIdx (ix2 p c) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 p c) _).trans hk

/-- The right operand's index at output `(p, c)` and contraction coordinate `k` is `(k, c)`. -/
theorem rhsIdx_plain (p : Fin M) (c : Fin N) (k : Fin K) :
    (DotDims.plain M K N).rhsIdx (ix2 p c) ((contrEquiv1 (DotDims.plain M K N) K rfl rfl).symm k) = ix2 k c := by
  have hk := contrEquiv1_symm_val (DotDims.plain M K N) K rfl rfl k
  funext a
  apply Fin.ext
  match a with
  | ⟨0, _⟩ => exact ((DotDims.plain M K N).rhsIdx_val_of_single rfl (ix2 p c) _).trans hk
  | ⟨1, _⟩ => rfl

/-- A sum over the contraction index of a plain product's dimension numbers, of any function of the two
    operand indices, is the sum over the shared axis's coordinate. -/
theorem sum_plain {β : Type*} [AddCommMonoid β]
    (f : (⟨2, ![M, K]⟩ : Shape).Idx → (⟨2, ![K, N]⟩ : Shape).Idx → β) (p : Fin M) (c : Fin N) :
    ∑ q : (DotDims.plain M K N).contr.Idx,
        f ((DotDims.plain M K N).lhsIdx (ix2 p c) q) ((DotDims.plain M K N).rhsIdx (ix2 p c) q)
      = ∑ k : Fin K, f (ix2 p k) (ix2 k c) := by
  rw [← Equiv.sum_comp (contrEquiv1 (DotDims.plain M K N) K rfl rfl).symm]
  refine Finset.sum_congr rfl fun k _ => ?_
  rw [lhsIdx_plain, rhsIdx_plain]

/-- On the extended reals a `tpu.matmul` of `A : M×K` and `B : K×N` into the zero accumulator, read at
    `(p, c)`, is `∑ k, A (p, k) * B (k, c)`. -/
theorem matmul_plain_zero_apply {φ₁ φ₂ : FTy} (prec : Option ContractPrecision)
    (A : FVec Ideal ⟨2, ![M, K]⟩ φ₁) (B : FVec Ideal ⟨2, ![K, N]⟩ φ₂) (p : Fin M) (c : Fin N) :
    FloatOps.matmul (DotDims.plain M K N) prec A B (constant ⟨2, ![M, N]⟩ .f32 0x00000000#32) (ix2 p c)
      = ∑ k : Fin K, A (ix2 p k) * B (ix2 k c) :=
  (Ideal.matmul_constant_zero_apply (DotDims.plain M K N) prec A B (ix2 p c)).trans
    (sum_plain (fun i j => A i * B j) p c)

/-- On the extended reals a host `dot_general` of `A : M×K` and `B : K×N`, read at `(p, c)`, is the
    same sum, whatever the schedule. -/
theorem dotGeneral_plain_apply {φ₁ φ₂ : FTy} (prec : Option ContractPrecision) (sched : HostSchedule)
    (A : FVec Ideal ⟨2, ![M, K]⟩ φ₁) (B : FVec Ideal ⟨2, ![K, N]⟩ φ₂) (p : Fin M) (c : Fin N) :
    FloatOps.dotGeneral (DotDims.plain M K N) prec sched A B (ix2 p c)
      = ∑ k : Fin K, A (ix2 p k) * B (ix2 k c) :=
  (Ideal.dotGeneral_apply (DotDims.plain M K N) prec sched A B (ix2 p c)).trans
    (sum_plain (fun i j => A i * B j) p c)

end Cert.Lib.PlainDot

end
-- ==== Proof.LibMergeRows.lean ====
/-
  A reshape that merges the two leading axes of a three-axis array into one, or splits them again, read at coordinates.

  Row-major order puts entry (p, q, k) of an [a, b, c] array at position (p·b + q)·c + k, and entry (r, k) of an [n, c]
  array at r·c + k; a reshape keeps positions.  So with r = p·b + q the two arrays hold the same value at (p, q, k) and
  (r, k), in either direction.  The row count n is a parameter of its own (with n = a·b implied by the reshape being
  legal), so that the lemmas apply to shapes written with literal sizes.
-/
import Idealize.ShloMosaic.Lib.Pipeline.Value
import Idealize.ShloMosaic.Lib.ValueIdx

namespace Cert.LibMergeRows

open Idealize.ShloMosaic Idealize.ShloMosaic.ValueIdx

variable {α : Type}

/-- An [a, b, c] array reshaped to [n, c] reads, at (r, k) with r = p·b + q, the operand at (p, q, k). -/
theorem shapeCast_abc_nc_apply {a b c n : ℕ} (x : (⟨3, ![a, b, c]⟩ : Shape).Idx → α)
    (h : (⟨3, ![a, b, c]⟩ : Shape).ShapeCasts ⟨2, ![n, c]⟩) (p : Fin a) (q : Fin b) (k : Fin c) (r : Fin n)
    (hr : r.val = p.val * b + q.val) :
    shapeCast ⟨2, ![n, c]⟩ x h (ix2 r k) = x (ix3 p q k) :=
  shapeCast_apply x h _ _ (by
    rw [Shape.rowMajor_val_two, Shape.rowMajor_val_three]
    show (p.val * b + q.val) * c + k.val = r.val * c + k.val
    rw [hr])

/-- An [n, c] array reshaped to [a, b, c] reads, at (p, q, k), the operand at (r, k) with r = p·b + q. -/
theorem shapeCast_nc_abc_apply {a b c n : ℕ} (x : (⟨2, ![n, c]⟩ : Shape).Idx → α)
    (h : (⟨2, ![n, c]⟩ : Shape).ShapeCasts ⟨3, ![a, b, c]⟩) (p : Fin a) (q : Fin b) (k : Fin c) (r : Fin n)
    (hr : r.val = p.val * b + q.val) :
    shapeCast ⟨3, ![a, b, c]⟩ x h (ix3 p q k) = x (ix2 r k) :=
  shapeCast_apply x h _ _ (by
    rw [Shape.rowMajor_val_two, Shape.rowMajor_val_three]
    show r.val * c + k.val = (p.val * b + q.val) * c + k.val
    rw [hr])

end Cert.LibMergeRows
-- ==== Proof.KernelRows.lean ====
/-
  The kernel body's arithmetic, read at an index.

  The body works on a block of 32 · 256 = 8192 positions as an [8192, 128] array of rows, row r = n · 256 + t holding the
  128 channels of position (n, t). Its operations fall into a few groups — the block re-laid as rows, an affine map
  (a matrix product into the zero array plus a broadcast bias row), the normalisation of every row (row means as a
  column, centring, the variance's mean, the reciprocal root, gain and shift), the gate, the two heads and the second
  head's output map, and the heads' results re-laid to [1, 8, 32, 256]. Each group is named, each payload is shown to be
  its groups by unfolding, and each group is read at one index as the specification's term on that row: nothing is
  evaluated, the sums stay sums over the 128 channels and the words stay words; only the one subtraction from the zero
  word, 0 − y, is rewritten to −y.
-/
import proofs.«113491_j33268816675399_1_alg».proof.Proof.Gen.KernelIdeal.Skeleton
import proofs.«113491_j33268816675399_1_alg».proof.Proof.DecoderSpec
import proofs.«113491_j33268816675399_1_alg».proof.Proof.LibKeepdims
import proofs.«113491_j33268816675399_1_alg».proof.Proof.LibPlainDot
import proofs.«113491_j33268816675399_1_alg».proof.Proof.LibMergeRows
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.Decoder.Ker

open Cert.KernelIdeal Cert.KernelIdeal.Gen Cert.Decoder Idealize.ShloMosaic Idealize.ShloMosaic.ValueIdx

/-! ## The operations of the body, grouped -/

/-- The block re-laid as rows: unit axis dropped, channels moved last, the two position axes merged. -/
def relaidIn (x : FVec Ideal S1x128x32x256 .f32) : FVec Ideal S8192x128 .f32 :=
  shapeCast S8192x128
    (transpose S32x256x128 [1, 2, 0] (shapeCast S128x32x256 x shapeCasts_S1x128x32x256_S128x32x256)
      transposes_S128x32x256_p1_2_0_S32x256x128)
    shapeCasts_S32x256x128_S8192x128

/-- A head's [8192, 8] result re-laid to [1, 8, 32, 256]. -/
def relaidOut (y : FVec Ideal S8192x8 .f32) : FVec Ideal S1x8x32x256 .f32 :=
  shapeCast S1x8x32x256
    (transpose S8x32x256 [2, 0, 1] (shapeCast S32x256x8 y shapeCasts_S8192x8_S32x256x8)
      transposes_S32x256x8_p2_0_1_S8x32x256)
    shapeCasts_S8x32x256_S1x8x32x256

/-- The affine map on rows: both operands narrowed, the weight transposed, the product into the zero array, plus the
    bias row over all rows. -/
def linOps (A : FVec Ideal S8192x128 .f32) (W : FVec Ideal S128x128 .f32) (b : FVec Ideal S1x128 .f32) :
    FVec Ideal S8192x128 .f32 :=
  addf
    (matmul dot_S8192x128_S128x128_S8192x128_1_0_0_1_n_n none (truncf .bf16 A bitsLt_bf16_f32)
      (transpose S128x128 [1, 0] (truncf .bf16 W bitsLt_bf16_f32) transposes_S128x128_p1_0_S128x128)
      (constant S8192x128 .f32 0x00000000#32))
    (broadcastTo S8192x128 (shapeCast S1x128 b shapeCasts_S1x128_S1x128) broadcasts_S1x128_S8192x128)

/-- A head's affine map on rows, the bias row given as it is broadcast. -/
def headOps (A : FVec Ideal S8192x128 .f32) (W : FVec Ideal S8x128 .f32) (b : FVec Ideal S1x8 .f32) :
    FVec Ideal S8192x8 .f32 :=
  addf
    (matmul dot_S8192x128_S128x8_S8192x8_1_0_0_1_n_n none (k0_pay5 A)
      (transpose S128x8 [1, 0] (truncf .bf16 W bitsLt_bf16_f32) transposes_S8x128_p1_0_S128x8)
      (constant S8192x8 .f32 0x00000000#32))
    (broadcastTo S8192x8 b broadcasts_S1x8_S8192x8)

/-- Each row's mean as a column: the row sums, as a column, divided by the 128 word. -/
def meanCol (z : FVec Ideal S8192x128 .f32) : FVec Ideal S8192x1 .f32 :=
  divf
    (shapeCast S8192x1 (multiReduction .add [1] S8192 z 0x00000000#32 reduces_S8192x128_S8192 (.inl rfl) rfl)
      shapeCasts_S8192_S8192x1)
    (broadcast S8192x1 (Scalar.ofBits (F := Ideal) .f32 0x43000000#32))

/-- The rows centred. -/
def centred (z : FVec Ideal S8192x128 .f32) : FVec Ideal S8192x128 .f32 :=
  subf z (broadcastTo S8192x128 (meanCol z) broadcasts_S8192x1_S8192x128)

/-- The normalisation of every row, with gain and shift rows. -/
def normOps (z : FVec Ideal S8192x128 .f32) (g β : FVec Ideal S1x128 .f32) : FVec Ideal S8192x128 .f32 :=
  addf
    (mulf
      (mulf (centred z)
        (broadcastTo S8192x128
          (rsqrt (addf (meanCol (mulf (centred z) (centred z)))
            (broadcast S8192x1 (Scalar.ofBits (F := Ideal) .f32 0x3727C5AC#32))))
          broadcasts_S8192x1_S8192x128))
      (broadcastTo S8192x128 (shapeCast S1x128 g shapeCasts_S1x128_S1x128) broadcasts_S1x128_S8192x128))
    (broadcastTo S8192x128 (shapeCast S1x128 β shapeCasts_S1x128_S1x128) broadcasts_S1x128_S8192x128)

/-- The second head's output map on every entry. -/
def scaleOps (y : FVec Ideal S8192x8 .f32) : FVec Ideal S8192x8 .f32 :=
  addf (broadcast S8192x8 (Scalar.ofBits (F := Ideal) .f32 0x3DCCCCCD#32))
    (mulf (broadcast S8192x8 (Scalar.ofBits (F := Ideal) .f32 0x3F666666#32))
      (select
        (cmpf .one (subf y (broadcast S8192x8 (Scalar.ofBits (F := Ideal) .f32 0x00000000#32)))
          (subf y (broadcast S8192x8 (Scalar.ofBits (F := Ideal) .f32 0x00000000#32))))
        (addf y (broadcast S8192x8 (Scalar.ofBits (F := Ideal) .f32 0x00000000#32)))
        (addf (maximumf y (broadcast S8192x8 (Scalar.ofBits (F := Ideal) .f32 0x00000000#32)))
          (log1p (exp (subf (broadcast S8192x8 (Scalar.ofBits (F := Ideal) .f32 0x00000000#32))
            (absf (subf y (broadcast S8192x8 (Scalar.ofBits (F := Ideal) .f32 0x00000000#32))))))))))

/-! ## The payloads as these groups (by unfolding) -/

theorem pay1_eq (v0 : Vec Ideal S1x128x32x256 .f32) (v4 : Vec Ideal S128x128 .f32) (v5 v7 v9 : Vec Ideal S1x128 .f32) :
    k0_pay1 (F := Ideal) v0 v4 v5 v7 v9 = normOps (linOps (relaidIn v0) v4 v5) v7 v9 := rfl

theorem pay3_eq (v38 v39 : FVec Ideal S8192x128 .f32) (v41 : Vec Ideal S128x128 .f32) (v42 v44 v46 : Vec Ideal S1x128 .f32) :
    k0_pay3 (F := Ideal) v38 v39 v41 v42 v44 v46
      = mulf (normOps (linOps (mulf v38 v39) v41 v42) v44 v46) (logistic (normOps (linOps (mulf v38 v39) v41 v42) v44 v46)) := rfl

theorem pay6_eq (v77 : FVec Ideal S8192x128 .f32) (v78 : Vec Ideal S8x128 .f32) (v80 : FVec Ideal S1x8 .f32) :
    k0_pay6 (F := Ideal) v77 v78 v80 = relaidOut (headOps v77 v78 v80) := rfl

theorem pay7_eq (v77 : FVec Ideal S8192x128 .f32) (v81 : Vec Ideal S8x128 .f32) (v82 : Vec Ideal S1x8 .f32) :
    k0_pay7 (F := Ideal) v77 v81 v82
      = relaidOut (scaleOps (headOps v77 v81 (shapeCast S1x8 v82 shapeCasts_S1x8_S1x8))) := rfl

/-! ## Each group read at an index -/

theorem relaidIn_apply (x : FVec Ideal S1x128x32x256 .f32) (n : Fin 32) (t : Fin 256) (r : Fin 8192)
    (hr : r.val = n.val * 256 + t.val) (k : Fin 128) : relaidIn x (ix2 r k) = x (ix4 (0 : Fin 1) k n t) := by
  unfold relaidIn
  refine (Cert.LibMergeRows.shapeCast_abc_nc_apply _ shapeCasts_S32x256x128_S8192x128 n t k r hr).trans ?_
  refine (transpose_apply _ _ transposes_S128x32x256_p1_2_0_S32x256x128 (ix3 n t k) (ix3 k n t)
    (fun b => match b with | ⟨0, _⟩ => rfl | ⟨1, _⟩ => rfl | ⟨2, _⟩ => rfl)).trans ?_
  exact shapeCast_1abc_abc_apply x shapeCasts_S1x128x32x256_S128x32x256 k n t

theorem relaidOut_apply (y : FVec Ideal S8192x8 .f32) (o : Fin 8) (n : Fin 32) (t : Fin 256) (r : Fin 8192)
    (hr : r.val = n.val * 256 + t.val) : relaidOut y (ix4 (0 : Fin 1) o n t) = y (ix2 r o) := by
  unfold relaidOut
  refine (shapeCast_abc_1abc_apply _ shapeCasts_S8x32x256_S1x8x32x256 (0 : Fin 1) o n t).trans ?_
  refine (transpose_apply _ _ transposes_S32x256x8_p2_0_1_S8x32x256 (ix3 o n t) (ix3 n t o)
    (fun b => match b with | ⟨0, _⟩ => rfl | ⟨1, _⟩ => rfl | ⟨2, _⟩ => rfl)).trans ?_
  exact Cert.LibMergeRows.shapeCast_nc_abc_apply y shapeCasts_S8192x8_S32x256x8 n t o r hr

/-- The product [8192, 128] · [128, 128] into the zero array, at an entry: the printed dimension numbers are the plain
    product's. -/
theorem mm128_apply (A : FVec Ideal S8192x128 .bf16) (B : FVec Ideal S128x128 .bf16) (r : Fin 8192) (d : Fin 128) :
    matmul dot_S8192x128_S128x128_S8192x128_1_0_0_1_n_n none A B (constant S8192x128 .f32 0x00000000#32) (ix2 r d)
      = ∑ k : Fin 128, A (ix2 r k) * B (ix2 k d) :=
  Cert.Lib.PlainDot.matmul_plain_zero_apply (M := 8192) (K := 128) (N := 128) none A B r d

/-- The product [8192, 128] · [128, 8] into the zero array, at an entry. -/
theorem mm8_apply (A : FVec Ideal S8192x128 .bf16) (B : FVec Ideal S128x8 .bf16) (r : Fin 8192) (o : Fin 8) :
    matmul dot_S8192x128_S128x8_S8192x8_1_0_0_1_n_n none A B (constant S8192x8 .f32 0x00000000#32) (ix2 r o)
      = ∑ k : Fin 128, A (ix2 r k) * B (ix2 k o) :=
  Cert.Lib.PlainDot.matmul_plain_zero_apply (M := 8192) (K := 128) (N := 8) none A B r o

theorem linOps_apply (A : FVec Ideal S8192x128 .f32) (W : FVec Ideal S128x128 .f32) (b : FVec Ideal S1x128 .f32)
    (r : Fin 8192) (d : Fin 128) :
    linOps A W b (ix2 r d)
      = lin (fun d' k => W (ix2 d' k)) (fun d' => b (ix2 (0 : Fin 1) d')) (fun k => A (ix2 r k)) d := by
  unfold linOps lin
  rw [addf_apply, mm128_apply, broadcastTo_1b_ab_apply, shapeCast_self]
  refine congrArg₂ (· + ·) (Finset.sum_congr rfl fun k _ => ?_) rfl
  rw [truncf_apply, transpose_ix2_apply, truncf_apply]

theorem headOps_apply (A : FVec Ideal S8192x128 .f32) (W : FVec Ideal S8x128 .f32) (b : FVec Ideal S1x8 .f32)
    (r : Fin 8192) (o : Fin 8) :
    headOps A W b (ix2 r o)
      = lin (fun o' k => W (ix2 o' k)) (fun o' => b (ix2 (0 : Fin 1) o')) (fun k => A (ix2 r k)) o := by
  unfold headOps lin
  rw [addf_apply, mm8_apply, broadcastTo_1b_ab_apply]
  refine congrArg₂ (· + ·) (Finset.sum_congr rfl fun k _ => ?_) rfl
  rw [transpose_ix2_apply, truncf_apply]
  rfl

theorem meanCol_apply (z : FVec Ideal S8192x128 .f32) (r : Fin 8192) (u : Fin 1) :
    meanCol z (ix2 r u) = mean (fun k => z (ix2 r k)) := by
  unfold meanCol mean
  rw [divf_apply, Cert.Lib.Keepdims.shapeCast_a_a1_apply, Cert.Lib.Keepdims.rowSum_apply]
  rfl

theorem centred_apply (z : FVec Ideal S8192x128 .f32) (r : Fin 8192) (d : Fin 128) :
    centred z (ix2 r d) = z (ix2 r d) - mean (fun k => z (ix2 r k)) := by
  unfold centred
  rw [subf_apply, Cert.Lib.Keepdims.broadcastTo_a1_ab_apply, meanCol_apply]

/-- The normalisation block at row r, lane d, is the spec's normalisation of that row. -/
theorem normOps_apply (z : FVec Ideal S8192x128 .f32) (g β : FVec Ideal S1x128 .f32) (r : Fin 8192) (d : Fin 128) :
    normOps z g β (ix2 r d)
      = lnorm (fun k => g (ix2 (0 : Fin 1) k)) (fun k => β (ix2 (0 : Fin 1) k)) (fun k => z (ix2 r k)) d := by
  have h1 : normOps z g β (ix2 r d)
      = (z (ix2 r d) - mean (fun k => z (ix2 r k)))
          * Ideal.rsqrt (meanCol (mulf (centred z) (centred z)) (ix2 r (0 : Fin 1)) + eps)
          * g (ix2 (0 : Fin 1) d) + β (ix2 (0 : Fin 1) d) := by
    unfold normOps
    rw [addf_apply, mulf_apply, mulf_apply, centred_apply, Cert.Lib.Keepdims.broadcastTo_a1_ab_apply,
      broadcastTo_1b_ab_apply, broadcastTo_1b_ab_apply, shapeCast_self, shapeCast_self]
    rfl
  have hsq : (fun k => mulf (centred z) (centred z) (ix2 r k))
      = fun k => (z (ix2 r k) - mean (fun k => z (ix2 r k))) * (z (ix2 r k) - mean (fun k => z (ix2 r k))) :=
    funext fun k => by rw [mulf_apply, centred_apply]
  rw [h1, meanCol_apply, hsq]
  rfl

/-- A value is never different from itself: the comparison's bit is 0. -/
theorem cmp_one_self (x : EReal) : Ideal.cmp .one x x = 0#1 := by
  show BitVec.ofBool (decide (x ≠ x)) = 0#1
  rw [decide_eq_false (not_not.mpr rfl)]
  rfl

/-- The second head's output map at an entry; the one subtraction from the zero word is the negation. -/
theorem scaleOps_apply (y : FVec Ideal S8192x8 .f32) (i : S8192x8.Idx) : scaleOps y i = scale (y i) := by
  show c01 + c09 * Scalar.select (Ideal.cmp .one (y i - zero) (y i - zero)) (y i + zero)
      (max (y i) zero
        + Ideal.log1p (Ideal.exp (Ideal.ofBits .f32 0x00000000#32 - max (y i - zero) (-(y i - zero)))))
    = c01 + c09 * (max (y i) zero + Ideal.log1p (Ideal.exp (-(max (y i - zero) (-(y i - zero))))))
  rw [cmp_one_self, select_zero, Ideal.ofBits_zero_f32, zero_sub]

/-! ## The payloads at an index -/

theorem pay4_eq (v79 : Vec Ideal S1x8 .f32) : k0_pay4 (F := Ideal) v79 = v79 :=
  shapeCast_self v79 shapeCasts_S1x8_S1x8

theorem pay5_apply (v77 : FVec Ideal S8192x128 .f32) (i : S8192x128.Idx) : k0_pay5 (F := Ideal) v77 i = v77 i := rfl

theorem pay1_apply (v0 : Vec Ideal S1x128x32x256 .f32) (v4 : Vec Ideal S128x128 .f32) (v5 v7 v9 : Vec Ideal S1x128 .f32)
    (n : Fin 32) (t : Fin 256) (r : Fin 8192) (hr : r.val = n.val * 256 + t.val) (d : Fin 128) :
    k0_pay1 (F := Ideal) v0 v4 v5 v7 v9 (ix2 r d)
      = lnorm (fun k => v7 (ix2 (0 : Fin 1) k)) (fun k => v9 (ix2 (0 : Fin 1) k))
          (lin (fun d' k => v4 (ix2 d' k)) (fun d' => v5 (ix2 (0 : Fin 1) d')) (fun c => v0 (ix4 (0 : Fin 1) c n t))) d := by
  rw [pay1_eq, normOps_apply]
  refine congrArg (fun z => lnorm _ _ z d) (funext fun k => ?_)
  rw [linOps_apply]
  refine congrArg (fun x => lin _ _ x k) (funext fun c => ?_)
  exact relaidIn_apply v0 n t r hr c

theorem pay2_apply (v0 : Vec Ideal S1x128x32x256 .f32) (v4 : Vec Ideal S128x128 .f32) (v5 v7 v9 : Vec Ideal S1x128 .f32)
    (i : S8192x128.Idx) :
    k0_pay2 (F := Ideal) v0 v4 v5 v7 v9 i = Ideal.logistic (k0_pay1 (F := Ideal) v0 v4 v5 v7 v9 i) := rfl

theorem pay3_apply (v38 v39 : FVec Ideal S8192x128 .f32) (v41 : Vec Ideal S128x128 .f32) (v42 v44 v46 : Vec Ideal S1x128 .f32)
    (r : Fin 8192) (d : Fin 128) :
    k0_pay3 (F := Ideal) v38 v39 v41 v42 v44 v46 (ix2 r d)
      = silu (lnorm (fun k => v44 (ix2 (0 : Fin 1) k)) (fun k => v46 (ix2 (0 : Fin 1) k))
          (lin (fun d' k => v41 (ix2 d' k)) (fun d' => v42 (ix2 (0 : Fin 1) d')) (fun k => v38 (ix2 r k) * v39 (ix2 r k))) d) := by
  rw [pay3_eq, mulf_apply]
  show normOps (linOps (mulf v38 v39) v41 v42) v44 v46 (ix2 r d)
      * Ideal.logistic (normOps (linOps (mulf v38 v39) v41 v42) v44 v46 (ix2 r d)) = _
  rw [normOps_apply]
  unfold silu
  refine congrArg (fun y => y * Ideal.logistic y) ?_
  refine congrArg (fun z => lnorm _ _ z d) (funext fun k => ?_)
  rw [linOps_apply]
  refine congrArg (fun x => lin _ _ x k) (funext fun c => ?_)
  exact mulf_apply v38 v39 (ix2 r c)

theorem pay6_apply (v77 : FVec Ideal S8192x128 .f32) (v78 : Vec Ideal S8x128 .f32) (v80 : FVec Ideal S1x8 .f32)
    (o : Fin 8) (n : Fin 32) (t : Fin 256) (r : Fin 8192) (hr : r.val = n.val * 256 + t.val) :
    k0_pay6 (F := Ideal) v77 v78 v80 (ix4 (0 : Fin 1) o n t)
      = lin (fun o' k => v78 (ix2 o' k)) (fun o' => v80 (ix2 (0 : Fin 1) o')) (fun k => v77 (ix2 r k)) o := by
  rw [pay6_eq, relaidOut_apply _ o n t r hr, headOps_apply]

theorem pay7_apply (v77 : FVec Ideal S8192x128 .f32) (v81 : Vec Ideal S8x128 .f32) (v82 : Vec Ideal S1x8 .f32)
    (o : Fin 8) (n : Fin 32) (t : Fin 256) (r : Fin 8192) (hr : r.val = n.val * 256 + t.val) :
    k0_pay7 (F := Ideal) v77 v81 v82 (ix4 (0 : Fin 1) o n t)
      = scale (lin (fun o' k => v81 (ix2 o' k)) (fun o' => v82 (ix2 (0 : Fin 1) o')) (fun k => v77 (ix2 r k)) o) := by
  rw [pay7_eq, relaidOut_apply _ o n t r hr, scaleOps_apply, headOps_apply, shapeCast_self]

end Cert.Decoder.Ker

end
-- ==== Proof.KernelValue.lean ====
/-
  The kernel's two result arrays as functions of its arguments.

  At every grid point the body's stores leave, in each result window's block, at output o, position n' and lane l,
  the head's output o of the row of 128 channels the input block holds at position n', lane l, after both layers
  (through the output map for the second result).  The point's input block is the input array at batch b and
  positions 32 s + n', and its result blocks land at batch b, positions 32 s + n' of the result arrays; the 64
  points' blocks fill each result array.  So each result array is, index by index, the specification's.
-/
import proofs.«113491_j33268816675399_1_alg».proof.Proof.Gen.KernelIdeal.Value
import proofs.«113491_j33268816675399_1_alg».proof.Proof.KernelBlocks
import proofs.«113491_j33268816675399_1_alg».proof.Proof.KernelRows
import proofs.«113491_j33268816675399_1_alg».proof.Proof.DecoderSpec

set_option maxRecDepth 16384

noncomputable section

namespace Cert.Decoder.KernelValue

open Cert.KernelIdeal Cert.KernelIdeal.Gen Cert.Decoder Idealize.ShloMosaic Idealize.ShloMosaic.TcCoe Idealize.SL.Sem
open Idealize.ShloMosaic.ValueIdx
open Idealize.ShloMosaic.Pipeline (Dat)

theorem hz4 : (![0, 0, 0, 0] : Fin 4 → Nat) = fun _ => 0 := funext fun a => by fin_cases a <;> rfl
theorem hz2 : (![0, 0] : Fin 2 → Nat) = fun _ => 0 := funext fun a => by fin_cases a <;> rfl

/-- A row [1, 8] cast to its own shape is itself. -/
theorem pay4_eq (v : Vec Ideal S1x8 .f32) : k0_pay4 (F := Ideal) v = v := by
  unfold k0_pay4; exact shapeCast_self _ _

/-- The row after both layers, as the body computes it: row r = 256 n + l of the second layer's result is the
    specification's `feat` of the input block's channels at position n, lane l. -/
theorem feat_apply (x0 : Vec Ideal S1x128x32x256 .f32) (x1 : Vec Ideal S128x128 .f32) (x2 x3 x4 : Vec Ideal S1x128 .f32) (x5 : Vec Ideal S128x128 .f32) (x6 x7 x8 : Vec Ideal S1x128 .f32)
    (n : Fin 32) (l : Fin 256) (r : Fin 8192) (hr : r.val = n.val * 256 + l.val) (d : Fin 128) :
    k0_pay3 (F := Ideal) (k0_pay1 x0 x1 x2 x3 x4) (k0_pay2 x0 x1 x2 x3 x4) x5 x6 x7 x8 (ix2 r d)
      = (feat (fun d' k => x1 (ix2 d' k)) (fun d' => x2 (ix2 (0 : Fin 1) d')) (fun k => x3 (ix2 (0 : Fin 1) k)) (fun k => x4 (ix2 (0 : Fin 1) k))
          (fun d' k => x5 (ix2 d' k)) (fun d' => x6 (ix2 (0 : Fin 1) d')) (fun k => x7 (ix2 (0 : Fin 1) k)) (fun k => x8 (ix2 (0 : Fin 1) k))
          (fun ch => x0 (ix4 (0 : Fin 1) ch n l))) d := by
  rw [Ker.pay3_apply]
  have e : (fun k => k0_pay1 (F := Ideal) x0 x1 x2 x3 x4 (ix2 r k) * k0_pay2 (F := Ideal) x0 x1 x2 x3 x4 (ix2 r k))
      = layer (fun d' k => x1 (ix2 d' k)) (fun d' => x2 (ix2 (0 : Fin 1) d')) (fun k => x3 (ix2 (0 : Fin 1) k)) (fun k => x4 (ix2 (0 : Fin 1) k))
          (fun ch => x0 (ix4 (0 : Fin 1) ch n l)) :=
    funext fun k => by rw [Ker.pay2_apply, Ker.pay1_apply x0 x1 x2 x3 x4 n l r hr k]; rfl
  rw [e]
  rfl

variable (m : (ℓ : Loc nD τ sig) → Buf (Elt Ideal) ℓ) (ρ : Dev nD → PrngReg)

/-! ## Result window 13 -/

/-- What the body leaves in window 13's block, at output o, position n, lane l of the block. -/
theorem out13_apply (x0 : Vec Ideal S1x128x32x256 .f32) (x1 : Vec Ideal S128x128 .f32) (x2 x3 x4 : Vec Ideal S1x128 .f32) (x5 : Vec Ideal S128x128 .f32) (x6 x7 x8 : Vec Ideal S1x128 .f32) (x9 : Vec Ideal S8x128 .f32) (x10 : Vec Ideal S1x8 .f32) (x11 : Vec Ideal S8x128 .f32) (x12 : Vec Ideal S1x8 .f32) (o : Fin 8) (n : Fin 32) (l : Fin 256) :
    out0_13 (F := Ideal) x0 x1 x2 x3 x4 x5 x6 x7 x8 x9 x10 x11 x12 (ix4 (0 : Fin 1) o n l)
      = lin (fun o' k => x9 (ix2 o' k)) (fun o' => x10 (ix2 (0 : Fin 1) o'))
        (feat (fun d' k => x1 (ix2 d' k)) (fun d' => x2 (ix2 (0 : Fin 1) d')) (fun k => x3 (ix2 (0 : Fin 1) k)) (fun k => x4 (ix2 (0 : Fin 1) k))
          (fun d' k => x5 (ix2 d' k)) (fun d' => x6 (ix2 (0 : Fin 1) d')) (fun k => x7 (ix2 (0 : Fin 1) k)) (fun k => x8 (ix2 (0 : Fin 1) k))
          (fun ch => x0 (ix4 (0 : Fin 1) ch n l))) o := by
  unfold out0_13
  rw [View.canon_unit_zero hz4]
  simp only [View.ld_unit_zero (S := S1x128x32x256) hz4, View.ld_unit_zero (S := S128x128) hz2, View.ld_unit_zero (S := S1x128) hz2, View.ld_unit_zero (S := S8x128) hz2, View.ld_unit_zero (S := S1x8) hz2]
  rw [Ker.pay6_apply _ _ _ o n l ⟨n.val * 256 + l.val, by have := n.isLt; have := l.isLt; omega⟩ rfl]
  have e := fun k => feat_apply x0 x1 x2 x3 x4 x5 x6 x7 x8 n l ⟨n.val * 256 + l.val, by have := n.isLt; have := l.isLt; omega⟩ rfl k
  simp only [e, pay4_eq]

/-- An index of the array is in point t's block of window 13 iff each coordinate is in the block's range. -/
theorem mem_blk13 (t : Fin cfg0.N) (i : S8x8x256x256.Idx) :
    i ∈ ((cfg0.win 13).blk t).view.set ↔ ∀ a : Fin 4, win0_13.index t a * S1x8x32x256.size a ≤ (i a).val ∧ (i a).val < win0_13.index t a * S1x8x32x256.size a + S1x8x32x256.size a := by
  show i ∈ ((View.whole main_v8_0).slice (win0_13.rect t)).set ↔ _
  rw [View.set_slice_whole, Rect.mem_set_unit]
  exact Iff.rfl

/-- What point t writes back to window 13 is block t of the specification's array of the arguments. -/
theorem flushed13_eq (c : Dev nD) (t : Fin cfg0.N) :
    (dats m 0 c).flushed 13 t = ((cfg0.win 13).blk t).view.read (Elt Ideal) (muArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) := by
  rw [Value.flushed13]
  obtain ⟨e1, e3, f0, f1, f2, f3, g0, g1, g2, g3, le0, le2⟩ := Blocks.idx_io t
  refine funext fun (j : S1x8x32x256.Idx) => ?_
  have hj0 : (j 0).val = 0 := by have h : (j 0).val < 1 := (j 0).isLt; omega
  have hj1 : (j 1).val < 8 := (j 1).isLt
  have hj2 : (j 2).val < 32 := (j 2).isLt
  have hj3 : (j 3).val < 256 := (j 3).isLt
  obtain ⟨o, n', l, rfl⟩ : ∃ (o : Fin 8) (n' : Fin 32) (l : Fin 256), j = ix4 (0 : Fin 1) o n' l :=
    ⟨j 1, j 2, j 3, by rw [eq_ix4 j]; congr 1; exact Fin.ext hj0⟩
  let b : Fin 8 := ⟨win0_0.index t (0 : Fin 4), by omega⟩
  let n : Fin 256 := ⟨win0_0.index t (2 : Fin 4) * 32 + n'.val, by have := n'.isLt; omega⟩
  have hemb : ((cfg0.win 13).blk t).view.emb (ix4 (0 : Fin 1) o n' l) = ix4 b o n l := by
    funext a; apply Fin.ext
    match a with
    | ⟨0, _⟩ => show win0_13.index t (0 : Fin 4) * 1 + 1 * 0 = win0_0.index t (0 : Fin 4); rw [f0]; omega
    | ⟨1, _⟩ => show win0_13.index t (1 : Fin 4) * 8 + 1 * o.val = o.val; rw [f1]; omega
    | ⟨2, _⟩ => show win0_13.index t (2 : Fin 4) * 32 + 1 * n'.val = win0_0.index t (2 : Fin 4) * 32 + n'.val; rw [f2]; omega
    | ⟨3, _⟩ => show win0_13.index t (3 : Fin 4) * 256 + 1 * l.val = l.val; rw [f3]; omega
  rw [View.read_apply, hemb]
  refine (out13_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) o n' l).trans ?_
  simp only [Blocks.iblk1 m c t, Blocks.iblk2 m c t, Blocks.iblk3 m c t, Blocks.iblk4 m c t, Blocks.iblk5 m c t, Blocks.iblk6 m c t, Blocks.iblk7 m c t, Blocks.iblk8 m c t, Blocks.iblk9 m c t, Blocks.iblk10 m c t, Blocks.iblk11 m c t, Blocks.iblk12 m c t, fun ch => Blocks.iblk0 m c t ch n' l b n rfl rfl]
  rfl

/-- Every index of the result array is in some point's block of window 13. -/
theorem cover13 (i : S8x8x256x256.Idx) : ∃ t : Fin cfg0.N, (cfg0.win 13).flush t = true ∧ i ∈ ((cfg0.win 13).blk t).view.set := by
  have hi0 : (i 0).val < 8 := (i 0).isLt
  have hi1 : (i 1).val < 8 := (i 1).isLt
  have hi2 : (i 2).val < 256 := (i 2).isLt
  have hi3 : (i 3).val < 256 := (i 3).isLt
  obtain ⟨t, ht⟩ := Blocks.idx_onto13 ⟨(i 0).val, hi0⟩ ⟨(i 2).val / 32, by omega⟩
  have q0 : win0_13.index t (0 : Fin 4) = (i 0).val := congrFun ht 0
  have q1 : win0_13.index t (1 : Fin 4) = 0 := congrFun ht 1
  have q2 : win0_13.index t (2 : Fin 4) = (i 2).val / 32 := congrFun ht 2
  have q3 : win0_13.index t (3 : Fin 4) = 0 := congrFun ht 3
  refine ⟨t, flush0_13 t, ?_⟩
  rw [mem_blk13]
  intro a
  match a with
  | ⟨0, _⟩ => show win0_13.index t (0 : Fin 4) * 1 ≤ (i 0).val ∧ (i 0).val < win0_13.index t (0 : Fin 4) * 1 + 1; omega
  | ⟨1, _⟩ => show win0_13.index t (1 : Fin 4) * 8 ≤ (i 1).val ∧ (i 1).val < win0_13.index t (1 : Fin 4) * 8 + 8; omega
  | ⟨2, _⟩ => show win0_13.index t (2 : Fin 4) * 32 ≤ (i 2).val ∧ (i 2).val < win0_13.index t (2 : Fin 4) * 32 + 32; omega
  | ⟨3, _⟩ => show win0_13.index t (3 : Fin 4) * 256 ≤ (i 3).val ∧ (i 3).val < win0_13.index t (3 : Fin 4) * 256 + 256; omega

/-- So the array ends holding the specification's array of the arguments. -/
theorem final13 (c : Dev nD) : (dats m 0 c).arrAt 13 cfg0.N = muArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (dats m 0 c).arrAt_eq_of_cover 13 (muArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (fun t _ => flushed13_eq m c t) cover13

/-! ## Result window 14 -/

/-- What the body leaves in window 14's block, at output o, position n, lane l of the block. -/
theorem out14_apply (x0 : Vec Ideal S1x128x32x256 .f32) (x1 : Vec Ideal S128x128 .f32) (x2 x3 x4 : Vec Ideal S1x128 .f32) (x5 : Vec Ideal S128x128 .f32) (x6 x7 x8 : Vec Ideal S1x128 .f32) (x9 : Vec Ideal S8x128 .f32) (x10 : Vec Ideal S1x8 .f32) (x11 : Vec Ideal S8x128 .f32) (x12 : Vec Ideal S1x8 .f32) (o : Fin 8) (n : Fin 32) (l : Fin 256) :
    out0_14 (F := Ideal) x0 x1 x2 x3 x4 x5 x6 x7 x8 x9 x10 x11 x12 (ix4 (0 : Fin 1) o n l)
      = scale (lin (fun o' k => x11 (ix2 o' k)) (fun o' => x12 (ix2 (0 : Fin 1) o'))
        (feat (fun d' k => x1 (ix2 d' k)) (fun d' => x2 (ix2 (0 : Fin 1) d')) (fun k => x3 (ix2 (0 : Fin 1) k)) (fun k => x4 (ix2 (0 : Fin 1) k))
          (fun d' k => x5 (ix2 d' k)) (fun d' => x6 (ix2 (0 : Fin 1) d')) (fun k => x7 (ix2 (0 : Fin 1) k)) (fun k => x8 (ix2 (0 : Fin 1) k))
          (fun ch => x0 (ix4 (0 : Fin 1) ch n l))) o) := by
  unfold out0_14
  rw [View.canon_unit_zero hz4]
  simp only [View.ld_unit_zero (S := S1x128x32x256) hz4, View.ld_unit_zero (S := S128x128) hz2, View.ld_unit_zero (S := S1x128) hz2, View.ld_unit_zero (S := S8x128) hz2, View.ld_unit_zero (S := S1x8) hz2]
  rw [Ker.pay7_apply _ _ _ o n l ⟨n.val * 256 + l.val, by have := n.isLt; have := l.isLt; omega⟩ rfl]
  have e := fun k => feat_apply x0 x1 x2 x3 x4 x5 x6 x7 x8 n l ⟨n.val * 256 + l.val, by have := n.isLt; have := l.isLt; omega⟩ rfl k
  simp only [e]

/-- An index of the array is in point t's block of window 14 iff each coordinate is in the block's range. -/
theorem mem_blk14 (t : Fin cfg0.N) (i : S8x8x256x256.Idx) :
    i ∈ ((cfg0.win 14).blk t).view.set ↔ ∀ a : Fin 4, win0_14.index t a * S1x8x32x256.size a ≤ (i a).val ∧ (i a).val < win0_14.index t a * S1x8x32x256.size a + S1x8x32x256.size a := by
  show i ∈ ((View.whole main_v8_1).slice (win0_14.rect t)).set ↔ _
  rw [View.set_slice_whole, Rect.mem_set_unit]
  exact Iff.rfl

/-- What point t writes back to window 14 is block t of the specification's array of the arguments. -/
theorem flushed14_eq (c : Dev nD) (t : Fin cfg0.N) :
    (dats m 0 c).flushed 14 t = ((cfg0.win 14).blk t).view.read (Elt Ideal) (sigmaArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg11)) (m ((c : Thread nD τ).loc main_arg12))) := by
  rw [Value.flushed14]
  obtain ⟨e1, e3, f0, f1, f2, f3, g0, g1, g2, g3, le0, le2⟩ := Blocks.idx_io t
  refine funext fun (j : S1x8x32x256.Idx) => ?_
  have hj0 : (j 0).val = 0 := by have h : (j 0).val < 1 := (j 0).isLt; omega
  have hj1 : (j 1).val < 8 := (j 1).isLt
  have hj2 : (j 2).val < 32 := (j 2).isLt
  have hj3 : (j 3).val < 256 := (j 3).isLt
  obtain ⟨o, n', l, rfl⟩ : ∃ (o : Fin 8) (n' : Fin 32) (l : Fin 256), j = ix4 (0 : Fin 1) o n' l :=
    ⟨j 1, j 2, j 3, by rw [eq_ix4 j]; congr 1; exact Fin.ext hj0⟩
  let b : Fin 8 := ⟨win0_0.index t (0 : Fin 4), by omega⟩
  let n : Fin 256 := ⟨win0_0.index t (2 : Fin 4) * 32 + n'.val, by have := n'.isLt; omega⟩
  have hemb : ((cfg0.win 14).blk t).view.emb (ix4 (0 : Fin 1) o n' l) = ix4 b o n l := by
    funext a; apply Fin.ext
    match a with
    | ⟨0, _⟩ => show win0_14.index t (0 : Fin 4) * 1 + 1 * 0 = win0_0.index t (0 : Fin 4); rw [g0]; omega
    | ⟨1, _⟩ => show win0_14.index t (1 : Fin 4) * 8 + 1 * o.val = o.val; rw [g1]; omega
    | ⟨2, _⟩ => show win0_14.index t (2 : Fin 4) * 32 + 1 * n'.val = win0_0.index t (2 : Fin 4) * 32 + n'.val; rw [g2]; omega
    | ⟨3, _⟩ => show win0_14.index t (3 : Fin 4) * 256 + 1 * l.val = l.val; rw [g3]; omega
  rw [View.read_apply, hemb]
  refine (out14_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) o n' l).trans ?_
  simp only [Blocks.iblk1 m c t, Blocks.iblk2 m c t, Blocks.iblk3 m c t, Blocks.iblk4 m c t, Blocks.iblk5 m c t, Blocks.iblk6 m c t, Blocks.iblk7 m c t, Blocks.iblk8 m c t, Blocks.iblk9 m c t, Blocks.iblk10 m c t, Blocks.iblk11 m c t, Blocks.iblk12 m c t, fun ch => Blocks.iblk0 m c t ch n' l b n rfl rfl]
  rfl

/-- Every index of the result array is in some point's block of window 14. -/
theorem cover14 (i : S8x8x256x256.Idx) : ∃ t : Fin cfg0.N, (cfg0.win 14).flush t = true ∧ i ∈ ((cfg0.win 14).blk t).view.set := by
  have hi0 : (i 0).val < 8 := (i 0).isLt
  have hi1 : (i 1).val < 8 := (i 1).isLt
  have hi2 : (i 2).val < 256 := (i 2).isLt
  have hi3 : (i 3).val < 256 := (i 3).isLt
  obtain ⟨t, ht⟩ := Blocks.idx_onto14 ⟨(i 0).val, hi0⟩ ⟨(i 2).val / 32, by omega⟩
  have q0 : win0_14.index t (0 : Fin 4) = (i 0).val := congrFun ht 0
  have q1 : win0_14.index t (1 : Fin 4) = 0 := congrFun ht 1
  have q2 : win0_14.index t (2 : Fin 4) = (i 2).val / 32 := congrFun ht 2
  have q3 : win0_14.index t (3 : Fin 4) = 0 := congrFun ht 3
  refine ⟨t, flush0_14 t, ?_⟩
  rw [mem_blk14]
  intro a
  match a with
  | ⟨0, _⟩ => show win0_14.index t (0 : Fin 4) * 1 ≤ (i 0).val ∧ (i 0).val < win0_14.index t (0 : Fin 4) * 1 + 1; omega
  | ⟨1, _⟩ => show win0_14.index t (1 : Fin 4) * 8 ≤ (i 1).val ∧ (i 1).val < win0_14.index t (1 : Fin 4) * 8 + 8; omega
  | ⟨2, _⟩ => show win0_14.index t (2 : Fin 4) * 32 ≤ (i 2).val ∧ (i 2).val < win0_14.index t (2 : Fin 4) * 32 + 32; omega
  | ⟨3, _⟩ => show win0_14.index t (3 : Fin 4) * 256 ≤ (i 3).val ∧ (i 3).val < win0_14.index t (3 : Fin 4) * 256 + 256; omega

/-- So the array ends holding the specification's array of the arguments. -/
theorem final14 (c : Dev nD) : (dats m 0 c).arrAt 14 cfg0.N = sigmaArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg11)) (m ((c : Thread nD τ).loc main_arg12)) :=
  (dats m 0 c).arrAt_eq_of_cover 14 (sigmaArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg11)) (m ((c : Thread nD τ).loc main_arg12))) (fun t _ => flushed14_eq m c t) cover14

/-! ## The run -/

/-- The kernel's run: both result arrays at the specification's arrays of the arguments, the arguments unchanged. -/
theorem run : θ_run defs (onTc (τ := τ) (main (F := Ideal))) ⟨m, fun _ => 0, ρ⟩ fun r => ∀ c : Dev nD,
      r.2.mem ((c : Thread nD τ).loc main_v8_0) = muArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      ∧ r.2.mem ((c : Thread nD τ).loc main_v8_1) = sigmaArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg11)) (m ((c : Thread nD τ).loc main_arg12))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run defs _ _).mono (fun r h c => ⟨(h c).1.trans (final13 m c), (h c).2.1.trans (final14 m c), (h c).2.2⟩)
    (Cert.KernelIdeal.Value.run_blocks m ρ)

end Cert.Decoder.KernelValue

end
-- ==== Proof.LibHostLines.lean ====
/-
  A straight line of host operations, cut at one of them.

  The contents a line of operations leaves are a fold over the list.  To read ONE buffer after a long line without
  unfolding all of it: a buffer that no operation from position `k` on writes holds what the first `k` operations
  left (`after_eq_take`); the first `k + 1` operations are the first `k` followed by operation `k`
  (`after_take_succ`), whose own result lemma then applies; and two stretches run one after the other compose
  (`after_append`).  With these a buffer written once, by an operation whose operands are written earlier or
  never, is read in a few steps whatever the line's length and whatever the other operations are.
-/
import Idealize.ShloMosaic.Lib.StableHlo.Run

noncomputable section

namespace Cert.Lib.HostLines

open Idealize.ShloMosaic Idealize.ShloMosaic.StableHlo

section Lines
variable {τ : Topo} {sig : RefSig} {Val : EltTy → Type}

/-- Two stretches run one after the other. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A buffer written by no operation from position `k` on holds what the first `k` operations left. -/
theorem after_eq_take (ops : List (HloOp τ sig Val)) (V : Valuation τ sig Val) (k : Nat) (b : DevRef τ sig)
    (h : ∀ op ∈ ops.drop k, b ∉ op.writes) : after ops V b = after (ops.take k) V b := by
  conv_lhs => rw [← List.take_append_drop k ops]
  rw [after_append, after_of_forall_not_mem _ _ h]

/-- The first `k + 1` operations are the first `k`, then operation `k`. -/
theorem after_take_succ (ops : List (HloOp τ sig Val)) (V : Valuation τ sig Val) (k : Nat) (hk : k < ops.length) :
    after (ops.take (k + 1)) V = (ops[k]).result (after (ops.take k) V) := by
  rw [List.take_succ_eq_append_getElem hk, after_append]; rfl

end Lines

end Cert.Lib.HostLines

end
-- ==== Proof.LibSingleAssignment.lean ====
/-
  A straight line of host operations in single-assignment form, read one operation at a time.

  When every operation of a line writes ONE buffer and the written buffers are listed in order
  (`ys`), a buffer that is not among `ys` from position `k` on is written by no operation from
  position `k` on.  So, after the WHOLE line, the buffer operation `k` writes holds what operation
  `k` computes from the contents the first `k` operations left (`after_at`), and an operand
  written before position `k` — or never — still holds after the whole line what it held then
  (`after_kept`).  With these two facts each buffer of a long line is read from its operands'
  final contents in a few steps, with nothing unfolded and every intermediate shared.
-/
import Idealize.ShloMosaic.Lib.StableHlo.Run
import proofs.«113491_j33268816675399_1_alg».proof.Proof.LibHostLines

noncomputable section

namespace Cert.Lib.SingleAssignment

open Idealize.ShloMosaic Idealize.ShloMosaic.StableHlo Cert.Lib.HostLines

variable {τ : Topo} {sig : RefSig} {Val : EltTy → Type}

/-- The line writes the buffers `ys`, one per operation, in order. -/
def Writes (ops : List (HloOp τ sig Val)) (ys : List (Ref sig .tc)) : Prop :=
  ops.map HloOp.writes = ys.map fun y => ({Proc.devRef (τ := τ) .tc y} : Finset (DevRef τ sig))

/-- A buffer not among the results from position `k` on is written by no operation from position `k` on. -/
theorem not_written_from {ops : List (HloOp τ sig Val)} {ys : List (Ref sig .tc)} (hw : Writes ops ys)
    (r : Ref sig .tc) (k : Nat) (hr : r ∉ ys.drop k) :
    ∀ op ∈ ops.drop k, Proc.devRef (τ := τ) .tc r ∉ op.writes := by
  intro op hop hmem
  have h1 : op.writes ∈ (ops.drop k).map HloOp.writes := List.mem_map_of_mem hop
  rw [List.map_drop, hw, ← List.map_drop] at h1
  obtain ⟨y, hy, hyw⟩ := List.mem_map.mp h1
  rw [← hyw, Finset.mem_singleton] at hmem
  exact hr (Proc.devRef_injective _ hmem ▸ hy)

/-- A buffer not written from position `k` on holds after the whole line what the first `k` operations left. -/
theorem after_kept {ops : List (HloOp τ sig Val)} {ys : List (Ref sig .tc)} (hw : Writes ops ys)
    (V : Valuation τ sig Val) (r : Ref sig .tc) (k : Nat) (hr : r ∉ ys.drop k) :
    after ops V (Proc.devRef .tc r) = after (ops.take k) V (Proc.devRef .tc r) := by
  exact after_eq_take ops V k _ (not_written_from hw r k hr)

/-- The buffer operation `k` writes, if no later operation writes it, holds after the whole line operation `k`'s
    result from the contents the first `k` operations left. -/
theorem after_at {ops : List (HloOp τ sig Val)} {ys : List (Ref sig .tc)} (hw : Writes ops ys)
    (V : Valuation τ sig Val) (r : Ref sig .tc) (k : Nat) (hk : k < ops.length) (hr : r ∉ ys.drop (k + 1)) :
    after ops V (Proc.devRef .tc r) = (ops[k]).result (after (ops.take k) V) (Proc.devRef .tc r) := by
  rw [after_kept hw V r (k + 1) hr, after_take_succ ops V k hk]

/-- A buffer the line never writes keeps its contents. -/
theorem after_never {ops : List (HloOp τ sig Val)} {ys : List (Ref sig .tc)} (hw : Writes ops ys)
    (V : Valuation τ sig Val) (r : Ref sig .tc) (hr : r ∉ ys) :
    after ops V (Proc.devRef .tc r) = V (Proc.devRef .tc r) :=
  after_of_forall_not_mem ops V (by simpa using not_written_from hw r 0 (by simpa using hr))

end Cert.Lib.SingleAssignment

end
-- ==== Proof.LibReadOperation.lean ====
/-
  One operation of a single-assignment line, read after the whole line.

  In a line whose operations each write one buffer, none written twice, the buffer operation `k` writes holds, after
  the WHOLE line, operation `k`'s function of what its operand buffers hold after the WHOLE line: the operands were
  written before position `k` or never, so they are not touched again.  One such equation per operation turns the
  line into a system of equations over the final contents, each proved in one step whatever the line's length, and a
  result buffer is then read by rewriting along them.
-/
import Idealize.ShloMosaic.Lib.StableHlo.Run
import proofs.«113491_j33268816675399_1_alg».proof.Proof.LibSingleAssignment

noncomputable section

namespace Cert.Lib.ReadOperation

open Idealize.ShloMosaic Idealize.ShloMosaic.StableHlo Cert.Lib.SingleAssignment

variable {τ : Topo} {sig : RefSig} {Val : EltTy → Type}
variable {ops : List (HloOp τ sig Val)} {ys : List (Ref sig .tc)}

/-- The buffer operation `k` writes holds, after the whole line, that operation's result from what the first `k`
    operations left. -/
theorem at_position (hw : Writes ops ys) (V : Valuation τ sig Val) (k : Nat) (y : Ref sig .tc) {op : HloOp τ sig Val}
    (hop : ops[k]? = some op) (hy' : y ∉ ys.drop (k + 1)) :
    after ops V (Proc.devRef .tc y) = op.result (after (ops.take k) V) (Proc.devRef .tc y) := by
  obtain ⟨hk, he⟩ := List.getElem?_eq_some_iff.mp hop
  rw [after_at hw V y k hk hy', he]

/-- Operation `k` is a constant: its buffer holds the constant after the whole line. -/
theorem nullary_at (hw : Writes ops ys) (V : Valuation τ sig Val) (k : Nat)
    (y : Ref sig .tc) {v : y.ty.Contents Val} {hy}
    (hop : ops[k]? = some (nullary y v hy)) (hy' : y ∉ ys.drop (k + 1)) :
    after ops V (Proc.devRef .tc y) = v := by
  rw [at_position hw V k y hop hy']
  exact nullary_result y v hy _

/-- Operation `k` has one operand. -/
theorem unary_at (hw : Writes ops ys) (V : Valuation τ sig Val) (k : Nat)
    (x y : Ref sig .tc) {f : x.ty.Contents Val → y.ty.Contents Val} {hx hy}
    (hop : ops[k]? = some (unary x y f hx hy)) (hy' : y ∉ ys.drop (k + 1)) (hx' : x ∉ ys.drop k) :
    after ops V (Proc.devRef .tc y) = f (after ops V (Proc.devRef .tc x)) := by
  rw [at_position hw V k y hop hy', after_kept hw V x k hx']
  exact unary_result x y f hx hy _

/-- Operation `k` has two operands. -/
theorem binary_at (hw : Writes ops ys) (V : Valuation τ sig Val) (k : Nat)
    (a b y : Ref sig .tc) {f : a.ty.Contents Val → b.ty.Contents Val → y.ty.Contents Val} {ha hb hy}
    (hop : ops[k]? = some (binary a b y f ha hb hy)) (hy' : y ∉ ys.drop (k + 1))
    (ha' : a ∉ ys.drop k) (hb' : b ∉ ys.drop k) :
    after ops V (Proc.devRef .tc y) = f (after ops V (Proc.devRef .tc a)) (after ops V (Proc.devRef .tc b)) := by
  rw [at_position hw V k y hop hy', after_kept hw V a k ha', after_kept hw V b k hb']
  exact binary_result a b y f ha hb hy _

/-- Operation `k` has three operands. -/
theorem ternary_at (hw : Writes ops ys) (V : Valuation τ sig Val) (k : Nat)
    (c a b y : Ref sig .tc) {f : c.ty.Contents Val → a.ty.Contents Val → b.ty.Contents Val → y.ty.Contents Val}
    {hc ha hb hy}
    (hop : ops[k]? = some (ternary c a b y f hc ha hb hy)) (hy' : y ∉ ys.drop (k + 1))
    (hc' : c ∉ ys.drop k) (ha' : a ∉ ys.drop k) (hb' : b ∉ ys.drop k) :
    after ops V (Proc.devRef .tc y)
      = f (after ops V (Proc.devRef .tc c)) (after ops V (Proc.devRef .tc a)) (after ops V (Proc.devRef .tc b)) := by
  rw [at_position hw V k y hop hy', after_kept hw V c k hc', after_kept hw V a k ha', after_kept hw V b k hb']
  exact ternary_result c a b y f hc ha hb hy _

end Cert.Lib.ReadOperation

end
-- ==== Proof.RefRun.lean ====
/-
  The reference's run, read one operation at a time.

  The reference is one straight line of 115 host operations, each writing a buffer of its own exactly once (a call of
  the softplus function stands as its 14 operations in place).  After the whole line each result buffer therefore
  holds its operation's function of what the operand buffers hold after the whole line, and an argument, which no
  operation writes, holds what it was launched with.  These 115 equations, one per operation, are chained here from
  the arguments on: the buffer of every operation holds that operation's stage as a function of the arguments
  (`val_<buffer>` of the arguments' launch contents).  No composed term is ever written out: every intermediate
  stays a name, so a value used five times is still one name.
-/
import proofs.«113491_j33268816675399_1_alg».proof.Proof.Gen.ReferenceIdeal
import proofs.«113491_j33268816675399_1_alg».proof.Proof.RefReadP
import proofs.«113491_j33268816675399_1_alg».proof.Proof.LibReadOperation
import Idealize.ShloMosaic.Lib.StableHlo.Run

noncomputable section

namespace Cert.Decoder.RefRun

open Cert.ReferenceIdeal Cert.ReferenceIdeal.Gen Cert.ReferenceIdeal.ReadP Idealize.ShloMosaic Idealize.ShloMosaic.TcCoe Idealize.SL.Sem Idealize.ShloMosaic.StableHlo
open Cert.Lib.SingleAssignment Cert.Lib.ReadOperation

variable {F : FTy → Type} [FloatOps F]

/-- The reference's 115 operations, in order; the called function's operations stand in its call's place. -/
abbrev ops : List (HloOp τ sig (Elt F)) :=
  [ unary main_arg0 main_v0 ((transpose S8x256x256x128 [0, 3, 2, 1] · transposes_S8x128x256x256_S8x256x256x128_0_3_2_1) : (⟨S8x128x256x256, .f32⟩ : BufTy).Contents (Elt F) → (⟨S8x256x256x128, .f32⟩ : BufTy).Contents (Elt F)),
    binary main_v0 main_arg1 main_v1 ((fun l r => Host.dotGeneral dot_S8x256x256x128_S128x128_S8x256x256x128_3_1_012_0_n_n none l r) : (⟨S8x256x256x128, .f32⟩ : BufTy).Contents (Elt F) → (⟨S128x128, .f32⟩ : BufTy).Contents (Elt F) → (⟨S8x256x256x128, .f32⟩ : BufTy).Contents (Elt F)),
    unary main_arg2 main_v2 (broadcastInDim S1x1x1x128 ![3] bcast_S128_S1x1x1x128_3 : (⟨S128, .f32⟩ : BufTy).Contents (Elt F) → (⟨S1x1x1x128, .f32⟩ : BufTy).Contents (Elt F)),
    unary main_v2 main_v3 (broadcastInDim S8x256x256x128 ![0, 1, 2, 3] bcast_S1x1x1x128_S8x256x256x128_0_1_2_3 : (⟨S1x1x1x128, .f32⟩ : BufTy).Contents (Elt F) → (⟨S8x256x256x128, .f32⟩ : BufTy).Contents (Elt F)),
    binary main_v1 main_v3 main_v4 (addf : (⟨S8x256x256x128, .f32⟩ : BufTy).Contents (Elt F) → (⟨S8x256x256x128, .f32⟩ : BufTy).Contents (Elt F) → (⟨S8x256x256x128, .f32⟩ : BufTy).Contents (Elt F)),
    nullary main_cst (constant S_ .f32 0x00000000#32),
    binary main_v4 main_cst main_v5 ((fun x v => Host.reduceAdd x v reducesTo_S8x256x256x128_S8x256x256_d3 h_S_) : (⟨S8x256x256x128, .f32⟩ : BufTy).Contents (Elt F) → (⟨S_, .f32⟩ : BufTy).Contents (Elt F) → (⟨S8x256x256, .f32⟩ : BufTy).Contents (Elt F)),
    unary main_v5 main_v6 (broadcastInDim S8x256x256x1 ![0, 1, 2] bcast_S8x256x256_S8x256x256x1_0_1_2 : (⟨S8x256x256, .f32⟩ : BufTy).Contents (Elt F) → (⟨S8x256x256x1, .f32⟩ : BufTy).Contents (Elt F)),
    nullary main_cst_0 (constant S_ .f32 0x43000000#32),
    unary main_cst_0 main_v7 (broadcastInDim S8x256x256x1 ![] bcast_S_S8x256x256x1 : (⟨S_, .f32⟩ : BufTy).Contents (Elt F) → (⟨S8x256x256x1, .f32⟩ : BufTy).Contents (Elt F)),
    binary main_v6 main_v7 main_v8 (Host.divf : (⟨S8x256x256x1, .f32⟩ : BufTy).Contents (Elt F) → (⟨S8x256x256x1, .f32⟩ : BufTy).Contents (Elt F) → (⟨S8x256x256x1, .f32⟩ : BufTy).Contents (Elt F)),
    unary main_v8 main_v9 (broadcastInDim S8x256x256x128 ![0, 1, 2, 3] bcast_S8x256x256x1_S8x256x256x128_0_1_2_3 : (⟨S8x256x256x1, .f32⟩ : BufTy).Contents (Elt F) → (⟨S8x256x256x128, .f32⟩ : BufTy).Contents (Elt F)),
    binary main_v4 main_v9 main_v10 (subf : (⟨S8x256x256x128, .f32⟩ : BufTy).Contents (Elt F) → (⟨S8x256x256x128, .f32⟩ : BufTy).Contents (Elt F) → (⟨S8x256x256x128, .f32⟩ : BufTy).Contents (Elt F)),
    binary main_v10 main_v10 main_v11 (mulf : (⟨S8x256x256x128, .f32⟩ : BufTy).Contents (Elt F) → (⟨S8x256x256x128, .f32⟩ : BufTy).Contents (Elt F) → (⟨S8x256x256x128, .f32⟩ : BufTy).Contents (Elt F)),
    nullary main_cst_1 (constant S_ .f32 0x00000000#32),
    binary main_v11 main_cst_1 main_v12 ((fun x v => Host.reduceAdd x v reducesTo_S8x256x256x128_S8x256x256_d3 h_S_) : (⟨S8x256x256x128, .f32⟩ : BufTy).Contents (Elt F) → (⟨S_, .f32⟩ : BufTy).Contents (Elt F) → (⟨S8x256x256, .f32⟩ : BufTy).Contents (Elt F)),
    unary main_v12 main_v13 (broadcastInDim S8x256x256x1 ![0, 1, 2] bcast_S8x256x256_S8x256x256x1_0_1_2 : (⟨S8x256x256, .f32⟩ : BufTy).Contents (Elt F) → (⟨S8x256x256x1, .f32⟩ : BufTy).Contents (Elt F)),
    nullary main_cst_2 (constant S_ .f32 0x43000000#32),
    unary main_cst_2 main_v14 (broadcastInDim S8x256x256x1 ![] bcast_S_S8x256x256x1 : (⟨S_, .f32⟩ : BufTy).Contents (Elt F) → (⟨S8x256x256x1, .f32⟩ : BufTy).Contents (Elt F)),
    binary main_v13 main_v14 main_v15 (Host.divf : (⟨S8x256x256x1, .f32⟩ : BufTy).Contents (Elt F) → (⟨S8x256x256x1, .f32⟩ : BufTy).Contents (Elt F) → (⟨S8x256x256x1, .f32⟩ : BufTy).Contents (Elt F)),
    unary main_v8 main_v16 (broadcastInDim S8x256x256x128 ![0, 1, 2, 3] bcast_S8x256x256x1_S8x256x256x128_0_1_2_3 : (⟨S8x256x256x1, .f32⟩ : BufTy).Contents (Elt F) → (⟨S8x256x256x128, .f32⟩ : BufTy).Contents (Elt F)),
    binary main_v4 main_v16 main_v17 (subf : (⟨S8x256x256x128, .f32⟩ : BufTy).Contents (Elt F) → (⟨S8x256x256x128, .f32⟩ : BufTy).Contents (Elt F) → (⟨S8x256x256x128, .f32⟩ : BufTy).Contents (Elt F)),
    nullary main_cst_3 (constant S_ .f32 0x3727C5AC#32),
    unary main_cst_3 main_v18 (broadcastInDim S8x256x256x1 ![] bcast_S_S8x256x256x1 : (⟨S_, .f32⟩ : BufTy).Contents (Elt F) → (⟨S8x256x256x1, .f32⟩ : BufTy).Contents (Elt F)),
    binary main_v15 main_v18 main_v19 (addf : (⟨S8x256x256x1, .f32⟩ : BufTy).Contents (Elt F) → (⟨S8x256x256x1, .f32⟩ : BufTy).Contents (Elt F) → (⟨S8x256x256x1, .f32⟩ : BufTy).Contents (Elt F)),
    unary main_v19 main_v20 (Host.rsqrt : (⟨S8x256x256x1, .f32⟩ : BufTy).Contents (Elt F) → (⟨S8x256x256x1, .f32⟩ : BufTy).Contents (Elt F)),
    unary main_v20 main_v21 (broadcastInDim S8x256x256x128 ![0, 1, 2, 3] bcast_S8x256x256x1_S8x256x256x128_0_1_2_3 : (⟨S8x256x256x1, .f32⟩ : BufTy).Contents (Elt F) → (⟨S8x256x256x128, .f32⟩ : BufTy).Contents (Elt F)),
    binary main_v17 main_v21 main_v22 (mulf : (⟨S8x256x256x128, .f32⟩ : BufTy).Contents (Elt F) → (⟨S8x256x256x128, .f32⟩ : BufTy).Contents (Elt F) → (⟨S8x256x256x128, .f32⟩ : BufTy).Contents (Elt F)),
    unary main_arg3 main_v23 (broadcastInDim S1x1x1x128 ![3] bcast_S128_S1x1x1x128_3 : (⟨S128, .f32⟩ : BufTy).Contents (Elt F) → (⟨S1x1x1x128, .f32⟩ : BufTy).Contents (Elt F)),
    unary main_v23 main_v24 (broadcastInDim S8x256x256x128 ![0, 1, 2, 3] bcast_S1x1x1x128_S8x256x256x128_0_1_2_3 : (⟨S1x1x1x128, .f32⟩ : BufTy).Contents (Elt F) → (⟨S8x256x256x128, .f32⟩ : BufTy).Contents (Elt F)),
    binary main_v22 main_v24 main_v25 (mulf : (⟨S8x256x256x128, .f32⟩ : BufTy).Contents (Elt F) → (⟨S8x256x256x128, .f32⟩ : BufTy).Contents (Elt F) → (⟨S8x256x256x128, .f32⟩ : BufTy).Contents (Elt F)),
    unary main_arg4 main_v26 (broadcastInDim S1x1x1x128 ![3] bcast_S128_S1x1x1x128_3 : (⟨S128, .f32⟩ : BufTy).Contents (Elt F) → (⟨S1x1x1x128, .f32⟩ : BufTy).Contents (Elt F)),
    unary main_v26 main_v27 (broadcastInDim S8x256x256x128 ![0, 1, 2, 3] bcast_S1x1x1x128_S8x256x256x128_0_1_2_3 : (⟨S1x1x1x128, .f32⟩ : BufTy).Contents (Elt F) → (⟨S8x256x256x128, .f32⟩ : BufTy).Contents (Elt F)),
    binary main_v25 main_v27 main_v28 (addf : (⟨S8x256x256x128, .f32⟩ : BufTy).Contents (Elt F) → (⟨S8x256x256x128, .f32⟩ : BufTy).Contents (Elt F) → (⟨S8x256x256x128, .f32⟩ : BufTy).Contents (Elt F)),
    unary main_v28 main_v29 (Host.negf : (⟨S8x256x256x128, .f32⟩ : BufTy).Contents (Elt F) → (⟨S8x256x256x128, .f32⟩ : BufTy).Contents (Elt F)),
    unary main_v29 main_v30 (Host.exp : (⟨S8x256x256x128, .f32⟩ : BufTy).Contents (Elt F) → (⟨S8x256x256x128, .f32⟩ : BufTy).Contents (Elt F)),
    nullary main_cst_4 (constant S_ .f32 0x3F800000#32),
    unary main_cst_4 main_v31 (broadcastInDim S8x256x256x128 ![] bcast_S_S8x256x256x128 : (⟨S_, .f32⟩ : BufTy).Contents (Elt F) → (⟨S8x256x256x128, .f32⟩ : BufTy).Contents (Elt F)),
    binary main_v31 main_v30 main_v32 (addf : (⟨S8x256x256x128, .f32⟩ : BufTy).Contents (Elt F) → (⟨S8x256x256x128, .f32⟩ : BufTy).Contents (Elt F) → (⟨S8x256x256x128, .f32⟩ : BufTy).Contents (Elt F)),
    nullary main_cst_5 (constant S_ .f32 0x3F800000#32),
    unary main_cst_5 main_v33 (broadcastInDim S8x256x256x128 ![] bcast_S_S8x256x256x128 : (⟨S_, .f32⟩ : BufTy).Contents (Elt F) → (⟨S8x256x256x128, .f32⟩ : BufTy).Contents (Elt F)),
    binary main_v33 main_v32 main_v34 (Host.divf : (⟨S8x256x256x128, .f32⟩ : BufTy).Contents (Elt F) → (⟨S8x256x256x128, .f32⟩ : BufTy).Contents (Elt F) → (⟨S8x256x256x128, .f32⟩ : BufTy).Contents (Elt F)),
    binary main_v28 main_v34 main_v35 (mulf : (⟨S8x256x256x128, .f32⟩ : BufTy).Contents (Elt F) → (⟨S8x256x256x128, .f32⟩ : BufTy).Contents (Elt F) → (⟨S8x256x256x128, .f32⟩ : BufTy).Contents (Elt F)),
    binary main_v35 main_arg5 main_v36 ((fun l r => Host.dotGeneral dot_S8x256x256x128_S128x128_S8x256x256x128_3_1_012_0_n_n none l r) : (⟨S8x256x256x128, .f32⟩ : BufTy).Contents (Elt F) → (⟨S128x128, .f32⟩ : BufTy).Contents (Elt F) → (⟨S8x256x256x128, .f32⟩ : BufTy).Contents (Elt F)),
    unary main_arg6 main_v37 (broadcastInDim S1x1x1x128 ![3] bcast_S128_S1x1x1x128_3 : (⟨S128, .f32⟩ : BufTy).Contents (Elt F) → (⟨S1x1x1x128, .f32⟩ : BufTy).Contents (Elt F)),
    unary main_v37 main_v38 (broadcastInDim S8x256x256x128 ![0, 1, 2, 3] bcast_S1x1x1x128_S8x256x256x128_0_1_2_3 : (⟨S1x1x1x128, .f32⟩ : BufTy).Contents (Elt F) → (⟨S8x256x256x128, .f32⟩ : BufTy).Contents (Elt F)),
    binary main_v36 main_v38 main_v39 (addf : (⟨S8x256x256x128, .f32⟩ : BufTy).Contents (Elt F) → (⟨S8x256x256x128, .f32⟩ : BufTy).Contents (Elt F) → (⟨S8x256x256x128, .f32⟩ : BufTy).Contents (Elt F)),
    nullary main_cst_6 (constant S_ .f32 0x00000000#32),
    binary main_v39 main_cst_6 main_v40 ((fun x v => Host.reduceAdd x v reducesTo_S8x256x256x128_S8x256x256_d3 h_S_) : (⟨S8x256x256x128, .f32⟩ : BufTy).Contents (Elt F) → (⟨S_, .f32⟩ : BufTy).Contents (Elt F) → (⟨S8x256x256, .f32⟩ : BufTy).Contents (Elt F)),
    unary main_v40 main_v41 (broadcastInDim S8x256x256x1 ![0, 1, 2] bcast_S8x256x256_S8x256x256x1_0_1_2 : (⟨S8x256x256, .f32⟩ : BufTy).Contents (Elt F) → (⟨S8x256x256x1, .f32⟩ : BufTy).Contents (Elt F)),
    nullary main_cst_7 (constant S_ .f32 0x43000000#32),
    unary main_cst_7 main_v42 (broadcastInDim S8x256x256x1 ![] bcast_S_S8x256x256x1 : (⟨S_, .f32⟩ : BufTy).Contents (Elt F) → (⟨S8x256x256x1, .f32⟩ : BufTy).Contents (Elt F)),
    binary main_v41 main_v42 main_v43 (Host.divf : (⟨S8x256x256x1, .f32⟩ : BufTy).Contents (Elt F) → (⟨S8x256x256x1, .f32⟩ : BufTy).Contents (Elt F) → (⟨S8x256x256x1, .f32⟩ : BufTy).Contents (Elt F)),
    unary main_v43 main_v44 (broadcastInDim S8x256x256x128 ![0, 1, 2, 3] bcast_S8x256x256x1_S8x256x256x128_0_1_2_3 : (⟨S8x256x256x1, .f32⟩ : BufTy).Contents (Elt F) → (⟨S8x256x256x128, .f32⟩ : BufTy).Contents (Elt F)),
    binary main_v39 main_v44 main_v45 (subf : (⟨S8x256x256x128, .f32⟩ : BufTy).Contents (Elt F) → (⟨S8x256x256x128, .f32⟩ : BufTy).Contents (Elt F) → (⟨S8x256x256x128, .f32⟩ : BufTy).Contents (Elt F)),
    binary main_v45 main_v45 main_v46 (mulf : (⟨S8x256x256x128, .f32⟩ : BufTy).Contents (Elt F) → (⟨S8x256x256x128, .f32⟩ : BufTy).Contents (Elt F) → (⟨S8x256x256x128, .f32⟩ : BufTy).Contents (Elt F)),
    nullary main_cst_8 (constant S_ .f32 0x00000000#32),
    binary main_v46 main_cst_8 main_v47 ((fun x v => Host.reduceAdd x v reducesTo_S8x256x256x128_S8x256x256_d3 h_S_) : (⟨S8x256x256x128, .f32⟩ : BufTy).Contents (Elt F) → (⟨S_, .f32⟩ : BufTy).Contents (Elt F) → (⟨S8x256x256, .f32⟩ : BufTy).Contents (Elt F)),
    unary main_v47 main_v48 (broadcastInDim S8x256x256x1 ![0, 1, 2] bcast_S8x256x256_S8x256x256x1_0_1_2 : (⟨S8x256x256, .f32⟩ : BufTy).Contents (Elt F) → (⟨S8x256x256x1, .f32⟩ : BufTy).Contents (Elt F)),
    nullary main_cst_9 (constant S_ .f32 0x43000000#32),
    unary main_cst_9 main_v49 (broadcastInDim S8x256x256x1 ![] bcast_S_S8x256x256x1 : (⟨S_, .f32⟩ : BufTy).Contents (Elt F) → (⟨S8x256x256x1, .f32⟩ : BufTy).Contents (Elt F)),
    binary main_v48 main_v49 main_v50 (Host.divf : (⟨S8x256x256x1, .f32⟩ : BufTy).Contents (Elt F) → (⟨S8x256x256x1, .f32⟩ : BufTy).Contents (Elt F) → (⟨S8x256x256x1, .f32⟩ : BufTy).Contents (Elt F)),
    unary main_v43 main_v51 (broadcastInDim S8x256x256x128 ![0, 1, 2, 3] bcast_S8x256x256x1_S8x256x256x128_0_1_2_3 : (⟨S8x256x256x1, .f32⟩ : BufTy).Contents (Elt F) → (⟨S8x256x256x128, .f32⟩ : BufTy).Contents (Elt F)),
    binary main_v39 main_v51 main_v52 (subf : (⟨S8x256x256x128, .f32⟩ : BufTy).Contents (Elt F) → (⟨S8x256x256x128, .f32⟩ : BufTy).Contents (Elt F) → (⟨S8x256x256x128, .f32⟩ : BufTy).Contents (Elt F)),
    nullary main_cst_10 (constant S_ .f32 0x3727C5AC#32),
    unary main_cst_10 main_v53 (broadcastInDim S8x256x256x1 ![] bcast_S_S8x256x256x1 : (⟨S_, .f32⟩ : BufTy).Contents (Elt F) → (⟨S8x256x256x1, .f32⟩ : BufTy).Contents (Elt F)),
    binary main_v50 main_v53 main_v54 (addf : (⟨S8x256x256x1, .f32⟩ : BufTy).Contents (Elt F) → (⟨S8x256x256x1, .f32⟩ : BufTy).Contents (Elt F) → (⟨S8x256x256x1, .f32⟩ : BufTy).Contents (Elt F)),
    unary main_v54 main_v55 (Host.rsqrt : (⟨S8x256x256x1, .f32⟩ : BufTy).Contents (Elt F) → (⟨S8x256x256x1, .f32⟩ : BufTy).Contents (Elt F)),
    unary main_v55 main_v56 (broadcastInDim S8x256x256x128 ![0, 1, 2, 3] bcast_S8x256x256x1_S8x256x256x128_0_1_2_3 : (⟨S8x256x256x1, .f32⟩ : BufTy).Contents (Elt F) → (⟨S8x256x256x128, .f32⟩ : BufTy).Contents (Elt F)),
    binary main_v52 main_v56 main_v57 (mulf : (⟨S8x256x256x128, .f32⟩ : BufTy).Contents (Elt F) → (⟨S8x256x256x128, .f32⟩ : BufTy).Contents (Elt F) → (⟨S8x256x256x128, .f32⟩ : BufTy).Contents (Elt F)),
    unary main_arg7 main_v58 (broadcastInDim S1x1x1x128 ![3] bcast_S128_S1x1x1x128_3 : (⟨S128, .f32⟩ : BufTy).Contents (Elt F) → (⟨S1x1x1x128, .f32⟩ : BufTy).Contents (Elt F)),
    unary main_v58 main_v59 (broadcastInDim S8x256x256x128 ![0, 1, 2, 3] bcast_S1x1x1x128_S8x256x256x128_0_1_2_3 : (⟨S1x1x1x128, .f32⟩ : BufTy).Contents (Elt F) → (⟨S8x256x256x128, .f32⟩ : BufTy).Contents (Elt F)),
    binary main_v57 main_v59 main_v60 (mulf : (⟨S8x256x256x128, .f32⟩ : BufTy).Contents (Elt F) → (⟨S8x256x256x128, .f32⟩ : BufTy).Contents (Elt F) → (⟨S8x256x256x128, .f32⟩ : BufTy).Contents (Elt F)),
    unary main_arg8 main_v61 (broadcastInDim S1x1x1x128 ![3] bcast_S128_S1x1x1x128_3 : (⟨S128, .f32⟩ : BufTy).Contents (Elt F) → (⟨S1x1x1x128, .f32⟩ : BufTy).Contents (Elt F)),
    unary main_v61 main_v62 (broadcastInDim S8x256x256x128 ![0, 1, 2, 3] bcast_S1x1x1x128_S8x256x256x128_0_1_2_3 : (⟨S1x1x1x128, .f32⟩ : BufTy).Contents (Elt F) → (⟨S8x256x256x128, .f32⟩ : BufTy).Contents (Elt F)),
    binary main_v60 main_v62 main_v63 (addf : (⟨S8x256x256x128, .f32⟩ : BufTy).Contents (Elt F) → (⟨S8x256x256x128, .f32⟩ : BufTy).Contents (Elt F) → (⟨S8x256x256x128, .f32⟩ : BufTy).Contents (Elt F)),
    unary main_v63 main_v64 (Host.negf : (⟨S8x256x256x128, .f32⟩ : BufTy).Contents (Elt F) → (⟨S8x256x256x128, .f32⟩ : BufTy).Contents (Elt F)),
    unary main_v64 main_v65 (Host.exp : (⟨S8x256x256x128, .f32⟩ : BufTy).Contents (Elt F) → (⟨S8x256x256x128, .f32⟩ : BufTy).Contents (Elt F)),
    nullary main_cst_11 (constant S_ .f32 0x3F800000#32),
    unary main_cst_11 main_v66 (broadcastInDim S8x256x256x128 ![] bcast_S_S8x256x256x128 : (⟨S_, .f32⟩ : BufTy).Contents (Elt F) → (⟨S8x256x256x128, .f32⟩ : BufTy).Contents (Elt F)),
    binary main_v66 main_v65 main_v67 (addf : (⟨S8x256x256x128, .f32⟩ : BufTy).Contents (Elt F) → (⟨S8x256x256x128, .f32⟩ : BufTy).Contents (Elt F) → (⟨S8x256x256x128, .f32⟩ : BufTy).Contents (Elt F)),
    nullary main_cst_12 (constant S_ .f32 0x3F800000#32),
    unary main_cst_12 main_v68 (broadcastInDim S8x256x256x128 ![] bcast_S_S8x256x256x128 : (⟨S_, .f32⟩ : BufTy).Contents (Elt F) → (⟨S8x256x256x128, .f32⟩ : BufTy).Contents (Elt F)),
    binary main_v68 main_v67 main_v69 (Host.divf : (⟨S8x256x256x128, .f32⟩ : BufTy).Contents (Elt F) → (⟨S8x256x256x128, .f32⟩ : BufTy).Contents (Elt F) → (⟨S8x256x256x128, .f32⟩ : BufTy).Contents (Elt F)),
    binary main_v63 main_v69 main_v70 (mulf : (⟨S8x256x256x128, .f32⟩ : BufTy).Contents (Elt F) → (⟨S8x256x256x128, .f32⟩ : BufTy).Contents (Elt F) → (⟨S8x256x256x128, .f32⟩ : BufTy).Contents (Elt F)),
    binary main_v70 main_arg9 main_v71 ((fun l r => Host.dotGeneral dot_S8x256x256x128_S8x128_S8x256x256x8_3_1_012_0_n_n none l r) : (⟨S8x256x256x128, .f32⟩ : BufTy).Contents (Elt F) → (⟨S8x128, .f32⟩ : BufTy).Contents (Elt F) → (⟨S8x256x256x8, .f32⟩ : BufTy).Contents (Elt F)),
    unary main_arg10 main_v72 (broadcastInDim S1x1x1x8 ![3] bcast_S8_S1x1x1x8_3 : (⟨S8, .f32⟩ : BufTy).Contents (Elt F) → (⟨S1x1x1x8, .f32⟩ : BufTy).Contents (Elt F)),
    unary main_v72 main_v73 (broadcastInDim S8x256x256x8 ![0, 1, 2, 3] bcast_S1x1x1x8_S8x256x256x8_0_1_2_3 : (⟨S1x1x1x8, .f32⟩ : BufTy).Contents (Elt F) → (⟨S8x256x256x8, .f32⟩ : BufTy).Contents (Elt F)),
    binary main_v71 main_v73 main_v74 (addf : (⟨S8x256x256x8, .f32⟩ : BufTy).Contents (Elt F) → (⟨S8x256x256x8, .f32⟩ : BufTy).Contents (Elt F) → (⟨S8x256x256x8, .f32⟩ : BufTy).Contents (Elt F)),
    binary main_v70 main_arg11 main_v75 ((fun l r => Host.dotGeneral dot_S8x256x256x128_S8x128_S8x256x256x8_3_1_012_0_n_n none l r) : (⟨S8x256x256x128, .f32⟩ : BufTy).Contents (Elt F) → (⟨S8x128, .f32⟩ : BufTy).Contents (Elt F) → (⟨S8x256x256x8, .f32⟩ : BufTy).Contents (Elt F)),
    unary main_arg12 main_v76 (broadcastInDim S1x1x1x8 ![3] bcast_S8_S1x1x1x8_3 : (⟨S8, .f32⟩ : BufTy).Contents (Elt F) → (⟨S1x1x1x8, .f32⟩ : BufTy).Contents (Elt F)),
    unary main_v76 main_v77 (broadcastInDim S8x256x256x8 ![0, 1, 2, 3] bcast_S1x1x1x8_S8x256x256x8_0_1_2_3 : (⟨S1x1x1x8, .f32⟩ : BufTy).Contents (Elt F) → (⟨S8x256x256x8, .f32⟩ : BufTy).Contents (Elt F)),
    binary main_v75 main_v77 main_v78 (addf : (⟨S8x256x256x8, .f32⟩ : BufTy).Contents (Elt F) → (⟨S8x256x256x8, .f32⟩ : BufTy).Contents (Elt F) → (⟨S8x256x256x8, .f32⟩ : BufTy).Contents (Elt F)),
    unary main_v74 main_v79 ((transpose S8x8x256x256 [0, 3, 2, 1] · transposes_S8x256x256x8_S8x8x256x256_0_3_2_1) : (⟨S8x256x256x8, .f32⟩ : BufTy).Contents (Elt F) → (⟨S8x8x256x256, .f32⟩ : BufTy).Contents (Elt F)),
    unary main_v78 main_v80 ((transpose S8x8x256x256 [0, 3, 2, 1] · transposes_S8x256x256x8_S8x8x256x256_0_3_2_1) : (⟨S8x256x256x8, .f32⟩ : BufTy).Contents (Elt F) → (⟨S8x8x256x256, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S8x8x256x256, .f32⟩) main_call0_v0) (broadcastInDim S8x8x256x256 ![] bcast_S_S8x8x256x256),
    TRef.binary (TRef.of (T := ⟨S8x8x256x256, .f32⟩) main_v80) (TRef.of (T := ⟨S8x8x256x256, .f32⟩) main_call0_v0) (TRef.of (T := ⟨S8x8x256x256, .f32⟩) main_call0_v1) maximumf,
    TRef.unary (TRef.of (T := ⟨S_, .f32⟩) main_call0_cst) (TRef.of (T := ⟨S8x8x256x256, .f32⟩) main_call0_v2) (broadcastInDim S8x8x256x256 ![] bcast_S_S8x8x256x256),
    TRef.binary (TRef.of (T := ⟨S8x8x256x256, .f32⟩) main_v80) (TRef.of (T := ⟨S8x8x256x256, .f32⟩) main_call0_v2) (TRef.of (T := ⟨S8x8x256x256, .f32⟩) main_call0_v3) subf,
    TRef.binary (TRef.of (T := ⟨S8x8x256x256, .f32⟩) main_call0_v3) (TRef.of (T := ⟨S8x8x256x256, .f32⟩) main_call0_v3) (TRef.of (T := ⟨S8x8x256x256, .i1⟩) main_call0_v4) (cmpf .une),
    TRef.unary (TRef.of (T := ⟨S_, .f32⟩) main_call0_cst) (TRef.of (T := ⟨S8x8x256x256, .f32⟩) main_call0_v5) (broadcastInDim S8x8x256x256 ![] bcast_S_S8x8x256x256),
    TRef.binary (TRef.of (T := ⟨S8x8x256x256, .f32⟩) main_v80) (TRef.of (T := ⟨S8x8x256x256, .f32⟩) main_call0_v5) (TRef.of (T := ⟨S8x8x256x256, .f32⟩) main_call0_v6) addf,
    TRef.unary (TRef.of (T := ⟨S8x8x256x256, .f32⟩) main_call0_v3) (TRef.of (T := ⟨S8x8x256x256, .f32⟩) main_call0_v7) Host.absf,
    TRef.unary (TRef.of (T := ⟨S8x8x256x256, .f32⟩) main_call0_v7) (TRef.of (T := ⟨S8x8x256x256, .f32⟩) main_call0_v8) Host.negf,
    TRef.unary (TRef.of (T := ⟨S8x8x256x256, .f32⟩) main_call0_v8) (TRef.of (T := ⟨S8x8x256x256, .f32⟩) main_call0_v9) Host.exp,
    TRef.unary (TRef.of (T := ⟨S8x8x256x256, .f32⟩) main_call0_v9) (TRef.of (T := ⟨S8x8x256x256, .f32⟩) main_call0_v10) Host.log1p,
    TRef.binary (TRef.of (T := ⟨S8x8x256x256, .f32⟩) main_call0_v1) (TRef.of (T := ⟨S8x8x256x256, .f32⟩) main_call0_v10) (TRef.of (T := ⟨S8x8x256x256, .f32⟩) main_call0_v11) addf,
    TRef.ternary (TRef.of (T := ⟨S8x8x256x256, .i1⟩) main_call0_v4) (TRef.of (T := ⟨S8x8x256x256, .f32⟩) main_call0_v6) (TRef.of (T := ⟨S8x8x256x256, .f32⟩) main_call0_v11) (TRef.of (T := ⟨S8x8x256x256, .f32⟩) main_v81) select,
    nullary main_cst_13 (constant S_ .f32 0x3F666666#32),
    unary main_cst_13 main_v82 (broadcastInDim S8x8x256x256 ![] bcast_S_S8x8x256x256 : (⟨S_, .f32⟩ : BufTy).Contents (Elt F) → (⟨S8x8x256x256, .f32⟩ : BufTy).Contents (Elt F)),
    binary main_v82 main_v81 main_v83 (mulf : (⟨S8x8x256x256, .f32⟩ : BufTy).Contents (Elt F) → (⟨S8x8x256x256, .f32⟩ : BufTy).Contents (Elt F) → (⟨S8x8x256x256, .f32⟩ : BufTy).Contents (Elt F)),
    nullary main_cst_14 (constant S_ .f32 0x3DCCCCCD#32),
    unary main_cst_14 main_v84 (broadcastInDim S8x8x256x256 ![] bcast_S_S8x8x256x256 : (⟨S_, .f32⟩ : BufTy).Contents (Elt F) → (⟨S8x8x256x256, .f32⟩ : BufTy).Contents (Elt F)),
    binary main_v84 main_v83 main_v85 (addf : (⟨S8x8x256x256, .f32⟩ : BufTy).Contents (Elt F) → (⟨S8x8x256x256, .f32⟩ : BufTy).Contents (Elt F) → (⟨S8x8x256x256, .f32⟩ : BufTy).Contents (Elt F)) ]

set_option maxRecDepth 8192 in
set_option maxHeartbeats 4000000 in
/-- The printed program is the sequence of these operations. -/
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
/-- Every operation touches TensorCore buffers only. -/
theorem ops_sub : (ops : List (HloOp τ sig (Elt F))).Forall fun op => op.bufs ⊆ tcRefs τ sig :=
  ⟨unary_bufs_sub .., binary_bufs_sub .., unary_bufs_sub .., unary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., unary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., unary_bufs_sub .., binary_bufs_sub .., binary_bufs_sub .., unary_bufs_sub .., unary_bufs_sub .., binary_bufs_sub .., unary_bufs_sub .., unary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., nullary_bufs_sub .., unary_bufs_sub .., binary_bufs_sub .., nullary_bufs_sub .., unary_bufs_sub .., binary_bufs_sub ..⟩

/-- The buffers the operations write, in order: each once. -/
def ys : List (Ref sig .tc) :=
  [main_v0, main_v1, main_v2, main_v3, main_v4, main_cst, main_v5, main_v6, main_cst_0, main_v7, main_v8, main_v9, main_v10, main_v11, main_cst_1, main_v12, main_v13, main_cst_2, main_v14, main_v15, main_v16, main_v17, main_cst_3, main_v18, main_v19, main_v20, main_v21, main_v22, main_v23, main_v24, main_v25, main_v26, main_v27, main_v28, main_v29, main_v30, main_cst_4, main_v31, main_v32, main_cst_5, main_v33, main_v34, main_v35, main_v36, main_v37, main_v38, main_v39, main_cst_6, main_v40, main_v41, main_cst_7, main_v42, main_v43, main_v44, main_v45, main_v46, main_cst_8, main_v47, main_v48, main_cst_9, main_v49, main_v50, main_v51, main_v52, main_cst_10, main_v53, main_v54, main_v55, main_v56, main_v57, main_v58, main_v59, main_v60, main_v61, main_v62, main_v63, main_v64, main_v65, main_cst_11, main_v66, main_v67, main_cst_12, main_v68, main_v69, main_v70, main_v71, main_v72, main_v73, main_v74, main_v75, main_v76, main_v77, main_v78, main_v79, main_v80, main_call0_cst, main_call0_v0, main_call0_v1, main_call0_v2, main_call0_v3, main_call0_v4, main_call0_v5, main_call0_v6, main_call0_v7, main_call0_v8, main_call0_v9, main_call0_v10, main_call0_v11, main_v81, main_cst_13, main_v82, main_v83, main_cst_14, main_v84, main_v85]

set_option maxRecDepth 8192 in
/-- Operation k writes the k-th of these buffers and nothing else. -/
theorem writes : Writes (ops : List (HloOp τ sig (Elt F))) ys := by
  unfold Writes; rfl

variable (m : (ℓ : Loc nD τ sig) → Buf (Elt F) ℓ)

/-! ## The arguments are never written -/
theorem at_main_arg0 (c : Dev nD) : after (ops : List (HloOp τ sig (Elt F))) (launchContents m c) (Proc.devRef .tc main_arg0) = m ((c.tc : Thread nD τ).loc main_arg0) :=
  after_never writes (launchContents m c) main_arg0 (by decide)
theorem at_main_arg1 (c : Dev nD) : after (ops : List (HloOp τ sig (Elt F))) (launchContents m c) (Proc.devRef .tc main_arg1) = m ((c.tc : Thread nD τ).loc main_arg1) :=
  after_never writes (launchContents m c) main_arg1 (by decide)
theorem at_main_arg2 (c : Dev nD) : after (ops : List (HloOp τ sig (Elt F))) (launchContents m c) (Proc.devRef .tc main_arg2) = m ((c.tc : Thread nD τ).loc main_arg2) :=
  after_never writes (launchContents m c) main_arg2 (by decide)
theorem at_main_arg3 (c : Dev nD) : after (ops : List (HloOp τ sig (Elt F))) (launchContents m c) (Proc.devRef .tc main_arg3) = m ((c.tc : Thread nD τ).loc main_arg3) :=
  after_never writes (launchContents m c) main_arg3 (by decide)
theorem at_main_arg4 (c : Dev nD) : after (ops : List (HloOp τ sig (Elt F))) (launchContents m c) (Proc.devRef .tc main_arg4) = m ((c.tc : Thread nD τ).loc main_arg4) :=
  after_never writes (launchContents m c) main_arg4 (by decide)
theorem at_main_arg5 (c : Dev nD) : after (ops : List (HloOp τ sig (Elt F))) (launchContents m c) (Proc.devRef .tc main_arg5) = m ((c.tc : Thread nD τ).loc main_arg5) :=
  after_never writes (launchContents m c) main_arg5 (by decide)
theorem at_main_arg6 (c : Dev nD) : after (ops : List (HloOp τ sig (Elt F))) (launchContents m c) (Proc.devRef .tc main_arg6) = m ((c.tc : Thread nD τ).loc main_arg6) :=
  after_never writes (launchContents m c) main_arg6 (by decide)
theorem at_main_arg7 (c : Dev nD) : after (ops : List (HloOp τ sig (Elt F))) (launchContents m c) (Proc.devRef .tc main_arg7) = m ((c.tc : Thread nD τ).loc main_arg7) :=
  after_never writes (launchContents m c) main_arg7 (by decide)
theorem at_main_arg8 (c : Dev nD) : after (ops : List (HloOp τ sig (Elt F))) (launchContents m c) (Proc.devRef .tc main_arg8) = m ((c.tc : Thread nD τ).loc main_arg8) :=
  after_never writes (launchContents m c) main_arg8 (by decide)
theorem at_main_arg9 (c : Dev nD) : after (ops : List (HloOp τ sig (Elt F))) (launchContents m c) (Proc.devRef .tc main_arg9) = m ((c.tc : Thread nD τ).loc main_arg9) :=
  after_never writes (launchContents m c) main_arg9 (by decide)
theorem at_main_arg10 (c : Dev nD) : after (ops : List (HloOp τ sig (Elt F))) (launchContents m c) (Proc.devRef .tc main_arg10) = m ((c.tc : Thread nD τ).loc main_arg10) :=
  after_never writes (launchContents m c) main_arg10 (by decide)
theorem at_main_arg11 (c : Dev nD) : after (ops : List (HloOp τ sig (Elt F))) (launchContents m c) (Proc.devRef .tc main_arg11) = m ((c.tc : Thread nD τ).loc main_arg11) :=
  after_never writes (launchContents m c) main_arg11 (by decide)
theorem at_main_arg12 (c : Dev nD) : after (ops : List (HloOp τ sig (Elt F))) (launchContents m c) (Proc.devRef .tc main_arg12) = m ((c.tc : Thread nD τ).loc main_arg12) :=
  after_never writes (launchContents m c) main_arg12 (by decide)

/-! ## One equation per operation, and its stage as a function of the arguments -/
theorem at_main_v0 (c : Dev nD) : after (ops : List (HloOp τ sig (Elt F))) (launchContents m c) (Proc.devRef .tc main_v0) = val_main_v0 (F := F) (m ((c.tc : Thread nD τ).loc main_arg0)) := by
  rw [unary_at writes (launchContents m c) 0 main_arg0 main_v0 rfl (by decide) (by decide), at_main_arg0 m c]; rfl
theorem at_main_v1 (c : Dev nD) : after (ops : List (HloOp τ sig (Elt F))) (launchContents m c) (Proc.devRef .tc main_v1) = val_main_v1 (F := F) (m ((c.tc : Thread nD τ).loc main_arg0)) (m ((c.tc : Thread nD τ).loc main_arg1)) := by
  rw [binary_at writes (launchContents m c) 1 main_v0 main_arg1 main_v1 rfl (by decide) (by decide) (by decide), at_main_v0 m c, at_main_arg1 m c]; rfl
theorem at_main_v2 (c : Dev nD) : after (ops : List (HloOp τ sig (Elt F))) (launchContents m c) (Proc.devRef .tc main_v2) = val_main_v2 (F := F) (m ((c.tc : Thread nD τ).loc main_arg2)) := by
  rw [unary_at writes (launchContents m c) 2 main_arg2 main_v2 rfl (by decide) (by decide), at_main_arg2 m c]; rfl
theorem at_main_v3 (c : Dev nD) : after (ops : List (HloOp τ sig (Elt F))) (launchContents m c) (Proc.devRef .tc main_v3) = val_main_v3 (F := F) (m ((c.tc : Thread nD τ).loc main_arg2)) := by
  rw [unary_at writes (launchContents m c) 3 main_v2 main_v3 rfl (by decide) (by decide), at_main_v2 m c]; rfl
theorem at_main_v4 (c : Dev nD) : after (ops : List (HloOp τ sig (Elt F))) (launchContents m c) (Proc.devRef .tc main_v4) = val_main_v4 (F := F) (m ((c.tc : Thread nD τ).loc main_arg0)) (m ((c.tc : Thread nD τ).loc main_arg1)) (m ((c.tc : Thread nD τ).loc main_arg2)) := by
  rw [binary_at writes (launchContents m c) 4 main_v1 main_v3 main_v4 rfl (by decide) (by decide) (by decide), at_main_v1 m c, at_main_v3 m c]; rfl
theorem at_main_cst (c : Dev nD) : after (ops : List (HloOp τ sig (Elt F))) (launchContents m c) (Proc.devRef .tc main_cst) = val_main_cst (F := F) := by
  rw [nullary_at writes (launchContents m c) 5 main_cst rfl (by decide)]; rfl
theorem at_main_v5 (c : Dev nD) : after (ops : List (HloOp τ sig (Elt F))) (launchContents m c) (Proc.devRef .tc main_v5) = val_main_v5 (F := F) (m ((c.tc : Thread nD τ).loc main_arg0)) (m ((c.tc : Thread nD τ).loc main_arg1)) (m ((c.tc : Thread nD τ).loc main_arg2)) := by
  rw [binary_at writes (launchContents m c) 6 main_v4 main_cst main_v5 rfl (by decide) (by decide) (by decide), at_main_v4 m c, at_main_cst m c]; rfl
theorem at_main_v6 (c : Dev nD) : after (ops : List (HloOp τ sig (Elt F))) (launchContents m c) (Proc.devRef .tc main_v6) = val_main_v6 (F := F) (m ((c.tc : Thread nD τ).loc main_arg0)) (m ((c.tc : Thread nD τ).loc main_arg1)) (m ((c.tc : Thread nD τ).loc main_arg2)) := by
  rw [unary_at writes (launchContents m c) 7 main_v5 main_v6 rfl (by decide) (by decide), at_main_v5 m c]; rfl
theorem at_main_cst_0 (c : Dev nD) : after (ops : List (HloOp τ sig (Elt F))) (launchContents m c) (Proc.devRef .tc main_cst_0) = val_main_cst_0 (F := F) := by
  rw [nullary_at writes (launchContents m c) 8 main_cst_0 rfl (by decide)]; rfl
theorem at_main_v7 (c : Dev nD) : after (ops : List (HloOp τ sig (Elt F))) (launchContents m c) (Proc.devRef .tc main_v7) = val_main_v7 (F := F) := by
  rw [unary_at writes (launchContents m c) 9 main_cst_0 main_v7 rfl (by decide) (by decide), at_main_cst_0 m c]; rfl
theorem at_main_v8 (c : Dev nD) : after (ops : List (HloOp τ sig (Elt F))) (launchContents m c) (Proc.devRef .tc main_v8) = val_main_v8 (F := F) (m ((c.tc : Thread nD τ).loc main_arg0)) (m ((c.tc : Thread nD τ).loc main_arg1)) (m ((c.tc : Thread nD τ).loc main_arg2)) := by
  rw [binary_at writes (launchContents m c) 10 main_v6 main_v7 main_v8 rfl (by decide) (by decide) (by decide), at_main_v6 m c, at_main_v7 m c]; rfl
theorem at_main_v9 (c : Dev nD) : after (ops : List (HloOp τ sig (Elt F))) (launchContents m c) (Proc.devRef .tc main_v9) = val_main_v9 (F := F) (m ((c.tc : Thread nD τ).loc main_arg0)) (m ((c.tc : Thread nD τ).loc main_arg1)) (m ((c.tc : Thread nD τ).loc main_arg2)) := by
  rw [unary_at writes (launchContents m c) 11 main_v8 main_v9 rfl (by decide) (by decide), at_main_v8 m c]; rfl
theorem at_main_v10 (c : Dev nD) : after (ops : List (HloOp τ sig (Elt F))) (launchContents m c) (Proc.devRef .tc main_v10) = val_main_v10 (F := F) (m ((c.tc : Thread nD τ).loc main_arg0)) (m ((c.tc : Thread nD τ).loc main_arg1)) (m ((c.tc : Thread nD τ).loc main_arg2)) := by
  rw [binary_at writes (launchContents m c) 12 main_v4 main_v9 main_v10 rfl (by decide) (by decide) (by decide), at_main_v4 m c, at_main_v9 m c]; rfl
theorem at_main_v11 (c : Dev nD) : after (ops : List (HloOp τ sig (Elt F))) (launchContents m c) (Proc.devRef .tc main_v11) = val_main_v11 (F := F) (m ((c.tc : Thread nD τ).loc main_arg0)) (m ((c.tc : Thread nD τ).loc main_arg1)) (m ((c.tc : Thread nD τ).loc main_arg2)) := by
  rw [binary_at writes (launchContents m c) 13 main_v10 main_v10 main_v11 rfl (by decide) (by decide) (by decide), at_main_v10 m c]; rfl
theorem at_main_cst_1 (c : Dev nD) : after (ops : List (HloOp τ sig (Elt F))) (launchContents m c) (Proc.devRef .tc main_cst_1) = val_main_cst_1 (F := F) := by
  rw [nullary_at writes (launchContents m c) 14 main_cst_1 rfl (by decide)]; rfl
theorem at_main_v12 (c : Dev nD) : after (ops : List (HloOp τ sig (Elt F))) (launchContents m c) (Proc.devRef .tc main_v12) = val_main_v12 (F := F) (m ((c.tc : Thread nD τ).loc main_arg0)) (m ((c.tc : Thread nD τ).loc main_arg1)) (m ((c.tc : Thread nD τ).loc main_arg2)) := by
  rw [binary_at writes (launchContents m c) 15 main_v11 main_cst_1 main_v12 rfl (by decide) (by decide) (by decide), at_main_v11 m c, at_main_cst_1 m c]; rfl
theorem at_main_v13 (c : Dev nD) : after (ops : List (HloOp τ sig (Elt F))) (launchContents m c) (Proc.devRef .tc main_v13) = val_main_v13 (F := F) (m ((c.tc : Thread nD τ).loc main_arg0)) (m ((c.tc : Thread nD τ).loc main_arg1)) (m ((c.tc : Thread nD τ).loc main_arg2)) := by
  rw [unary_at writes (launchContents m c) 16 main_v12 main_v13 rfl (by decide) (by decide), at_main_v12 m c]; rfl
theorem at_main_cst_2 (c : Dev nD) : after (ops : List (HloOp τ sig (Elt F))) (launchContents m c) (Proc.devRef .tc main_cst_2) = val_main_cst_2 (F := F) := by
  rw [nullary_at writes (launchContents m c) 17 main_cst_2 rfl (by decide)]; rfl
theorem at_main_v14 (c : Dev nD) : after (ops : List (HloOp τ sig (Elt F))) (launchContents m c) (Proc.devRef .tc main_v14) = val_main_v14 (F := F) := by
  rw [unary_at writes (launchContents m c) 18 main_cst_2 main_v14 rfl (by decide) (by decide), at_main_cst_2 m c]; rfl
theorem at_main_v15 (c : Dev nD) : after (ops : List (HloOp τ sig (Elt F))) (launchContents m c) (Proc.devRef .tc main_v15) = val_main_v15 (F := F) (m ((c.tc : Thread nD τ).loc main_arg0)) (m ((c.tc : Thread nD τ).loc main_arg1)) (m ((c.tc : Thread nD τ).loc main_arg2)) := by
  rw [binary_at writes (launchContents m c) 19 main_v13 main_v14 main_v15 rfl (by decide) (by decide) (by decide), at_main_v13 m c, at_main_v14 m c]; rfl
theorem at_main_v16 (c : Dev nD) : after (ops : List (HloOp τ sig (Elt F))) (launchContents m c) (Proc.devRef .tc main_v16) = val_main_v16 (F := F) (m ((c.tc : Thread nD τ).loc main_arg0)) (m ((c.tc : Thread nD τ).loc main_arg1)) (m ((c.tc : Thread nD τ).loc main_arg2)) := by
  rw [unary_at writes (launchContents m c) 20 main_v8 main_v16 rfl (by decide) (by decide), at_main_v8 m c]; rfl
theorem at_main_v17 (c : Dev nD) : after (ops : List (HloOp τ sig (Elt F))) (launchContents m c) (Proc.devRef .tc main_v17) = val_main_v17 (F := F) (m ((c.tc : Thread nD τ).loc main_arg0)) (m ((c.tc : Thread nD τ).loc main_arg1)) (m ((c.tc : Thread nD τ).loc main_arg2)) := by
  rw [binary_at writes (launchContents m c) 21 main_v4 main_v16 main_v17 rfl (by decide) (by decide) (by decide), at_main_v4 m c, at_main_v16 m c]; rfl
theorem at_main_cst_3 (c : Dev nD) : after (ops : List (HloOp τ sig (Elt F))) (launchContents m c) (Proc.devRef .tc main_cst_3) = val_main_cst_3 (F := F) := by
  rw [nullary_at writes (launchContents m c) 22 main_cst_3 rfl (by decide)]; rfl
theorem at_main_v18 (c : Dev nD) : after (ops : List (HloOp τ sig (Elt F))) (launchContents m c) (Proc.devRef .tc main_v18) = val_main_v18 (F := F) := by
  rw [unary_at writes (launchContents m c) 23 main_cst_3 main_v18 rfl (by decide) (by decide), at_main_cst_3 m c]; rfl
theorem at_main_v19 (c : Dev nD) : after (ops : List (HloOp τ sig (Elt F))) (launchContents m c) (Proc.devRef .tc main_v19) = val_main_v19 (F := F) (m ((c.tc : Thread nD τ).loc main_arg0)) (m ((c.tc : Thread nD τ).loc main_arg1)) (m ((c.tc : Thread nD τ).loc main_arg2)) := by
  rw [binary_at writes (launchContents m c) 24 main_v15 main_v18 main_v19 rfl (by decide) (by decide) (by decide), at_main_v15 m c, at_main_v18 m c]; rfl
theorem at_main_v20 (c : Dev nD) : after (ops : List (HloOp τ sig (Elt F))) (launchContents m c) (Proc.devRef .tc main_v20) = val_main_v20 (F := F) (m ((c.tc : Thread nD τ).loc main_arg0)) (m ((c.tc : Thread nD τ).loc main_arg1)) (m ((c.tc : Thread nD τ).loc main_arg2)) := by
  rw [unary_at writes (launchContents m c) 25 main_v19 main_v20 rfl (by decide) (by decide), at_main_v19 m c]; rfl
theorem at_main_v21 (c : Dev nD) : after (ops : List (HloOp τ sig (Elt F))) (launchContents m c) (Proc.devRef .tc main_v21) = val_main_v21 (F := F) (m ((c.tc : Thread nD τ).loc main_arg0)) (m ((c.tc : Thread nD τ).loc main_arg1)) (m ((c.tc : Thread nD τ).loc main_arg2)) := by
  rw [unary_at writes (launchContents m c) 26 main_v20 main_v21 rfl (by decide) (by decide), at_main_v20 m c]; rfl
theorem at_main_v22 (c : Dev nD) : after (ops : List (HloOp τ sig (Elt F))) (launchContents m c) (Proc.devRef .tc main_v22) = val_main_v22 (F := F) (m ((c.tc : Thread nD τ).loc main_arg0)) (m ((c.tc : Thread nD τ).loc main_arg1)) (m ((c.tc : Thread nD τ).loc main_arg2)) := by
  rw [binary_at writes (launchContents m c) 27 main_v17 main_v21 main_v22 rfl (by decide) (by decide) (by decide), at_main_v17 m c, at_main_v21 m c]; rfl
theorem at_main_v23 (c : Dev nD) : after (ops : List (HloOp τ sig (Elt F))) (launchContents m c) (Proc.devRef .tc main_v23) = val_main_v23 (F := F) (m ((c.tc : Thread nD τ).loc main_arg3)) := by
  rw [unary_at writes (launchContents m c) 28 main_arg3 main_v23 rfl (by decide) (by decide), at_main_arg3 m c]; rfl
theorem at_main_v24 (c : Dev nD) : after (ops : List (HloOp τ sig (Elt F))) (launchContents m c) (Proc.devRef .tc main_v24) = val_main_v24 (F := F) (m ((c.tc : Thread nD τ).loc main_arg3)) := by
  rw [unary_at writes (launchContents m c) 29 main_v23 main_v24 rfl (by decide) (by decide), at_main_v23 m c]; rfl
theorem at_main_v25 (c : Dev nD) : after (ops : List (HloOp τ sig (Elt F))) (launchContents m c) (Proc.devRef .tc main_v25) = val_main_v25 (F := F) (m ((c.tc : Thread nD τ).loc main_arg0)) (m ((c.tc : Thread nD τ).loc main_arg1)) (m ((c.tc : Thread nD τ).loc main_arg2)) (m ((c.tc : Thread nD τ).loc main_arg3)) := by
  rw [binary_at writes (launchContents m c) 30 main_v22 main_v24 main_v25 rfl (by decide) (by decide) (by decide), at_main_v22 m c, at_main_v24 m c]; rfl
theorem at_main_v26 (c : Dev nD) : after (ops : List (HloOp τ sig (Elt F))) (launchContents m c) (Proc.devRef .tc main_v26) = val_main_v26 (F := F) (m ((c.tc : Thread nD τ).loc main_arg4)) := by
  rw [unary_at writes (launchContents m c) 31 main_arg4 main_v26 rfl (by decide) (by decide), at_main_arg4 m c]; rfl
theorem at_main_v27 (c : Dev nD) : after (ops : List (HloOp τ sig (Elt F))) (launchContents m c) (Proc.devRef .tc main_v27) = val_main_v27 (F := F) (m ((c.tc : Thread nD τ).loc main_arg4)) := by
  rw [unary_at writes (launchContents m c) 32 main_v26 main_v27 rfl (by decide) (by decide), at_main_v26 m c]; rfl
theorem at_main_v28 (c : Dev nD) : after (ops : List (HloOp τ sig (Elt F))) (launchContents m c) (Proc.devRef .tc main_v28) = val_main_v28 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  rw [binary_at writes (launchContents m c) 33 main_v25 main_v27 main_v28 rfl (by decide) (by decide) (by decide), at_main_v25 m c, at_main_v27 m c]; rfl
theorem at_main_v29 (c : Dev nD) : after (ops : List (HloOp τ sig (Elt F))) (launchContents m c) (Proc.devRef .tc main_v29) = val_main_v29 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  rw [unary_at writes (launchContents m c) 34 main_v28 main_v29 rfl (by decide) (by decide), at_main_v28 m c]; rfl
theorem at_main_v30 (c : Dev nD) : after (ops : List (HloOp τ sig (Elt F))) (launchContents m c) (Proc.devRef .tc main_v30) = val_main_v30 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  rw [unary_at writes (launchContents m c) 35 main_v29 main_v30 rfl (by decide) (by decide), at_main_v29 m c]; rfl
theorem at_main_cst_4 (c : Dev nD) : after (ops : List (HloOp τ sig (Elt F))) (launchContents m c) (Proc.devRef .tc main_cst_4) = val_main_cst_4 (F := F) := by
  rw [nullary_at writes (launchContents m c) 36 main_cst_4 rfl (by decide)]; rfl
theorem at_main_v31 (c : Dev nD) : after (ops : List (HloOp τ sig (Elt F))) (launchContents m c) (Proc.devRef .tc main_v31) = val_main_v31 (F := F) := by
  rw [unary_at writes (launchContents m c) 37 main_cst_4 main_v31 rfl (by decide) (by decide), at_main_cst_4 m c]; rfl
theorem at_main_v32 (c : Dev nD) : after (ops : List (HloOp τ sig (Elt F))) (launchContents m c) (Proc.devRef .tc main_v32) = val_main_v32 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  rw [binary_at writes (launchContents m c) 38 main_v31 main_v30 main_v32 rfl (by decide) (by decide) (by decide), at_main_v31 m c, at_main_v30 m c]; rfl
theorem at_main_cst_5 (c : Dev nD) : after (ops : List (HloOp τ sig (Elt F))) (launchContents m c) (Proc.devRef .tc main_cst_5) = val_main_cst_5 (F := F) := by
  rw [nullary_at writes (launchContents m c) 39 main_cst_5 rfl (by decide)]; rfl
theorem at_main_v33 (c : Dev nD) : after (ops : List (HloOp τ sig (Elt F))) (launchContents m c) (Proc.devRef .tc main_v33) = val_main_v33 (F := F) := by
  rw [unary_at writes (launchContents m c) 40 main_cst_5 main_v33 rfl (by decide) (by decide), at_main_cst_5 m c]; rfl
theorem at_main_v34 (c : Dev nD) : after (ops : List (HloOp τ sig (Elt F))) (launchContents m c) (Proc.devRef .tc main_v34) = val_main_v34 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  rw [binary_at writes (launchContents m c) 41 main_v33 main_v32 main_v34 rfl (by decide) (by decide) (by decide), at_main_v33 m c, at_main_v32 m c]; rfl
theorem at_main_v35 (c : Dev nD) : after (ops : List (HloOp τ sig (Elt F))) (launchContents m c) (Proc.devRef .tc main_v35) = val_main_v35 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  rw [binary_at writes (launchContents m c) 42 main_v28 main_v34 main_v35 rfl (by decide) (by decide) (by decide), at_main_v28 m c, at_main_v34 m c]; rfl
theorem at_main_v36 (c : Dev nD) : after (ops : List (HloOp τ sig (Elt F))) (launchContents m c) (Proc.devRef .tc main_v36) = val_main_v36 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  rw [binary_at writes (launchContents m c) 43 main_v35 main_arg5 main_v36 rfl (by decide) (by decide) (by decide), at_main_v35 m c, at_main_arg5 m c]; rfl
theorem at_main_v37 (c : Dev nD) : after (ops : List (HloOp τ sig (Elt F))) (launchContents m c) (Proc.devRef .tc main_v37) = val_main_v37 (F := F) (m ((c.tc : Thread nD τ).loc main_arg6)) := by
  rw [unary_at writes (launchContents m c) 44 main_arg6 main_v37 rfl (by decide) (by decide), at_main_arg6 m c]; rfl
theorem at_main_v38 (c : Dev nD) : after (ops : List (HloOp τ sig (Elt F))) (launchContents m c) (Proc.devRef .tc main_v38) = val_main_v38 (F := F) (m ((c.tc : Thread nD τ).loc main_arg6)) := by
  rw [unary_at writes (launchContents m c) 45 main_v37 main_v38 rfl (by decide) (by decide), at_main_v37 m c]; rfl
theorem at_main_v39 (c : Dev nD) : after (ops : List (HloOp τ sig (Elt F))) (launchContents m c) (Proc.devRef .tc main_v39) = val_main_v39 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  rw [binary_at writes (launchContents m c) 46 main_v36 main_v38 main_v39 rfl (by decide) (by decide) (by decide), at_main_v36 m c, at_main_v38 m c]; rfl
theorem at_main_cst_6 (c : Dev nD) : after (ops : List (HloOp τ sig (Elt F))) (launchContents m c) (Proc.devRef .tc main_cst_6) = val_main_cst_6 (F := F) := by
  rw [nullary_at writes (launchContents m c) 47 main_cst_6 rfl (by decide)]; rfl
theorem at_main_v40 (c : Dev nD) : after (ops : List (HloOp τ sig (Elt F))) (launchContents m c) (Proc.devRef .tc main_v40) = val_main_v40 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  rw [binary_at writes (launchContents m c) 48 main_v39 main_cst_6 main_v40 rfl (by decide) (by decide) (by decide), at_main_v39 m c, at_main_cst_6 m c]; rfl
theorem at_main_v41 (c : Dev nD) : after (ops : List (HloOp τ sig (Elt F))) (launchContents m c) (Proc.devRef .tc main_v41) = val_main_v41 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  rw [unary_at writes (launchContents m c) 49 main_v40 main_v41 rfl (by decide) (by decide), at_main_v40 m c]; rfl
theorem at_main_cst_7 (c : Dev nD) : after (ops : List (HloOp τ sig (Elt F))) (launchContents m c) (Proc.devRef .tc main_cst_7) = val_main_cst_7 (F := F) := by
  rw [nullary_at writes (launchContents m c) 50 main_cst_7 rfl (by decide)]; rfl
theorem at_main_v42 (c : Dev nD) : after (ops : List (HloOp τ sig (Elt F))) (launchContents m c) (Proc.devRef .tc main_v42) = val_main_v42 (F := F) := by
  rw [unary_at writes (launchContents m c) 51 main_cst_7 main_v42 rfl (by decide) (by decide), at_main_cst_7 m c]; rfl
theorem at_main_v43 (c : Dev nD) : after (ops : List (HloOp τ sig (Elt F))) (launchContents m c) (Proc.devRef .tc main_v43) = val_main_v43 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  rw [binary_at writes (launchContents m c) 52 main_v41 main_v42 main_v43 rfl (by decide) (by decide) (by decide), at_main_v41 m c, at_main_v42 m c]; rfl
theorem at_main_v44 (c : Dev nD) : after (ops : List (HloOp τ sig (Elt F))) (launchContents m c) (Proc.devRef .tc main_v44) = val_main_v44 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  rw [unary_at writes (launchContents m c) 53 main_v43 main_v44 rfl (by decide) (by decide), at_main_v43 m c]; rfl
theorem at_main_v45 (c : Dev nD) : after (ops : List (HloOp τ sig (Elt F))) (launchContents m c) (Proc.devRef .tc main_v45) = val_main_v45 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  rw [binary_at writes (launchContents m c) 54 main_v39 main_v44 main_v45 rfl (by decide) (by decide) (by decide), at_main_v39 m c, at_main_v44 m c]; rfl
theorem at_main_v46 (c : Dev nD) : after (ops : List (HloOp τ sig (Elt F))) (launchContents m c) (Proc.devRef .tc main_v46) = val_main_v46 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  rw [binary_at writes (launchContents m c) 55 main_v45 main_v45 main_v46 rfl (by decide) (by decide) (by decide), at_main_v45 m c]; rfl
theorem at_main_cst_8 (c : Dev nD) : after (ops : List (HloOp τ sig (Elt F))) (launchContents m c) (Proc.devRef .tc main_cst_8) = val_main_cst_8 (F := F) := by
  rw [nullary_at writes (launchContents m c) 56 main_cst_8 rfl (by decide)]; rfl
theorem at_main_v47 (c : Dev nD) : after (ops : List (HloOp τ sig (Elt F))) (launchContents m c) (Proc.devRef .tc main_v47) = val_main_v47 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  rw [binary_at writes (launchContents m c) 57 main_v46 main_cst_8 main_v47 rfl (by decide) (by decide) (by decide), at_main_v46 m c, at_main_cst_8 m c]; rfl
theorem at_main_v48 (c : Dev nD) : after (ops : List (HloOp τ sig (Elt F))) (launchContents m c) (Proc.devRef .tc main_v48) = val_main_v48 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  rw [unary_at writes (launchContents m c) 58 main_v47 main_v48 rfl (by decide) (by decide), at_main_v47 m c]; rfl
theorem at_main_cst_9 (c : Dev nD) : after (ops : List (HloOp τ sig (Elt F))) (launchContents m c) (Proc.devRef .tc main_cst_9) = val_main_cst_9 (F := F) := by
  rw [nullary_at writes (launchContents m c) 59 main_cst_9 rfl (by decide)]; rfl
theorem at_main_v49 (c : Dev nD) : after (ops : List (HloOp τ sig (Elt F))) (launchContents m c) (Proc.devRef .tc main_v49) = val_main_v49 (F := F) := by
  rw [unary_at writes (launchContents m c) 60 main_cst_9 main_v49 rfl (by decide) (by decide), at_main_cst_9 m c]; rfl
theorem at_main_v50 (c : Dev nD) : after (ops : List (HloOp τ sig (Elt F))) (launchContents m c) (Proc.devRef .tc main_v50) = val_main_v50 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  rw [binary_at writes (launchContents m c) 61 main_v48 main_v49 main_v50 rfl (by decide) (by decide) (by decide), at_main_v48 m c, at_main_v49 m c]; rfl
theorem at_main_v51 (c : Dev nD) : after (ops : List (HloOp τ sig (Elt F))) (launchContents m c) (Proc.devRef .tc main_v51) = val_main_v51 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  rw [unary_at writes (launchContents m c) 62 main_v43 main_v51 rfl (by decide) (by decide), at_main_v43 m c]; rfl
theorem at_main_v52 (c : Dev nD) : after (ops : List (HloOp τ sig (Elt F))) (launchContents m c) (Proc.devRef .tc main_v52) = val_main_v52 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  rw [binary_at writes (launchContents m c) 63 main_v39 main_v51 main_v52 rfl (by decide) (by decide) (by decide), at_main_v39 m c, at_main_v51 m c]; rfl
theorem at_main_cst_10 (c : Dev nD) : after (ops : List (HloOp τ sig (Elt F))) (launchContents m c) (Proc.devRef .tc main_cst_10) = val_main_cst_10 (F := F) := by
  rw [nullary_at writes (launchContents m c) 64 main_cst_10 rfl (by decide)]; rfl
theorem at_main_v53 (c : Dev nD) : after (ops : List (HloOp τ sig (Elt F))) (launchContents m c) (Proc.devRef .tc main_v53) = val_main_v53 (F := F) := by
  rw [unary_at writes (launchContents m c) 65 main_cst_10 main_v53 rfl (by decide) (by decide), at_main_cst_10 m c]; rfl
theorem at_main_v54 (c : Dev nD) : after (ops : List (HloOp τ sig (Elt F))) (launchContents m c) (Proc.devRef .tc main_v54) = val_main_v54 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  rw [binary_at writes (launchContents m c) 66 main_v50 main_v53 main_v54 rfl (by decide) (by decide) (by decide), at_main_v50 m c, at_main_v53 m c]; rfl
theorem at_main_v55 (c : Dev nD) : after (ops : List (HloOp τ sig (Elt F))) (launchContents m c) (Proc.devRef .tc main_v55) = val_main_v55 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  rw [unary_at writes (launchContents m c) 67 main_v54 main_v55 rfl (by decide) (by decide), at_main_v54 m c]; rfl
theorem at_main_v56 (c : Dev nD) : after (ops : List (HloOp τ sig (Elt F))) (launchContents m c) (Proc.devRef .tc main_v56) = val_main_v56 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  rw [unary_at writes (launchContents m c) 68 main_v55 main_v56 rfl (by decide) (by decide), at_main_v55 m c]; rfl
theorem at_main_v57 (c : Dev nD) : after (ops : List (HloOp τ sig (Elt F))) (launchContents m c) (Proc.devRef .tc main_v57) = val_main_v57 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  rw [binary_at writes (launchContents m c) 69 main_v52 main_v56 main_v57 rfl (by decide) (by decide) (by decide), at_main_v52 m c, at_main_v56 m c]; rfl
theorem at_main_v58 (c : Dev nD) : after (ops : List (HloOp τ sig (Elt F))) (launchContents m c) (Proc.devRef .tc main_v58) = val_main_v58 (F := F) (m ((c.tc : Thread nD τ).loc main_arg7)) := by
  rw [unary_at writes (launchContents m c) 70 main_arg7 main_v58 rfl (by decide) (by decide), at_main_arg7 m c]; rfl
theorem at_main_v59 (c : Dev nD) : after (ops : List (HloOp τ sig (Elt F))) (launchContents m c) (Proc.devRef .tc main_v59) = val_main_v59 (F := F) (m ((c.tc : Thread nD τ).loc main_arg7)) := by
  rw [unary_at writes (launchContents m c) 71 main_v58 main_v59 rfl (by decide) (by decide), at_main_v58 m c]; rfl
theorem at_main_v60 (c : Dev nD) : after (ops : List (HloOp τ sig (Elt F))) (launchContents m c) (Proc.devRef .tc main_v60) = val_main_v60 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  rw [binary_at writes (launchContents m c) 72 main_v57 main_v59 main_v60 rfl (by decide) (by decide) (by decide), at_main_v57 m c, at_main_v59 m c]; rfl
theorem at_main_v61 (c : Dev nD) : after (ops : List (HloOp τ sig (Elt F))) (launchContents m c) (Proc.devRef .tc main_v61) = val_main_v61 (F := F) (m ((c.tc : Thread nD τ).loc main_arg8)) := by
  rw [unary_at writes (launchContents m c) 73 main_arg8 main_v61 rfl (by decide) (by decide), at_main_arg8 m c]; rfl
theorem at_main_v62 (c : Dev nD) : after (ops : List (HloOp τ sig (Elt F))) (launchContents m c) (Proc.devRef .tc main_v62) = val_main_v62 (F := F) (m ((c.tc : Thread nD τ).loc main_arg8)) := by
  rw [unary_at writes (launchContents m c) 74 main_v61 main_v62 rfl (by decide) (by decide), at_main_v61 m c]; rfl
theorem at_main_v63 (c : Dev nD) : after (ops : List (HloOp τ sig (Elt F))) (launchContents m c) (Proc.devRef .tc main_v63) = val_main_v63 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  rw [binary_at writes (launchContents m c) 75 main_v60 main_v62 main_v63 rfl (by decide) (by decide) (by decide), at_main_v60 m c, at_main_v62 m c]; rfl
theorem at_main_v64 (c : Dev nD) : after (ops : List (HloOp τ sig (Elt F))) (launchContents m c) (Proc.devRef .tc main_v64) = val_main_v64 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  rw [unary_at writes (launchContents m c) 76 main_v63 main_v64 rfl (by decide) (by decide), at_main_v63 m c]; rfl
theorem at_main_v65 (c : Dev nD) : after (ops : List (HloOp τ sig (Elt F))) (launchContents m c) (Proc.devRef .tc main_v65) = val_main_v65 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  rw [unary_at writes (launchContents m c) 77 main_v64 main_v65 rfl (by decide) (by decide), at_main_v64 m c]; rfl
theorem at_main_cst_11 (c : Dev nD) : after (ops : List (HloOp τ sig (Elt F))) (launchContents m c) (Proc.devRef .tc main_cst_11) = val_main_cst_11 (F := F) := by
  rw [nullary_at writes (launchContents m c) 78 main_cst_11 rfl (by decide)]; rfl
theorem at_main_v66 (c : Dev nD) : after (ops : List (HloOp τ sig (Elt F))) (launchContents m c) (Proc.devRef .tc main_v66) = val_main_v66 (F := F) := by
  rw [unary_at writes (launchContents m c) 79 main_cst_11 main_v66 rfl (by decide) (by decide), at_main_cst_11 m c]; rfl
theorem at_main_v67 (c : Dev nD) : after (ops : List (HloOp τ sig (Elt F))) (launchContents m c) (Proc.devRef .tc main_v67) = val_main_v67 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  rw [binary_at writes (launchContents m c) 80 main_v66 main_v65 main_v67 rfl (by decide) (by decide) (by decide), at_main_v66 m c, at_main_v65 m c]; rfl
theorem at_main_cst_12 (c : Dev nD) : after (ops : List (HloOp τ sig (Elt F))) (launchContents m c) (Proc.devRef .tc main_cst_12) = val_main_cst_12 (F := F) := by
  rw [nullary_at writes (launchContents m c) 81 main_cst_12 rfl (by decide)]; rfl
theorem at_main_v68 (c : Dev nD) : after (ops : List (HloOp τ sig (Elt F))) (launchContents m c) (Proc.devRef .tc main_v68) = val_main_v68 (F := F) := by
  rw [unary_at writes (launchContents m c) 82 main_cst_12 main_v68 rfl (by decide) (by decide), at_main_cst_12 m c]; rfl
theorem at_main_v69 (c : Dev nD) : after (ops : List (HloOp τ sig (Elt F))) (launchContents m c) (Proc.devRef .tc main_v69) = val_main_v69 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  rw [binary_at writes (launchContents m c) 83 main_v68 main_v67 main_v69 rfl (by decide) (by decide) (by decide), at_main_v68 m c, at_main_v67 m c]; rfl
theorem at_main_v70 (c : Dev nD) : after (ops : List (HloOp τ sig (Elt F))) (launchContents m c) (Proc.devRef .tc main_v70) = val_main_v70 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  rw [binary_at writes (launchContents m c) 84 main_v63 main_v69 main_v70 rfl (by decide) (by decide) (by decide), at_main_v63 m c, at_main_v69 m c]; rfl
theorem at_main_v71 (c : Dev nD) : after (ops : List (HloOp τ sig (Elt F))) (launchContents m c) (Proc.devRef .tc main_v71) = val_main_v71 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  rw [binary_at writes (launchContents m c) 85 main_v70 main_arg9 main_v71 rfl (by decide) (by decide) (by decide), at_main_v70 m c, at_main_arg9 m c]; rfl
theorem at_main_v72 (c : Dev nD) : after (ops : List (HloOp τ sig (Elt F))) (launchContents m c) (Proc.devRef .tc main_v72) = val_main_v72 (F := F) (m ((c.tc : Thread nD τ).loc main_arg10)) := by
  rw [unary_at writes (launchContents m c) 86 main_arg10 main_v72 rfl (by decide) (by decide), at_main_arg10 m c]; rfl
theorem at_main_v73 (c : Dev nD) : after (ops : List (HloOp τ sig (Elt F))) (launchContents m c) (Proc.devRef .tc main_v73) = val_main_v73 (F := F) (m ((c.tc : Thread nD τ).loc main_arg10)) := by
  rw [unary_at writes (launchContents m c) 87 main_v72 main_v73 rfl (by decide) (by decide), at_main_v72 m c]; rfl
theorem at_main_v74 (c : Dev nD) : after (ops : List (HloOp τ sig (Elt F))) (launchContents m c) (Proc.devRef .tc main_v74) = val_main_v74 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  rw [binary_at writes (launchContents m c) 88 main_v71 main_v73 main_v74 rfl (by decide) (by decide) (by decide), at_main_v71 m c, at_main_v73 m c]; rfl
theorem at_main_v75 (c : Dev nD) : after (ops : List (HloOp τ sig (Elt F))) (launchContents m c) (Proc.devRef .tc main_v75) = val_main_v75 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) := by
  rw [binary_at writes (launchContents m c) 89 main_v70 main_arg11 main_v75 rfl (by decide) (by decide) (by decide), at_main_v70 m c, at_main_arg11 m c]; rfl
theorem at_main_v76 (c : Dev nD) : after (ops : List (HloOp τ sig (Elt F))) (launchContents m c) (Proc.devRef .tc main_v76) = val_main_v76 (F := F) (m ((c.tc : Thread nD τ).loc main_arg12)) := by
  rw [unary_at writes (launchContents m c) 90 main_arg12 main_v76 rfl (by decide) (by decide), at_main_arg12 m c]; rfl
theorem at_main_v77 (c : Dev nD) : after (ops : List (HloOp τ sig (Elt F))) (launchContents m c) (Proc.devRef .tc main_v77) = val_main_v77 (F := F) (m ((c.tc : Thread nD τ).loc main_arg12)) := by
  rw [unary_at writes (launchContents m c) 91 main_v76 main_v77 rfl (by decide) (by decide), at_main_v76 m c]; rfl
theorem at_main_v78 (c : Dev nD) : after (ops : List (HloOp τ sig (Elt F))) (launchContents m c) (Proc.devRef .tc main_v78) = val_main_v78 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  rw [binary_at writes (launchContents m c) 92 main_v75 main_v77 main_v78 rfl (by decide) (by decide) (by decide), at_main_v75 m c, at_main_v77 m c]; rfl
theorem at_main_v79 (c : Dev nD) : after (ops : List (HloOp τ sig (Elt F))) (launchContents m c) (Proc.devRef .tc main_v79) = val_main_v79 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  rw [unary_at writes (launchContents m c) 93 main_v74 main_v79 rfl (by decide) (by decide), at_main_v74 m c]; rfl
theorem at_main_v80 (c : Dev nD) : after (ops : List (HloOp τ sig (Elt F))) (launchContents m c) (Proc.devRef .tc main_v80) = val_main_v80 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  rw [unary_at writes (launchContents m c) 94 main_v78 main_v80 rfl (by decide) (by decide), at_main_v78 m c]; rfl
theorem at_main_call0_cst (c : Dev nD) : after (ops : List (HloOp τ sig (Elt F))) (launchContents m c) (Proc.devRef .tc main_call0_cst) = val_main_call0_cst (F := F) := by
  rw [nullary_at writes (launchContents m c) 95 main_call0_cst rfl (by decide)]; rfl
theorem at_main_call0_v0 (c : Dev nD) : after (ops : List (HloOp τ sig (Elt F))) (launchContents m c) (Proc.devRef .tc main_call0_v0) = val_main_call0_v0 (F := F) := by
  rw [unary_at writes (launchContents m c) 96 main_call0_cst main_call0_v0 rfl (by decide) (by decide), at_main_call0_cst m c]; rfl
theorem at_main_call0_v1 (c : Dev nD) : after (ops : List (HloOp τ sig (Elt F))) (launchContents m c) (Proc.devRef .tc main_call0_v1) = val_main_call0_v1 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  rw [binary_at writes (launchContents m c) 97 main_v80 main_call0_v0 main_call0_v1 rfl (by decide) (by decide) (by decide), at_main_v80 m c, at_main_call0_v0 m c]; rfl
theorem at_main_call0_v2 (c : Dev nD) : after (ops : List (HloOp τ sig (Elt F))) (launchContents m c) (Proc.devRef .tc main_call0_v2) = val_main_call0_v2 (F := F) := by
  rw [unary_at writes (launchContents m c) 98 main_call0_cst main_call0_v2 rfl (by decide) (by decide), at_main_call0_cst m c]; rfl
theorem at_main_call0_v3 (c : Dev nD) : after (ops : List (HloOp τ sig (Elt F))) (launchContents m c) (Proc.devRef .tc main_call0_v3) = val_main_call0_v3 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  rw [binary_at writes (launchContents m c) 99 main_v80 main_call0_v2 main_call0_v3 rfl (by decide) (by decide) (by decide), at_main_v80 m c, at_main_call0_v2 m c]; rfl
theorem at_main_call0_v4 (c : Dev nD) : after (ops : List (HloOp τ sig (Elt F))) (launchContents m c) (Proc.devRef .tc main_call0_v4) = val_main_call0_v4 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  rw [binary_at writes (launchContents m c) 100 main_call0_v3 main_call0_v3 main_call0_v4 rfl (by decide) (by decide) (by decide), at_main_call0_v3 m c]; rfl
theorem at_main_call0_v5 (c : Dev nD) : after (ops : List (HloOp τ sig (Elt F))) (launchContents m c) (Proc.devRef .tc main_call0_v5) = val_main_call0_v5 (F := F) := by
  rw [unary_at writes (launchContents m c) 101 main_call0_cst main_call0_v5 rfl (by decide) (by decide), at_main_call0_cst m c]; rfl
theorem at_main_call0_v6 (c : Dev nD) : after (ops : List (HloOp τ sig (Elt F))) (launchContents m c) (Proc.devRef .tc main_call0_v6) = val_main_call0_v6 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  rw [binary_at writes (launchContents m c) 102 main_v80 main_call0_v5 main_call0_v6 rfl (by decide) (by decide) (by decide), at_main_v80 m c, at_main_call0_v5 m c]; rfl
theorem at_main_call0_v7 (c : Dev nD) : after (ops : List (HloOp τ sig (Elt F))) (launchContents m c) (Proc.devRef .tc main_call0_v7) = val_main_call0_v7 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  rw [unary_at writes (launchContents m c) 103 main_call0_v3 main_call0_v7 rfl (by decide) (by decide), at_main_call0_v3 m c]; rfl
theorem at_main_call0_v8 (c : Dev nD) : after (ops : List (HloOp τ sig (Elt F))) (launchContents m c) (Proc.devRef .tc main_call0_v8) = val_main_call0_v8 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  rw [unary_at writes (launchContents m c) 104 main_call0_v7 main_call0_v8 rfl (by decide) (by decide), at_main_call0_v7 m c]; rfl
theorem at_main_call0_v9 (c : Dev nD) : after (ops : List (HloOp τ sig (Elt F))) (launchContents m c) (Proc.devRef .tc main_call0_v9) = val_main_call0_v9 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  rw [unary_at writes (launchContents m c) 105 main_call0_v8 main_call0_v9 rfl (by decide) (by decide), at_main_call0_v8 m c]; rfl
theorem at_main_call0_v10 (c : Dev nD) : after (ops : List (HloOp τ sig (Elt F))) (launchContents m c) (Proc.devRef .tc main_call0_v10) = val_main_call0_v10 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  rw [unary_at writes (launchContents m c) 106 main_call0_v9 main_call0_v10 rfl (by decide) (by decide), at_main_call0_v9 m c]; rfl
theorem at_main_call0_v11 (c : Dev nD) : after (ops : List (HloOp τ sig (Elt F))) (launchContents m c) (Proc.devRef .tc main_call0_v11) = val_main_call0_v11 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  rw [binary_at writes (launchContents m c) 107 main_call0_v1 main_call0_v10 main_call0_v11 rfl (by decide) (by decide) (by decide), at_main_call0_v1 m c, at_main_call0_v10 m c]; rfl
theorem at_main_v81 (c : Dev nD) : after (ops : List (HloOp τ sig (Elt F))) (launchContents m c) (Proc.devRef .tc main_v81) = val_main_v81 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  rw [ternary_at writes (launchContents m c) 108 main_call0_v4 main_call0_v6 main_call0_v11 main_v81 rfl (by decide) (by decide) (by decide) (by decide), at_main_call0_v4 m c, at_main_call0_v6 m c, at_main_call0_v11 m c]; rfl
theorem at_main_cst_13 (c : Dev nD) : after (ops : List (HloOp τ sig (Elt F))) (launchContents m c) (Proc.devRef .tc main_cst_13) = val_main_cst_13 (F := F) := by
  rw [nullary_at writes (launchContents m c) 109 main_cst_13 rfl (by decide)]; rfl
theorem at_main_v82 (c : Dev nD) : after (ops : List (HloOp τ sig (Elt F))) (launchContents m c) (Proc.devRef .tc main_v82) = val_main_v82 (F := F) := by
  rw [unary_at writes (launchContents m c) 110 main_cst_13 main_v82 rfl (by decide) (by decide), at_main_cst_13 m c]; rfl
theorem at_main_v83 (c : Dev nD) : after (ops : List (HloOp τ sig (Elt F))) (launchContents m c) (Proc.devRef .tc main_v83) = val_main_v83 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  rw [binary_at writes (launchContents m c) 111 main_v82 main_v81 main_v83 rfl (by decide) (by decide) (by decide), at_main_v82 m c, at_main_v81 m c]; rfl
theorem at_main_cst_14 (c : Dev nD) : after (ops : List (HloOp τ sig (Elt F))) (launchContents m c) (Proc.devRef .tc main_cst_14) = val_main_cst_14 (F := F) := by
  rw [nullary_at writes (launchContents m c) 112 main_cst_14 rfl (by decide)]; rfl
theorem at_main_v84 (c : Dev nD) : after (ops : List (HloOp τ sig (Elt F))) (launchContents m c) (Proc.devRef .tc main_v84) = val_main_v84 (F := F) := by
  rw [unary_at writes (launchContents m c) 113 main_cst_14 main_v84 rfl (by decide) (by decide), at_main_cst_14 m c]; rfl
theorem at_main_v85 (c : Dev nD) : after (ops : List (HloOp τ sig (Elt F))) (launchContents m c) (Proc.devRef .tc main_v85) = val_main_v85 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  rw [binary_at writes (launchContents m c) 114 main_v84 main_v83 main_v85 rfl (by decide) (by decide) (by decide), at_main_v84 m c, at_main_v83 m c]; rfl

/-! ## The run -/

/-- Every weakly fair execution of the reference terminates with its two results at their stages of the arguments'
    launch contents, and the arguments unchanged. -/
theorem run (ρ : Dev nD → PrngReg) :
    θ_run defs (onTc (τ := τ) (main (F := F))) ⟨m, fun _ => 0, ρ⟩ fun r => ∀ c : Dev nD,
      r.2.mem ((c.tc : Thread nD τ).loc main_v79) = val_main_v79 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_v85) = val_main_v85 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨(h c main_v79).trans (at_main_v79 m c), (h c main_v85).trans (at_main_v85 m c),
      (h c main_arg0).trans (at_main_arg0 m c),
      (h c main_arg1).trans (at_main_arg1 m c),
      (h c main_arg2).trans (at_main_arg2 m c),
      (h c main_arg3).trans (at_main_arg3 m c),
      (h c main_arg4).trans (at_main_arg4 m c),
      (h c main_arg5).trans (at_main_arg5 m c),
      (h c main_arg6).trans (at_main_arg6 m c),
      (h c main_arg7).trans (at_main_arg7 m c),
      (h c main_arg8).trans (at_main_arg8 m c),
      (h c main_arg9).trans (at_main_arg9 m c),
      (h c main_arg10).trans (at_main_arg10 m c),
      (h c main_arg11).trans (at_main_arg11 m c),
      (h c main_arg12).trans (at_main_arg12 m c)⟩)
    (run_seq scopedRefs_eq scopedSems_eq defs main (fun _ => ops) main_eq (fun _ => ops_sub) m ρ)

end Cert.Decoder.RefRun

end
-- ==== Proof.RefValue.lean ====
/-
  The reference program's two results, read one operation at a time, are the decoder's arithmetic of the
  specification: at (b, o, n, t) the first result is the first head's output o of the row after both layers at
  (b, n, t), and the second result is the second head's output through x ↦ 1/10 + 9/10 · softplus x.

  The reference works on the array transposed to (b, t, n, c).  Each group of operations is peeled in its own
  lemma, which leaves the previous group's value applied at an index given by its coordinates, so that no term
  is ever unfolded more than one group deep.
-/
import proofs.«113491_j33268816675399_1_alg».proof.Proof.RefReadP
import proofs.«113491_j33268816675399_1_alg».proof.Proof.DecoderSpec
import Idealize.ShloMosaic.Lib.IdealHost

noncomputable section

open scoped BigOperators

namespace Cert.Decoder.Ref

open Cert.ReferenceIdeal Cert.ReferenceIdeal.ReadP Idealize.ShloMosaic Idealize.ShloMosaic.ValueIdx

variable (x0 : (⟨S8x128x256x256, .f32⟩ : BufTy).Contents (Elt Ideal))
  (x1 : (⟨S128x128, .f32⟩ : BufTy).Contents (Elt Ideal)) (x2 x3 x4 : (⟨S128, .f32⟩ : BufTy).Contents (Elt Ideal))
  (x5 : (⟨S128x128, .f32⟩ : BufTy).Contents (Elt Ideal)) (x6 x7 x8 : (⟨S128, .f32⟩ : BufTy).Contents (Elt Ideal))
  (x9 x11 : (⟨S8x128, .f32⟩ : BufTy).Contents (Elt Ideal)) (x10 x12 : (⟨S8, .f32⟩ : BufTy).Contents (Elt Ideal))

/-! ## Layer 1: the affine map -/

theorem idx_v0 (b : Fin 8) (t n : Fin 256) (k : Fin 128) :
    idx_main_v0 (ix4 b t n k) = ix4 b k n t := by
  funext a; match a with | ⟨0, _⟩ => rfl | ⟨1, _⟩ => rfl | ⟨2, _⟩ => rfl | ⟨3, _⟩ => rfl

theorem lidx_v1 (b : Fin 8) (t n : Fin 256) (d k : Fin 128) :
    lidx_main_v1 (ix4 b t n d) k = ix4 b t n k := by
  funext a; match a with | ⟨0, _⟩ => rfl | ⟨1, _⟩ => rfl | ⟨2, _⟩ => rfl | ⟨3, _⟩ => rfl

theorem ridx_v1 (b : Fin 8) (t n : Fin 256) (d k : Fin 128) :
    ridx_main_v1 (ix4 b t n d) k = ix2 d k := by
  funext a; match a with | ⟨0, _⟩ => rfl | ⟨1, _⟩ => rfl

theorem idx_v3 (b : Fin 8) (t n : Fin 256) (d : Fin 128) :
    idx_main_v2 (idx_main_v3 (ix4 b t n d)) = ix1 d := by
  funext a; match a with | ⟨0, _⟩ => rfl

/-- The first affine map: at (b, t, n, d) it is output d of the affine map of the row of channels at (b, n, t). -/
theorem lin1 (b : Fin 8) (t n : Fin 256) (d : Fin 128) :
    val_main_v4 (F := Ideal) x0 x1 x2 (ix4 b t n d) = lin (rows x1) (vec x2) (rowOf x0 b n t) d := by
  rw [val_main_v4_apply, val_main_v1_apply, val_main_v3_apply, val_main_v2_apply, idx_v3]
  simp only [val_main_v0_apply, lidx_v1, ridx_v1, idx_v0, Ideal.addf_def]
  rfl

/-! ## Layer 1: the normalisation and the gate -/

theorem idx61 (b : Fin 8) (t n : Fin 256) (j : Fin 1) : idx_main_v6 (ix4 b t n j) = ix3 b t n := by
  funext a; match a with | ⟨0, _⟩ => rfl | ⟨1, _⟩ => rfl | ⟨2, _⟩ => rfl

theorem idx51 (b : Fin 8) (t n : Fin 256) (k : Fin 128) : idx_main_v5 (ix3 b t n) k = ix4 b t n k := by
  funext a; match a with | ⟨0, _⟩ => rfl | ⟨1, _⟩ => rfl | ⟨2, _⟩ => rfl | ⟨3, _⟩ => rfl

theorem idx131 (b : Fin 8) (t n : Fin 256) (j : Fin 1) : idx_main_v13 (ix4 b t n j) = ix3 b t n := by
  funext a; match a with | ⟨0, _⟩ => rfl | ⟨1, _⟩ => rfl | ⟨2, _⟩ => rfl

theorem idx121 (b : Fin 8) (t n : Fin 256) (k : Fin 128) : idx_main_v12 (ix3 b t n) k = ix4 b t n k := by
  funext a; match a with | ⟨0, _⟩ => rfl | ⟨1, _⟩ => rfl | ⟨2, _⟩ => rfl | ⟨3, _⟩ => rfl

theorem idx91 (b : Fin 8) (t n : Fin 256) (d : Fin 128) : idx_main_v9 (ix4 b t n d) = ix4 b t n (⟨0, Nat.one_pos⟩ : Fin 1) := by
  funext a; match a with | ⟨0, _⟩ => rfl | ⟨1, _⟩ => rfl | ⟨2, _⟩ => rfl | ⟨3, _⟩ => rfl

theorem idx161 (b : Fin 8) (t n : Fin 256) (d : Fin 128) : idx_main_v16 (ix4 b t n d) = ix4 b t n (⟨0, Nat.one_pos⟩ : Fin 1) := by
  funext a; match a with | ⟨0, _⟩ => rfl | ⟨1, _⟩ => rfl | ⟨2, _⟩ => rfl | ⟨3, _⟩ => rfl

theorem idx211 (b : Fin 8) (t n : Fin 256) (d : Fin 128) : idx_main_v21 (ix4 b t n d) = ix4 b t n (⟨0, Nat.one_pos⟩ : Fin 1) := by
  funext a; match a with | ⟨0, _⟩ => rfl | ⟨1, _⟩ => rfl | ⟨2, _⟩ => rfl | ⟨3, _⟩ => rfl

theorem idx241 (b : Fin 8) (t n : Fin 256) (d : Fin 128) : idx_main_v23 (idx_main_v24 (ix4 b t n d)) = ix1 d := by
  funext a; match a with | ⟨0, _⟩ => rfl

theorem idx271 (b : Fin 8) (t n : Fin 256) (d : Fin 128) : idx_main_v26 (idx_main_v27 (ix4 b t n d)) = ix1 d := by
  funext a; match a with | ⟨0, _⟩ => rfl

/-- The kept mean at (b, t, n): the sum of the 128 entries of the row divided by the word for 128; the sum's
    initial value is the zero word, which is 0. -/
theorem mean1 (b : Fin 8) (t n : Fin 256) (j : Fin 1) :
    val_main_v8 (F := Ideal) x0 x1 x2 (ix4 b t n j) = mean (fun d' => val_main_v4 (F := Ideal) x0 x1 x2 (ix4 b t n d')) := by
  rw [val_main_v8_apply, val_main_v6_apply, val_main_v5_apply, val_main_v7_apply, val_main_cst_0_apply, val_main_cst_apply, idx61]
  simp only [idx51, Ideal.ofBits_def, Ideal.hostDivf_def, Ideal.ofBits_zero_f32, zero_add]
  rfl

/-- The kept variance at (b, t, n): the mean of the squares of the centred row. -/
theorem var1 (b : Fin 8) (t n : Fin 256) (j : Fin 1) :
    val_main_v15 (F := Ideal) x0 x1 x2 (ix4 b t n j) =
      mean (fun k => (val_main_v4 (F := Ideal) x0 x1 x2 (ix4 b t n k) - mean (fun d' => val_main_v4 (F := Ideal) x0 x1 x2 (ix4 b t n d'))) * (val_main_v4 (F := Ideal) x0 x1 x2 (ix4 b t n k) - mean (fun d' => val_main_v4 (F := Ideal) x0 x1 x2 (ix4 b t n d')))) := by
  rw [val_main_v15_apply, val_main_v13_apply, val_main_v12_apply, val_main_v14_apply, val_main_cst_2_apply, val_main_cst_1_apply, idx131]
  simp only [idx121, val_main_v11_apply, val_main_v10_apply, val_main_v9_apply, idx91, mean1, Ideal.ofBits_def, Ideal.hostDivf_def,
    Ideal.mulf_def, Ideal.subf_def, Ideal.ofBits_zero_f32, zero_add]
  rfl

/-- The normalised row at (b, t, n, d). -/
theorem norm1 (b : Fin 8) (t n : Fin 256) (d : Fin 128) :
    val_main_v28 (F := Ideal) x0 x1 x2 x3 x4 (ix4 b t n d) = lnorm (vec x3) (vec x4) (fun d' => val_main_v4 (F := Ideal) x0 x1 x2 (ix4 b t n d')) d := by
  rw [val_main_v28_apply, val_main_v25_apply, val_main_v22_apply, val_main_v17_apply, val_main_v16_apply, val_main_v21_apply, val_main_v20_apply,
    val_main_v19_apply, val_main_v18_apply, val_main_cst_3_apply, val_main_v24_apply, val_main_v23_apply, val_main_v27_apply, val_main_v26_apply,
    idx161, idx211, idx241, idx271, mean1, var1]
  simp only [Ideal.ofBits_def, Ideal.addf_def, Ideal.mulf_def, Ideal.subf_def, Ideal.hostUnary_rsqrt_def]
  rfl

/-- The gate: y · 1 / (1 + e^(−y)), the two words for 1 being 1. -/
theorem gate1 (i : S8x256x256x128.Idx) :
    val_main_v35 (F := Ideal) x0 x1 x2 x3 x4 i = silu (val_main_v28 (F := Ideal) x0 x1 x2 x3 x4 i) := by
  rw [val_main_v35_apply, val_main_v34_apply, val_main_v33_apply, val_main_cst_5_apply, val_main_v32_apply, val_main_v31_apply, val_main_cst_4_apply,
    val_main_v30_apply, val_main_v29_apply]
  simp only [Ideal.ofBits_def, Ideal.ofBits_one_f32, Ideal.addf_def, Ideal.mulf_def, Ideal.hostDivf_def,
    Ideal.hostUnary_exp_def, Ideal.hostNegf_def, Ideal.negf_def]
  rfl

/-! ## Layer 2: the affine map -/

theorem lidx_v36 (b : Fin 8) (t n : Fin 256) (d k : Fin 128) :
    lidx_main_v36 (ix4 b t n d) k = ix4 b t n k := by
  funext a; match a with | ⟨0, _⟩ => rfl | ⟨1, _⟩ => rfl | ⟨2, _⟩ => rfl | ⟨3, _⟩ => rfl

theorem ridx_v36 (b : Fin 8) (t n : Fin 256) (d k : Fin 128) :
    ridx_main_v36 (ix4 b t n d) k = ix2 d k := by
  funext a; match a with | ⟨0, _⟩ => rfl | ⟨1, _⟩ => rfl

theorem idx_v38 (b : Fin 8) (t n : Fin 256) (d : Fin 128) :
    idx_main_v37 (idx_main_v38 (ix4 b t n d)) = ix1 d := by
  funext a; match a with | ⟨0, _⟩ => rfl

/-- The second affine map, of the first layer's row at the same (b, t, n). -/
theorem lin2 (b : Fin 8) (t n : Fin 256) (d : Fin 128) :
    val_main_v39 (F := Ideal) x0 x1 x2 x3 x4 x5 x6 (ix4 b t n d) =
      lin (rows x5) (vec x6) (fun k => val_main_v35 (F := Ideal) x0 x1 x2 x3 x4 (ix4 b t n k)) d := by
  rw [val_main_v39_apply, val_main_v36_apply, val_main_v38_apply, val_main_v37_apply, idx_v38]
  simp only [lidx_v36, ridx_v36, Ideal.addf_def]
  rfl

/-! ## Layer 2: the normalisation and the gate -/

theorem idx62 (b : Fin 8) (t n : Fin 256) (j : Fin 1) : idx_main_v41 (ix4 b t n j) = ix3 b t n := by
  funext a; match a with | ⟨0, _⟩ => rfl | ⟨1, _⟩ => rfl | ⟨2, _⟩ => rfl

theorem idx52 (b : Fin 8) (t n : Fin 256) (k : Fin 128) : idx_main_v40 (ix3 b t n) k = ix4 b t n k := by
  funext a; match a with | ⟨0, _⟩ => rfl | ⟨1, _⟩ => rfl | ⟨2, _⟩ => rfl | ⟨3, _⟩ => rfl

theorem idx132 (b : Fin 8) (t n : Fin 256) (j : Fin 1) : idx_main_v48 (ix4 b t n j) = ix3 b t n := by
  funext a; match a with | ⟨0, _⟩ => rfl | ⟨1, _⟩ => rfl | ⟨2, _⟩ => rfl

theorem idx122 (b : Fin 8) (t n : Fin 256) (k : Fin 128) : idx_main_v47 (ix3 b t n) k = ix4 b t n k := by
  funext a; match a with | ⟨0, _⟩ => rfl | ⟨1, _⟩ => rfl | ⟨2, _⟩ => rfl | ⟨3, _⟩ => rfl

theorem idx92 (b : Fin 8) (t n : Fin 256) (d : Fin 128) : idx_main_v44 (ix4 b t n d) = ix4 b t n (⟨0, Nat.one_pos⟩ : Fin 1) := by
  funext a; match a with | ⟨0, _⟩ => rfl | ⟨1, _⟩ => rfl | ⟨2, _⟩ => rfl | ⟨3, _⟩ => rfl

theorem idx162 (b : Fin 8) (t n : Fin 256) (d : Fin 128) : idx_main_v51 (ix4 b t n d) = ix4 b t n (⟨0, Nat.one_pos⟩ : Fin 1) := by
  funext a; match a with | ⟨0, _⟩ => rfl | ⟨1, _⟩ => rfl | ⟨2, _⟩ => rfl | ⟨3, _⟩ => rfl

theorem idx212 (b : Fin 8) (t n : Fin 256) (d : Fin 128) : idx_main_v56 (ix4 b t n d) = ix4 b t n (⟨0, Nat.one_pos⟩ : Fin 1) := by
  funext a; match a with | ⟨0, _⟩ => rfl | ⟨1, _⟩ => rfl | ⟨2, _⟩ => rfl | ⟨3, _⟩ => rfl

theorem idx242 (b : Fin 8) (t n : Fin 256) (d : Fin 128) : idx_main_v58 (idx_main_v59 (ix4 b t n d)) = ix1 d := by
  funext a; match a with | ⟨0, _⟩ => rfl

theorem idx272 (b : Fin 8) (t n : Fin 256) (d : Fin 128) : idx_main_v61 (idx_main_v62 (ix4 b t n d)) = ix1 d := by
  funext a; match a with | ⟨0, _⟩ => rfl

/-- The kept mean at (b, t, n): the sum of the 128 entries of the row divided by the word for 128; the sum's
    initial value is the zero word, which is 0. -/
theorem mean2 (b : Fin 8) (t n : Fin 256) (j : Fin 1) :
    val_main_v43 (F := Ideal) x0 x1 x2 x3 x4 x5 x6 (ix4 b t n j) = mean (fun d' => val_main_v39 (F := Ideal) x0 x1 x2 x3 x4 x5 x6 (ix4 b t n d')) := by
  rw [val_main_v43_apply, val_main_v41_apply, val_main_v40_apply, val_main_v42_apply, val_main_cst_7_apply, val_main_cst_6_apply, idx62]
  simp only [idx52, Ideal.ofBits_def, Ideal.hostDivf_def, Ideal.ofBits_zero_f32, zero_add]
  rfl

/-- The kept variance at (b, t, n): the mean of the squares of the centred row. -/
theorem var2 (b : Fin 8) (t n : Fin 256) (j : Fin 1) :
    val_main_v50 (F := Ideal) x0 x1 x2 x3 x4 x5 x6 (ix4 b t n j) =
      mean (fun k => (val_main_v39 (F := Ideal) x0 x1 x2 x3 x4 x5 x6 (ix4 b t n k) - mean (fun d' => val_main_v39 (F := Ideal) x0 x1 x2 x3 x4 x5 x6 (ix4 b t n d'))) * (val_main_v39 (F := Ideal) x0 x1 x2 x3 x4 x5 x6 (ix4 b t n k) - mean (fun d' => val_main_v39 (F := Ideal) x0 x1 x2 x3 x4 x5 x6 (ix4 b t n d')))) := by
  rw [val_main_v50_apply, val_main_v48_apply, val_main_v47_apply, val_main_v49_apply, val_main_cst_9_apply, val_main_cst_8_apply, idx132]
  simp only [idx122, val_main_v46_apply, val_main_v45_apply, val_main_v44_apply, idx92, mean2, Ideal.ofBits_def, Ideal.hostDivf_def,
    Ideal.mulf_def, Ideal.subf_def, Ideal.ofBits_zero_f32, zero_add]
  rfl

/-- The normalised row at (b, t, n, d). -/
theorem norm2 (b : Fin 8) (t n : Fin 256) (d : Fin 128) :
    val_main_v63 (F := Ideal) x0 x1 x2 x3 x4 x5 x6 x7 x8 (ix4 b t n d) = lnorm (vec x7) (vec x8) (fun d' => val_main_v39 (F := Ideal) x0 x1 x2 x3 x4 x5 x6 (ix4 b t n d')) d := by
  rw [val_main_v63_apply, val_main_v60_apply, val_main_v57_apply, val_main_v52_apply, val_main_v51_apply, val_main_v56_apply, val_main_v55_apply,
    val_main_v54_apply, val_main_v53_apply, val_main_cst_10_apply, val_main_v59_apply, val_main_v58_apply, val_main_v62_apply, val_main_v61_apply,
    idx162, idx212, idx242, idx272, mean2, var2]
  simp only [Ideal.ofBits_def, Ideal.addf_def, Ideal.mulf_def, Ideal.subf_def, Ideal.hostUnary_rsqrt_def]
  rfl

/-- The gate: y · 1 / (1 + e^(−y)), the two words for 1 being 1. -/
theorem gate2 (i : S8x256x256x128.Idx) :
    val_main_v70 (F := Ideal) x0 x1 x2 x3 x4 x5 x6 x7 x8 i = silu (val_main_v63 (F := Ideal) x0 x1 x2 x3 x4 x5 x6 x7 x8 i) := by
  rw [val_main_v70_apply, val_main_v69_apply, val_main_v68_apply, val_main_cst_12_apply, val_main_v67_apply, val_main_v66_apply, val_main_cst_11_apply,
    val_main_v65_apply, val_main_v64_apply]
  simp only [Ideal.ofBits_def, Ideal.ofBits_one_f32, Ideal.addf_def, Ideal.mulf_def, Ideal.hostDivf_def,
    Ideal.hostUnary_exp_def, Ideal.hostNegf_def, Ideal.negf_def]
  rfl

/-! ## The rows after each group, as functions of the channel -/

theorem row4 (b : Fin 8) (t n : Fin 256) :
    (fun d' => val_main_v4 (F := Ideal) x0 x1 x2 (ix4 b t n d')) = lin (rows x1) (vec x2) (rowOf x0 b n t) :=
  funext fun d => lin1 x0 x1 x2 b t n d

theorem row35 (b : Fin 8) (t n : Fin 256) :
    (fun k => val_main_v35 (F := Ideal) x0 x1 x2 x3 x4 (ix4 b t n k)) =
      layer (rows x1) (vec x2) (vec x3) (vec x4) (rowOf x0 b n t) := by
  funext d
  rw [gate1, norm1, row4]
  rfl

theorem row39 (b : Fin 8) (t n : Fin 256) :
    (fun d' => val_main_v39 (F := Ideal) x0 x1 x2 x3 x4 x5 x6 (ix4 b t n d')) =
      lin (rows x5) (vec x6) (layer (rows x1) (vec x2) (vec x3) (vec x4) (rowOf x0 b n t)) := by
  funext d
  rw [lin2, row35]

theorem row70 (b : Fin 8) (t n : Fin 256) :
    (fun k => val_main_v70 (F := Ideal) x0 x1 x2 x3 x4 x5 x6 x7 x8 (ix4 b t n k)) =
      featAt x0 x1 x2 x3 x4 x5 x6 x7 x8 b n t := by
  funext d
  rw [gate2, norm2, row39]
  rfl

/-! ## The two heads -/

theorem lidx_v71 (b : Fin 8) (t n : Fin 256) (o : Fin 8) (k : Fin 128) :
    lidx_main_v71 (ix4 b t n o) k = ix4 b t n k := by
  funext a; match a with | ⟨0, _⟩ => rfl | ⟨1, _⟩ => rfl | ⟨2, _⟩ => rfl | ⟨3, _⟩ => rfl

theorem ridx_v71 (b : Fin 8) (t n : Fin 256) (o : Fin 8) (k : Fin 128) :
    ridx_main_v71 (ix4 b t n o) k = ix2 o k := by
  funext a; match a with | ⟨0, _⟩ => rfl | ⟨1, _⟩ => rfl

theorem idx_v73 (b : Fin 8) (t n : Fin 256) (o : Fin 8) :
    idx_main_v72 (idx_main_v73 (ix4 b t n o)) = ix1 o := by
  funext a; match a with | ⟨0, _⟩ => rfl

theorem lidx_v75 (b : Fin 8) (t n : Fin 256) (o : Fin 8) (k : Fin 128) :
    lidx_main_v75 (ix4 b t n o) k = ix4 b t n k := by
  funext a; match a with | ⟨0, _⟩ => rfl | ⟨1, _⟩ => rfl | ⟨2, _⟩ => rfl | ⟨3, _⟩ => rfl

theorem ridx_v75 (b : Fin 8) (t n : Fin 256) (o : Fin 8) (k : Fin 128) :
    ridx_main_v75 (ix4 b t n o) k = ix2 o k := by
  funext a; match a with | ⟨0, _⟩ => rfl | ⟨1, _⟩ => rfl

theorem idx_v77 (b : Fin 8) (t n : Fin 256) (o : Fin 8) :
    idx_main_v76 (idx_main_v77 (ix4 b t n o)) = ix1 o := by
  funext a; match a with | ⟨0, _⟩ => rfl

/-- The first head at (b, t, n, o). -/
theorem head1 (b : Fin 8) (t n : Fin 256) (o : Fin 8) :
    val_main_v74 (F := Ideal) x0 x1 x2 x3 x4 x5 x6 x7 x8 x9 x10 (ix4 b t n o) =
      lin (rows x9) (vec x10) (featAt x0 x1 x2 x3 x4 x5 x6 x7 x8 b n t) o := by
  rw [val_main_v74_apply, val_main_v71_apply, val_main_v73_apply, val_main_v72_apply, idx_v73, ← row70]
  simp only [lidx_v71, ridx_v71, Ideal.addf_def]
  rfl

/-- The second head at (b, t, n, o). -/
theorem head2 (b : Fin 8) (t n : Fin 256) (o : Fin 8) :
    val_main_v78 (F := Ideal) x0 x1 x2 x3 x4 x5 x6 x7 x8 x11 x12 (ix4 b t n o) =
      lin (rows x11) (vec x12) (featAt x0 x1 x2 x3 x4 x5 x6 x7 x8 b n t) o := by
  rw [val_main_v78_apply, val_main_v75_apply, val_main_v77_apply, val_main_v76_apply, idx_v77, ← row70]
  simp only [lidx_v75, ridx_v75, Ideal.addf_def]
  rfl

/-! ## The transposes back to (b, o, n, t), and the second head's output map -/

theorem idx_v79 (b o : Fin 8) (n t : Fin 256) : idx_main_v79 (ix4 b o n t) = ix4 b t n o := by
  funext a; match a with | ⟨0, _⟩ => rfl | ⟨1, _⟩ => rfl | ⟨2, _⟩ => rfl | ⟨3, _⟩ => rfl

theorem idx_v80 (b o : Fin 8) (n t : Fin 256) : idx_main_v80 (ix4 b o n t) = ix4 b t n o := by
  funext a; match a with | ⟨0, _⟩ => rfl | ⟨1, _⟩ => rfl | ⟨2, _⟩ => rfl | ⟨3, _⟩ => rfl

/-- A value differs from itself never: the comparison's bit is 0. -/
theorem cmp_une_self (y : EReal) : Ideal.cmp .une y y = 0#1 := by
  simp [Ideal.cmp]

/-- The called function: its select takes the third operand, max x 0 + log (1 + e^(−|x − 0|)). -/
theorem softplus_eq (i : S8x8x256x256.Idx) :
    val_main_v81 (F := Ideal) x0 x1 x2 x3 x4 x5 x6 x7 x8 x11 x12 i =
      softplus (val_main_v80 (F := Ideal) x0 x1 x2 x3 x4 x5 x6 x7 x8 x11 x12 i) := by
  rw [val_main_v81_apply, val_main_call0_v4_apply,
    Ideal.cmpf_def, cmp_une_self, select_zero,
    val_main_call0_v11_apply, val_main_call0_v1_apply, val_main_call0_v10_apply, val_main_call0_v9_apply,
    val_main_call0_v8_apply, val_main_call0_v7_apply, val_main_call0_v3_apply]
  simp only [val_main_call0_v0_apply, val_main_call0_v2_apply, val_main_call0_cst_apply, Ideal.ofBits_def, Ideal.addf_def,
    Ideal.subf_def, Ideal.maximumf_def, Ideal.hostUnary_exp_def, Ideal.hostUnary_log1p_def, Ideal.hostNegf_def,
    Ideal.negf_def]
  rfl

/-- The second result before its transposition's index is read: 1/10-word + 9/10-word · softplus. -/
theorem scale_eq (i : S8x8x256x256.Idx) :
    val_main_v85 (F := Ideal) x0 x1 x2 x3 x4 x5 x6 x7 x8 x11 x12 i =
      scale (val_main_v80 (F := Ideal) x0 x1 x2 x3 x4 x5 x6 x7 x8 x11 x12 i) := by
  rw [val_main_v85_apply, val_main_v84_apply, val_main_cst_14_apply, val_main_v83_apply, val_main_v82_apply,
    val_main_cst_13_apply, softplus_eq]
  rfl

/-! ## The two results -/

theorem ref_mu (x0 : (⟨S8x128x256x256, .f32⟩ : BufTy).Contents (Elt Ideal)) (x1 : (⟨S128x128, .f32⟩ : BufTy).Contents (Elt Ideal)) (x2 x3 x4 : (⟨S128, .f32⟩ : BufTy).Contents (Elt Ideal)) (x5 : (⟨S128x128, .f32⟩ : BufTy).Contents (Elt Ideal)) (x6 x7 x8 : (⟨S128, .f32⟩ : BufTy).Contents (Elt Ideal)) (x9 : (⟨S8x128, .f32⟩ : BufTy).Contents (Elt Ideal)) (x10 : (⟨S8, .f32⟩ : BufTy).Contents (Elt Ideal)) :
    val_main_v79 (F := Ideal) x0 x1 x2 x3 x4 x5 x6 x7 x8 x9 x10 = Cert.Decoder.muArr x0 x1 x2 x3 x4 x5 x6 x7 x8 x9 x10 := by
  funext i
  obtain ⟨b, o, n, t, rfl⟩ : ∃ b o n t, i = ix4 b o n t := ⟨_, _, _, _, eq_ix4 i⟩
  rw [val_main_v79_apply, idx_v79, head1]
  rfl

theorem ref_sigma (x0 : (⟨S8x128x256x256, .f32⟩ : BufTy).Contents (Elt Ideal)) (x1 : (⟨S128x128, .f32⟩ : BufTy).Contents (Elt Ideal)) (x2 x3 x4 : (⟨S128, .f32⟩ : BufTy).Contents (Elt Ideal)) (x5 : (⟨S128x128, .f32⟩ : BufTy).Contents (Elt Ideal)) (x6 x7 x8 : (⟨S128, .f32⟩ : BufTy).Contents (Elt Ideal)) (x11 : (⟨S8x128, .f32⟩ : BufTy).Contents (Elt Ideal)) (x12 : (⟨S8, .f32⟩ : BufTy).Contents (Elt Ideal)) :
    val_main_v85 (F := Ideal) x0 x1 x2 x3 x4 x5 x6 x7 x8 x11 x12 = Cert.Decoder.sigmaArr x0 x1 x2 x3 x4 x5 x6 x7 x8 x11 x12 := by
  funext i
  obtain ⟨b, o, n, t, rfl⟩ : ∃ b o n t, i = ix4 b o n t := ⟨_, _, _, _, eq_ix4 i⟩
  rw [scale_eq, val_main_v80_apply, idx_v80, head2]
  rfl

end Cert.Decoder.Ref

end
-- ==== Proof.lean ====
/-
  The certificate's five claims.

  Both programs compute, at every position (b, n, t) of an input of shape [8, 128, 256, 256], the same function of
  the 128 channels found there: two layers (affine map, normalisation of the row with gain and shift, the gate
  y · 1 / (1 + e^(−y))) and two affine heads with 8 outputs, the second followed by x ↦ 1/10 + 9/10 · softplus x.
  The kernel does it block by block over a grid of 8 × 8 points, with the channels moved to the last axis inside
  the body and the products on the matrix unit; the reference does it on whole arrays.  On the extended reals a
  change of float format is the identity and a sum does not depend on its order, so the two results are equal
  index by index, with no condition on the inputs.  The kernel's result arrays and the reference's are each shown
  equal to one specification (DecoderSpec), and the claims follow.
-/
import proofs.«113491_j33268816675399_1_alg».proof.Defs
import proofs.«113491_j33268816675399_1_alg».proof.Proof.Gen.Kernel
import proofs.«113491_j33268816675399_1_alg».proof.Proof.Gen.Kernel.Skeleton
import proofs.«113491_j33268816675399_1_alg».proof.Proof.Gen.Kernel.Launch
import proofs.«113491_j33268816675399_1_alg».proof.Proof.Gen.Kernel.Points
import proofs.«113491_j33268816675399_1_alg».proof.Proof.Gen.Kernel.Frame
import proofs.«113491_j33268816675399_1_alg».proof.Proof.Gen.KernelIdeal
import proofs.«113491_j33268816675399_1_alg».proof.Proof.Gen.KernelIdeal.Skeleton
import proofs.«113491_j33268816675399_1_alg».proof.Proof.Gen.KernelIdeal.Launch
import proofs.«113491_j33268816675399_1_alg».proof.Proof.Gen.KernelIdeal.Points
import proofs.«113491_j33268816675399_1_alg».proof.Proof.Gen.KernelIdeal.Frame
import proofs.«113491_j33268816675399_1_alg».proof.Proof.Gen.ReferenceIdeal
import proofs.«113491_j33268816675399_1_alg».proof.Proof.Gen.Pre_finite_inputs
import proofs.«113491_j33268816675399_1_alg».proof.Proof.Gen.KernelIdeal.Value
import proofs.«113491_j33268816675399_1_alg».proof.Proof.DecoderSpec
import proofs.«113491_j33268816675399_1_alg».proof.Proof.KernelValue
import proofs.«113491_j33268816675399_1_alg».proof.Proof.RefRun
import proofs.«113491_j33268816675399_1_alg».proof.Proof.RefValue
import Idealize.ShloMosaic.Adequacy
import Idealize.ShloMosaic.Init

noncomputable section

namespace Cert.Proof

open Idealize.ShloMosaic Idealize.ShloMosaic.TcCoe Idealize.SL.Sem

/-- The kernel as printed terminates without a fault and leaves its arguments as they were. -/
theorem frame_k : Cert.frame_Kernel (hKernel := Cert.Kernel.Gen.facts) (hPre_finite_inputs := Cert.Pre_finite_inputs.Gen.facts) :=
  fun m ρ _ => Cert.Kernel.Gen.frame m ρ

/-- So does its idealization. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference is a straight line of host operations: its run, read one operation at a time, with the two results forgotten. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2)
    (Cert.Decoder.RefRun.run (F := Ideal) m ρ)

/-- From memories that agree on the arguments, the kernel's two result arrays are the specification's arrays of the
    arguments (block by block, the blocks filling the arrays) and so are the reference's (operation by operation). -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Decoder.muArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    fun c => Cert.Decoder.sigmaArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)),
    Cert.Decoder.KernelValue.run m ρ, ?_⟩
  refine (θ_run Cert.ReferenceIdeal.defs _ _).mono (fun _ h c => ⟨(h c).1.trans ?_, (h c).2.1.trans ?_, (h c).2.2⟩)
    (Cert.Decoder.RefRun.run (F := Ideal) m' ρ')
  · obtain ⟨a0, a1, a2, a3, a4, a5, a6, a7, a8, a9, a10, a11, a12⟩ := hagree c
    rw [Cert.Decoder.Ref.ref_mu, a0, a1, a2, a3, a4, a5, a6, a7, a8, a9, a10]
  · obtain ⟨a0, a1, a2, a3, a4, a5, a6, a7, a8, a9, a10, a11, a12⟩ := hagree c
    rw [Cert.Decoder.Ref.ref_sigma, a0, a1, a2, a3, a4, a5, a6, a7, a8, a11, a12]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
